-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x16 : Shape := ⟨2, ![50000, 16]⟩
abbrev S3200000x16 : Shape := ⟨2, ![3200000, 16]⟩
abbrev S16x8 : Shape := ⟨2, ![16, 8]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S201x64 : Shape := ⟨2, ![201, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S3200000x16 : S_.BroadcastsInDim S3200000x16 (![] : Fin 0 → Fin S3200000x16.rank)
  reducesTo_S3200000x16_S_d0_1 : S3200000x16.ReducesTo [0, 1] S_
  bcast_S_S16x8 : S_.BroadcastsInDim S16x8 (![] : Fin 0 → Fin S16x8.rank)
  reducesTo_S16x8_S_d0_1 : S16x8.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S201x64 : S_.BroadcastsInDim S201x64 (![] : Fin 0 → Fin S201x64.rank)
  reducesTo_S201x64_S_d0_1 : S201x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg13 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg9 : FVec F S32 .f32) (main_arg10 : FVec F S201x64 .f32) (main_arg11 : FVec F S64 .f32) (main_arg12 : FVec F S64x64 .f32) (main_arg13 : FVec F S64 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S201x64 .f32 := Host.absf main_arg10
  let main_cst_14 : FVec F S_ .f32 := constant S_ .f32 0x7F800000#32
  let main_v40 : FVec F S201x64 .f32 := broadcastInDim S201x64 ![] bcast_S_S201x64 main_cst_14
  let main_v41 : IVec S201x64 1 := cmpf .olt main_v39 main_v40
  let main_c_15 : IVec S_ 1 := constantI S_ 1 1#1
  let main_v42 : IVec S_ 1 := (fun x v => Host.reduce IntOp.andi x v reducesTo_S201x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_v48 main_v49 main_v50

def fn_part1 {F : FTy → Type} [FloatOps F] (main_arg6 : FVec F S32x32 .f32) (main_arg7 : FVec F S32 .f32) (main_arg8 : FVec F S32x32 .f32) (main_arg9 : FVec F S32 .f32) (main_arg10 : FVec F S201x64 .f32) (main_arg11 : FVec F S64 .f32) (main_arg12 : FVec F S64x64 .f32) (main_arg13 : FVec F S64 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : FVec F S50000x16 .f32) (main_arg2 : FVec F S3200000x16 .f32) (main_arg3 : FVec F S16x8 .f32) (main_arg4 : IVec S2x3200000 32) (main_arg5 : IVec S100000 32) (main_arg6 : FVec F S32x32 .f32) (main_arg7 : FVec F S32 .f32) (main_arg8 : FVec F S32x32 .f32) (main_arg9 : FVec F S32 .f32) (main_arg10 : FVec F S201x64 .f32) (main_arg11 : FVec F S64 .f32) (main_arg12 : FVec F S64x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S3200000x16 .f32 := Host.absf main_arg2
  let main_cst_2 : FVec F S_ .f32 := constant S_ .f32 0x7F800000#32
  let main_v10 : FVec F S3200000x16 .f32 := broadcastInDim S3200000x16 ![] bcast_S_S3200000x16 main_cst_2
  let main_v11 : IVec S3200000x16 1 := cmpf .olt main_v9 main_v10
  let main_c_3 : IVec S_ 1 := constantI S_ 1 1#1
  let main_v12 : IVec S_ 1 := (fun x v => Host.reduce IntOp.andi x v reducesTo_S3200000x16_S_d0_1 h_S_) main_v11 main_c_3
  let main_v13 : IVec S_ 1 := andi main_v8 main_v12
  let main_v14 : FVec F S16x8 .f32 := Host.absf main_arg3
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S50000x16 : Shape := ⟨2, ![50000, 16]⟩
abbrev S3200000x16 : Shape := ⟨2, ![3200000, 16]⟩
abbrev S16x8 : Shape := ⟨2, ![16, 8]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S201x64 : Shape := ⟨2, ![201, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x32 : Shape := ⟨2, ![1, 32]⟩
abbrev S3200000x32 : Shape := ⟨2, ![3200000, 32]⟩
abbrev S10000x16 : Shape := ⟨2, ![10000, 16]⟩
abbrev S10000x32 : Shape := ⟨2, ![10000, 32]⟩
abbrev S100000x1 : Shape := ⟨2, ![100000, 1]⟩
abbrev S100000x32 : Shape := ⟨2, ![100000, 32]⟩
abbrev S8000x32 : Shape := ⟨2, ![8000, 32]⟩
abbrev S100000x8 : Shape := ⟨2, ![100000, 8]⟩
abbrev S100000x201 : Shape := ⟨2, ![100000, 201]⟩
abbrev S1x64 : Shape := ⟨2, ![1, 64]⟩
abbrev S10000x201 : Shape := ⟨2, ![10000, 201]⟩
abbrev S10000x64 : Shape := ⟨2, ![10000, 64]⟩

abbrev nBuf : Space → Nat
  | .hbm => 103
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S50000x16, .f32⟩
  | .hbm, ⟨2, _⟩ => ⟨S3200000x16, .f32⟩
  | .hbm, ⟨3, _⟩ => ⟨S16x8, .f32⟩
  | .hbm, ⟨4, _⟩ => ⟨S2x3200000, .i32⟩
  | .hbm, ⟨5, _⟩ => ⟨S100000, .i32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S201x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S1x32, .f32⟩
  | .hbm, ⟨28, _⟩ => ⟨S1x32, .f32⟩
  | .hbm, ⟨29, _⟩ => ⟨S3200000x32, .f32⟩
  | .hbm, ⟨30, _⟩ => ⟨S_, .f32⟩
  | .hbm, ⟨31, _⟩ => ⟨S3200000x1, .f32⟩
  | .hbm, ⟨32, _⟩ => ⟨S_, .f32⟩
  | .hbm, ⟨33, _⟩ => ⟨S100000x1, .f32⟩
  | .hbm, ⟨34, _⟩ => ⟨S3200000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S_, .f32⟩
  | .hbm, ⟨40, _⟩ => ⟨S100000x32, .f32⟩
  | .hbm, ⟨41, _⟩ => ⟨S3200000x1, .i32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S3200000x32, .f32⟩
  | .hbm, ⟨46, _⟩ => ⟨S_, .f32⟩
  | .hbm, ⟨47, _⟩ => ⟨S100000x32, .f32⟩
  | .hbm, ⟨48, _⟩ => ⟨S3200000x1, .i32⟩
  | .hbm, ⟨49, _⟩ => ⟨S100000x32, .f32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S_, .f32⟩
  | .hbm, ⟨55, _⟩ => ⟨S100000x32, .f32⟩
  | .hbm, ⟨56, _⟩ => ⟨S100000x32, .f32⟩
  | .hbm, ⟨57, _⟩ => ⟨S_, .f32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S_, .i32⟩
  | .hbm, ⟨62, _⟩ => ⟨S3200000, .i32⟩
  | .hbm, ⟨63, _⟩ => ⟨S3200000, .i1⟩
  | .hbm, ⟨64, _⟩ => ⟨S_, .i32⟩
  | .hbm, ⟨65, _⟩ => ⟨S3200000, .i32⟩
  | .hbm, ⟨66, _⟩ => ⟨S3200000, .i32⟩
  | .hbm, ⟨67, _⟩ => ⟨S3200000, .i32⟩
  | .hbm, ⟨68, _⟩ => ⟨S3200000x1, .i32⟩
  | .hbm, ⟨69, _⟩ => ⟨S3200000x32, .f32⟩
  | .hbm, ⟨70, _⟩ => ⟨S3200000x32, .f32⟩
  | .hbm, ⟨71, _⟩ => ⟨S3200000x32, .f32⟩
  | .hbm, ⟨72, _⟩ => ⟨S_, .f32⟩
  | .hbm, ⟨73, _⟩ => ⟨S100000x32, .f32⟩
  | .hbm, ⟨74, _⟩ => ⟨S3200000x1, .i32⟩
  | .hbm, ⟨75, _⟩ => ⟨S100000x32, .f32⟩
  | .hbm, ⟨76, _⟩ => ⟨S_, .f32⟩
  | .hbm, ⟨77, _⟩ => ⟨S100000x32, .f32⟩
  | .hbm, ⟨78, _⟩ => ⟨S3200000x1, .i32⟩
  | .hbm, ⟨79, _⟩ => ⟨S100000x32, .f32⟩
  | .hbm, ⟨80, _⟩ => ⟨S100000x32, .f32⟩
  | .hbm, ⟨81, _⟩ => ⟨S100000x32, .f32⟩
  | .hbm, ⟨82, _⟩ => ⟨S100000x32, .f32⟩
  | .hbm, ⟨83, _⟩ => ⟨S100000x32, .f32⟩
  | .hbm, ⟨84, _⟩ => ⟨S100000x32, .f32⟩
  | .hbm, ⟨85, _⟩ => ⟨S100000x32, .f32⟩
  | .hbm, ⟨86, _⟩ => ⟨S100000x32, .f32⟩
  | .hbm, ⟨87, _⟩ => ⟨S100000x32, .f32⟩
  | .hbm, ⟨88, _⟩ => ⟨S100000x32, .f32⟩
  | .hbm, ⟨89, _⟩ => ⟨S100000x32, .f32⟩
  | .hbm, ⟨90, _⟩ => ⟨S_, .i32⟩
  | .hbm, ⟨91, _⟩ => ⟨S100000, .i32⟩
  | .hbm, ⟨92, _⟩ => ⟨S100000, .i1⟩
  | .hbm, ⟨93, _⟩ => ⟨S_, .i32⟩
  | .hbm, ⟨94, _⟩ => ⟨S100000, .i32⟩
  | .hbm, ⟨95, _⟩ => ⟨S100000, .i32⟩
  | .hbm, ⟨96, _⟩ => ⟨S100000, .i32⟩
  | .hbm, ⟨97, _⟩ => ⟨S100000x1, .i32⟩
  | .hbm, ⟨98, _⟩ => ⟨S100000x8, .f32⟩
  | .hbm, ⟨99, _⟩ => ⟨S100000x201, .f32⟩
  | .hbm, ⟨100, _⟩ => ⟨S1x64, .f32⟩
  | .hbm, ⟨101, _⟩ => ⟨S1x64, .f32⟩
  | .hbm, ⟨102, _⟩ => ⟨S100000x64, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S8000x32, .f32⟩
  | .local _ .vmem, ⟨11, _⟩ => ⟨S8000x32, .f32⟩
  | .local _ .vmem, ⟨12, _⟩ => ⟨S8000x32, .f32⟩
  | .local _ .vmem, ⟨13, _⟩ => ⟨S8000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S8000x32, .f32⟩
  | .local _ .vmem, ⟨18, _⟩ => ⟨S10000x201, .f32⟩
  | .local _ .vmem, ⟨19, _⟩ => ⟨S10000x201, .f32⟩
  | .local _ .vmem, ⟨20, _⟩ => ⟨S201x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call0_cst : Ref sig .tc := ⟨.hbm, 54, rfl⟩
abbrev main_call0_v0 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44_0 : Ref sig .tc := ⟨.hbm, 70, rfl⟩
abbrev main_v44_1 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![320], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x201 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S201x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S32_S1x32 : S32.ShapeCasts S1x32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  concatenates_S10000x16_S10000x16_S10000x32_d1 : Shape.Concatenates [S10000x16, S10000x16] S10000x32 1
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S3200000x1 : S_.BroadcastsInDim S3200000x1 (![] : Fin 0 → Fin S3200000x1.rank)
  bcast_S_S100000x1 : S_.BroadcastsInDim S100000x1 (![] : Fin 0 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x1_S100000x32_S100000x32_S100000x32_S100000x32_S100000x8_S100000x201_d1 : Shape.Concatenates [S100000x64, S100000x1, S100000x32, S100000x32, S100000x32, S100000x32, S100000x8] S100000x201 1
  shapeCasts_S64_S1x64 : S64.ShapeCasts S1x64
  inb_S10000x201_S10000x201_0_0 : ∀ a, (![0, 0] : Fin 2 → Nat) a + S10000x201.size a ≤ S10000x201.size a
  h_S10000x201 : 0 < S10000x201.numel
  shapeCasts_S10000x201_S10000x201 : S10000x201.ShapeCasts S10000x201
  inb_S201x64_S201x64_0_0 : ∀ a, (![0, 0] : Fin 2 → Nat) a + S201x64.size a ≤ S201x64.size a
  h_S201x64 : 0 < S201x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S50000x16_S3200000x1_S3200000x16_1_0_n_n_0_1_116_wf : GatherDims.WF S50000x16 S3200000x1 S3200000x16 [1] [0] [] [0] [] 1 ![1, 16]
  dot_S10000x32_S32x32_S10000x32_1_0_0_1_n_n_wf : DotDims.WF S10000x32 S32x32 S10000x32 [1] [0] [0] [1] [] []
  scatter_S100000x1_S3200000x1_S3200000x1_1_0_0_1_wf : ScatterDims.WF S100000x1 S3200000x1 S3200000x1 [1] [0] [0] 1
  scatter_S100000x32_S3200000x1_S3200000x32_1_0_0_1_wf : ScatterDims.WF S100000x32 S3200000x1 S3200000x32 [1] [0] [0] 1
  gather_S100000x32_S3200000x1_S3200000x32_1_0_n_n_0_1_132_wf : GatherDims.WF S100000x32 S3200000x1 S3200000x32 [1] [0] [] [0] [] 1 ![1, 32]
  gather_S16x8_S100000x1_S100000x8_1_0_n_n_0_1_18_wf : GatherDims.WF S16x8 S100000x1 S100000x8 [1] [0] [] [0] [] 1 ![1, 8]
  dot_S10000x201_S201x64_S10000x64_1_0_0_1_n_n_wf : DotDims.WF S10000x201 S201x64 S10000x64 [1] [0] [0] [1] [] []
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S3200000x16.size a
  hwx0_0 : ∀ i : grid0.Coords, EltTy.bits .f32 = 32 ∨ (Rect.block (s := S3200000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S3200000x16.size a
  hwx0_1 : ∀ i : grid0.Coords, EltTy.bits .f32 = 32 ∨ (Rect.block (s := S3200000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x32.size a ≤ S3200000x32.size a
  hwx0_6 : ∀ i : grid0.Coords, EltTy.bits .f32 = 32 ∨ (Rect.block (s := S3200000x32) S10000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S3200000x32.size a
  hwx1_0 : ∀ i : grid1.Coords, EltTy.bits .f32 = 32 ∨ (Rect.block (s := S3200000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S3200000x32.size a
  hwx1_1 : ∀ i : grid1.Coords, EltTy.bits .f32 = 32 ∨ (Rect.block (s := S3200000x32) S8000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x32.size a ≤ S3200000x32.size a
  hwx1_2 : ∀ i : grid1.Coords, EltTy.bits .f32 = 32 ∨ (Rect.block (s := S3200000x32) S8000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x32.size a ≤ S3200000x32.size a
  hwx1_3 : ∀ i : grid1.Coords, EltTy.bits .f32 = 32 ∨ (Rect.block (s := S3200000x32) S8000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x201.size a ≤ S100000x201.size a
  hwx2_0 : ∀ i : grid2.Coords, EltTy.bits .f32 = 32 ∨ (Rect.block (s := S100000x201) S10000x201.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S201x64.size a ≤ S201x64.size a
  hwx2_1 : ∀ i : grid2.Coords, EltTy.bits .f32 = 32 ∨ (Rect.block (s := S201x64) S201x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def gather_S50000x16_S3200000x1_S3200000x16_1_0_n_n_0_1_116 : GatherDims S50000x16 S3200000x1 S3200000x16 where
  offsetDims := [1]
  collapsedSliceDims := [0]
  operandBatchingDims := []
  startIndicesBatchingDims := []
  startIndexMap := [0]
  indexVectorDim := 1
  sliceSizes := ![1, 16]
  wf := gather_S50000x16_S3200000x1_S3200000x16_1_0_n_n_0_1_116_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def gather_S16x8_S100000x1_S100000x8_1_0_n_n_0_1_18 : GatherDims S16x8 S100000x1 S100000x8 where
  offsetDims := [1]
  collapsedSliceDims := [0]
  operandBatchingDims := []
  startIndicesBatchingDims := []
  startIndexMap := [0]
  indexVectorDim := 1
  sliceSizes := ![1, 8]
  wf := gather_S16x8_S100000x1_S100000x8_1_0_n_n_0_1_18_wf
def dot_S10000x201_S201x64_S10000x64_1_0_0_1_n_n : DotDims S10000x201 S201x64 S10000x64 where
  lhsContracting := [1]
  rhsContracting := [0]
  lhsNonContracting := [0]
  rhsNonContracting := [1]
  lhsBatch := []
  rhsBatch := []
  wf := dot_S10000x201_S201x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v10) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S10000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S8000x32.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S8000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S10000x201.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S201x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S50000x16 : Shape := ⟨2, ![50000, 16]⟩
abbrev S3200000x16 : Shape := ⟨2, ![3200000, 16]⟩
abbrev S16x8 : Shape := ⟨2, ![16, 8]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S201x64 : Shape := ⟨2, ![201, 64]⟩
abbrev S64 : Shape := ⟨1, ![64]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S100000x1 : Shape := ⟨2, ![100000, 1]⟩
abbrev S100000x32 : Shape := ⟨2, ![100000, 32]⟩
abbrev S100000x8 : Shape := ⟨2, ![100000, 8]⟩
abbrev S100000x201 : Shape := ⟨2, ![100000, 201]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x64, .f32⟩
  | 1 => ⟨S50000x16, .f32⟩
  | 2 => ⟨S3200000x16, .f32⟩
  | 3 => ⟨S16x8, .f32⟩
  | 4 => ⟨S2x3200000, .i32⟩
  | 5 => ⟨S100000, .i32⟩
  | 6 => ⟨S32x32, .f32⟩
  | 7 => ⟨S32, .f32⟩
  | 8 => ⟨S32x32, .f32⟩
  | 9 => ⟨S32, .f32⟩
  | 10 => ⟨S201x64, .f32⟩
  | 11 => ⟨S64, .f32⟩
  | 12 => ⟨S64x64, .f32⟩
  | 13 => ⟨S64, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x16, .f32⟩
  | 27 => ⟨S3200000x32, .f32⟩
  | 28 => ⟨S3200000x32, .f32⟩
  | 29 => ⟨S1x32, .f32⟩
  | 30 => ⟨S3200000x32, .f32⟩
  | 31 => ⟨S3200000x32, .f32⟩
  | 32 => ⟨S_, .f32⟩
  | 33 => ⟨S3200000x32, .f32⟩
  | 34 => ⟨S3200000x32, .i1⟩
  | 35 => ⟨S_, .f32⟩
  | 36 => ⟨S3200000x32, .f32⟩
  | 37 => ⟨S3200000x32, .f32⟩
  | 38 => ⟨S3200000x32, .f32⟩
  | 39 => ⟨S3200000x32, .f32⟩
  | 40 => ⟨S1x32, .f32⟩
  | 41 => ⟨S3200000x32, .f32⟩
  | 42 => ⟨S3200000x32, .f32⟩
  | 43 => ⟨S_, .f32⟩
  | 44 => ⟨S3200000x1, .f32⟩
  | 45 => ⟨S_, .f32⟩
  | 46 => ⟨S100000x1, .f32⟩
  | 47 => ⟨S3200000x1, .i32⟩
  | 48 => ⟨S100000x1, .f32⟩
  | 49 => ⟨S_, .f32⟩
  | 50 => ⟨S100000x1, .f32⟩
  | 51 => ⟨S100000x1, .f32⟩
  | 52 => ⟨S_, .f32⟩
  | 53 => ⟨S100000x32, .f32⟩
  | 54 => ⟨S3200000x1, .i32⟩
  | 55 => ⟨S100000x32, .f32⟩
  | 56 => ⟨S100000x32, .f32⟩
  | 57 => ⟨S100000x32, .f32⟩
  | 58 => ⟨S3200000x32, .f32⟩
  | 59 => ⟨S_, .f32⟩
  | 60 => ⟨S100000x32, .f32⟩
  | 61 => ⟨S3200000x1, .i32⟩
  | 62 => ⟨S100000x32, .f32⟩
  | 63 => ⟨S100000x32, .f32⟩
  | 64 => ⟨S100000x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x32, .f32⟩
  | 74 => ⟨S_, .i32⟩
  | 75 => ⟨S3200000, .i32⟩
  | 76 => ⟨S3200000, .i1⟩
  | 77 => ⟨S_, .i32⟩
  | 78 => ⟨S3200000, .i32⟩
  | 79 => ⟨S3200000, .i32⟩
  | 80 => ⟨S3200000, .i32⟩
  | 81 => ⟨S3200000x1, .i32⟩
  | 82 => ⟨S3200000x32, .f32⟩
  | 83 => ⟨S3200000x32, .f32⟩
  | 84 => ⟨S3200000x32, .f32⟩
  | 85 => ⟨S3200000x32, .f32⟩
  | 86 => ⟨S_, .f32⟩
  | 87 => ⟨S100000x32, .f32⟩
  | 88 => ⟨S3200000x1, .i32⟩
  | 89 => ⟨S100000x32, .f32⟩
  | 90 => ⟨S100000x32, .f32⟩
  | 91 => ⟨S100000x32, .f32⟩
  | 92 => ⟨S100000x32, .f32⟩
  | 93 => ⟨S100000x32, .f32⟩
  | 94 => ⟨S100000x32, .f32⟩
  | 95 => ⟨S3200000x32, .f32⟩
  | 96 => ⟨S3200000x32, .f32⟩
  | 97 => ⟨S_, .f32⟩
  | 98 => ⟨S100000x32, .f32⟩
  | 99 => ⟨S3200000x1, .i32⟩
  | 100 => ⟨S100000x32, .f32⟩
  | 101 => ⟨S100000x32, .f32⟩
  | 102 => ⟨S100000x32, .f32⟩
  | 103 => ⟨S100000x32, .f32⟩
  | 104 => ⟨S100000x32, .f32⟩
  | 105 => ⟨S100000x32, .f32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x8, .f32⟩
  | 115 => ⟨S100000x201, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .i1⟩
  | 123 => ⟨S_, .f32⟩
  | 124 => ⟨S100000x64, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_cst_7 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_12 : Ref sig .tc := ⟨.hbm, 106, rfl⟩
abbrev main_v76 : Ref sig .tc := ⟨.hbm, 107, rfl⟩
abbrev main_v77 : Ref sig .tc := ⟨.hbm, 108, rfl⟩
abbrev main_c_13 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x1_S100000x32_S100000x32_S100000x32_S100000x32_S100000x8_S100000x201_d1 : Shape.Concatenates [S100000x64, S100000x1, S100000x32, S100000x32, S100000x32, S100000x32, S100000x8] S100000x201 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S50000x16_S3200000x1_S3200000x16_1_0_n_n_0_1_116_wf : GatherDims.WF S50000x16 S3200000x1 S3200000x16 [1] [0] [] [0] [] 1 ![1, 16]
  dot_S3200000x32_S32x32_S3200000x32_1_0_0_1_n_n_wf : DotDims.WF S3200000x32 S32x32 S3200000x32 [1] [0] [0] [1] [] []
  scatter_S100000x1_S3200000x1_S3200000x1_1_0_0_1_wf : ScatterDims.WF S100000x1 S3200000x1 S3200000x1 [1] [0] [0] 1
  scatter_S100000x32_S3200000x1_S3200000x32_1_0_0_1_wf : ScatterDims.WF S100000x32 S3200000x1 S3200000x32 [1] [0] [0] 1
  gather_S100000x32_S3200000x1_S3200000x32_1_0_n_n_0_1_132_wf : GatherDims.WF S100000x32 S3200000x1 S3200000x32 [1] [0] [] [0] [] 1 ![1, 32]
  gather_S16x8_S100000x1_S100000x8_1_0_n_n_0_1_18_wf : GatherDims.WF S16x8 S100000x1 S100000x8 [1] [0] [] [0] [] 1 ![1, 8]
  dot_S100000x201_S201x64_S100000x64_1_0_0_1_n_n_wf : DotDims.WF S100000x201 S201x64 S100000x64 [1] [0] [0] [1] [] []
  dot_S100000x64_S64x64_S100000x64_1_0_0_1_n_n_wf : DotDims.WF S100000x64 S64x64 S100000x64 [1] [0] [0] [1] [] []

variable [Facts₀]

def gather_S50000x16_S3200000x1_S3200000x16_1_0_n_n_0_1_116 : GatherDims S50000x16 S3200000x1 S3200000x16 where
  offsetDims := [1]
  collapsedSliceDims := [0]
  operandBatchingDims := []
  startIndicesBatchingDims := []
  startIndexMap := [0]
  indexVectorDim := 1
  sliceSizes := ![1, 16]
  wf := gather_S50000x16_S3200000x1_S3200000x16_1_0_n_n_0_1_116_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def gather_S16x8_S100000x1_S100000x8_1_0_n_n_0_1_18 : GatherDims S16x8 S100000x1 S100000x8 where
  offsetDims := [1]
  collapsedSliceDims := [0]
  operandBatchingDims := []
  startIndicesBatchingDims := []
  startIndexMap := [0]
  indexVectorDim := 1
  sliceSizes := ![1, 8]
  wf := gather_S16x8_S100000x1_S100000x8_1_0_n_n_0_1_18_wf
def dot_S100000x201_S201x64_S100000x64_1_0_0_1_n_n : DotDims S100000x201 S201x64 S100000x64 where
  lhsContracting := [1]
  rhsContracting := [0]
  lhsNonContracting := [0]
  rhsNonContracting := [1]
  lhsBatch := []
  rhsBatch := []
  wf := dot_S100000x201_S201x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.Blocks.lean ====
/-
  The three kernel regions of the word-level program, each at the contents `V` its region is entered from: what a
  window's block at a grid point is (the window's array read through the block's rectangle), the rectangles the
  body loads and stores through (every one a whole staging buffer), and what the body leaves in each output
  window's staging buffer as a function of the input blocks — the one store's payload over the loads.

  Region 0 (edge MLP, 320 points of 10000 edges): windows 0, 1 the gathered node features and the edge
  attributes (10000×16 each), 2 and 4 the two 32×32 weight matrices, 3 and 5 the two biases as 1×32 rows, 6 the
  result (10000×32). Region 1 (third and fourth powers of a difference, 400 points of 8000 edges): windows 0, 1
  the two operands, 2, 3 the two results. Region 2 (node MLP, 10 points of 10000 nodes): window 0 the features
  (10000×201), 1 and 3 the weights (201×64, 64×64), 2 and 4 the biases (1×64), 5 the result (10000×64).
-/
import proofs.«143132_j31748398252728_1_alg».proof.Proof.Gen.Kernel.Launch
import proofs.«143132_j31748398252728_1_alg».proof.Proof.Gen.Kernel.Skeleton
import proofs.«143132_j31748398252728_1_alg».proof.Proof.Gen.Kernel.Points
import Idealize.ShloMosaic.Lib.Pipeline.FrameBody

noncomputable section

namespace Cert.Kernel.Fr

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Region 0 -/

/-- Window `w`'s block at point `t` of region 0: its array, as the region finds it, read through the block. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_feat : Rect S10000x16 := Rect.unit (s := S10000x16) ![0, 0] S10000x16.size inb_S10000x16_S10000x16_0_0
abbrev r0_wt : Rect S32x32 := Rect.unit (s := S32x32) ![0, 0] S32x32.size inb_S32x32_S32x32_0_0
abbrev r0_bias : Rect S1x32 := Rect.unit (s := S1x32) ![0, 0] S1x32.size inb_S1x32_S1x32_0_0
abbrev r0_out : Rect S10000x32 := Rect.unit (s := S10000x32) ![0, 0] S10000x32.size inb_S10000x32_S10000x32_0_0

/-- The result window's staging buffer after the body: the one store, of the two-layer perceptron of the six
    input blocks (`x0`, `x1` the two feature halves, `x2`, `x3` the first layer, `x4`, `x5` the second). -/
def out0_6 (x0 : Vec F S10000x16 .f32) (x1 : Vec F S10000x16 .f32) (x2 : Vec F S32x32 .f32) (x3 : Vec F S1x32 .f32)
    (x4 : Vec F S32x32 .f32) (x5 : Vec F S1x32 .f32) : Vec F S10000x32 .f32 :=
  View.canon [⟨r0_out, k0_pay1 (View.ld x0 r0_feat) (View.ld x1 r0_feat) (View.ld x2 r0_wt) (View.ld x4 r0_wt) (View.ld x3 r0_bias) (View.ld x5 r0_bias)⟩]

/-! ## Region 1 -/

/-- Window `w`'s block at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_blk : Rect S8000x32 := Rect.unit (s := S8000x32) ![0, 0] S8000x32.size inb_S8000x32_S8000x32_0_0

/-- The first result's buffer after the body: the cube of the difference of the two operand blocks. -/
def out1_2 (x0 : Vec F S8000x32 .f32) (x1 : Vec F S8000x32 .f32) : Vec F S8000x32 .f32 :=
  View.canon [⟨r1_blk, k1_pay2 (View.ld x0 r1_blk) (View.ld x1 r1_blk)⟩]

/-- The second result's buffer after the body: the fourth power of that difference. -/
def out1_3 (x0 : Vec F S8000x32 .f32) (x1 : Vec F S8000x32 .f32) : Vec F S8000x32 .f32 :=
  View.canon [⟨r1_blk, k1_pay3 (View.ld x0 r1_blk) (View.ld x1 r1_blk)⟩]

/-! ## Region 2 -/

/-- Window `w`'s block at point `t` of region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_feat : Rect S10000x201 := Rect.unit (s := S10000x201) ![0, 0] S10000x201.size inb_S10000x201_S10000x201_0_0
abbrev r2_wa : Rect S201x64 := Rect.unit (s := S201x64) ![0, 0] S201x64.size inb_S201x64_S201x64_0_0
abbrev r2_wb : Rect S64x64 := Rect.unit (s := S64x64) ![0, 0] S64x64.size inb_S64x64_S64x64_0_0
abbrev r2_bias : Rect S1x64 := Rect.unit (s := S1x64) ![0, 0] S1x64.size inb_S1x64_S1x64_0_0
abbrev r2_out : Rect S10000x64 := Rect.unit (s := S10000x64) ![0, 0] S10000x64.size inb_S10000x64_S10000x64_0_0

/-- The result window's staging buffer after the body: the two-layer perceptron of the feature block (`x0`),
    the first layer (`x1`, `x2`) and the second (`x3`, `x4`). -/
def out2_5 (x0 : Vec F S10000x201 .f32) (x1 : Vec F S201x64 .f32) (x2 : Vec F S1x64 .f32) (x3 : Vec F S64x64 .f32)
    (x4 : Vec F S1x64 .f32) : Vec F S10000x64 .f32 :=
  View.canon [⟨r2_out, k2_pay1 (View.ld x0 r2_feat) (View.ld x1 r2_wa) (View.ld x3 r2_wb) (View.ld x2 r2_bias) (View.ld x4 r2_bias)⟩]

end Cert.Kernel.Fr

end
-- ==== Proof.K.R0.lean ====
/-
  Region 0 of the word-level program (the edge perceptron, 320 points of 10000 edges), at the contents V the
  region is entered from: what each input window's staging buffer holds at every point (its block: the two
  feature halves move with the point, the two weight matrices and the two bias rows are fetched once and stay),
  what the body leaves (the inputs as found, the result's buffer at the one store's payload over the six input
  blocks), the body's triple, the pipeline's proof data and the body obligation at every point.
-/
import proofs.«143132_j31748398252728_1_alg».proof.Proof.K.Blocks
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds -/

/-- Input window 0's staging buffer holds its block at every point, fetched there or not (unfetched, the block
    index has not moved), for any proof data whose array is V's and whose body leaves the block in place: the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block
    index has not moved), for any proof data whose array is V's and whose body leaves the block in place: the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block
    index has not moved), for any proof data whose array is V's and whose body leaves the block in place: the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (unfetched, the block
    index has not moved), for any proof data whose array is V's and whose body leaves the block in place: the
    window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (unfetched, the block
    index has not moved), for any proof data whose array is V's and whose body leaves the block in place: the
    window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (unfetched, the block
    index has not moved), for any proof data whose array is V's and whose body leaves the block in place: the
    window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stores cover their buffers -/

/-- The one store into the result's buffer is of the whole buffer. -/
theorem cover0_6 (p0 : Vec F S10000x32 .f32) (y : S10000x32.Idx) :
    ∃ pc ∈ ([⟨r0_out, p0⟩] : List (View.Piece (Elt F) S10000x32 .f32)), y ∈ pc.1.set :=
  View.cover_of_tiled [⟨r0_out, p0⟩] S10000x32.size (by rfl) y

/-! ## The body's triple -/

set_option maxHeartbeats 1000000 in
/-- The body on whole staging memrefs, the inputs' at read contents and the results' at anything, runs to the
    continuation holding the inputs' as they were and each result's at its one store's payload over the inputs. -/
theorem sound_kernel0 (c : Dev nD) (E : Set ℕ) (i : grid0.Coords)
    (arg1 : Memref sig .tc .vmem S10000x16 .f32) (harg1 : arg1.IsWhole) (arg2 : Memref sig .tc .vmem S10000x16 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x16 .f32) (x1 : Vec F S10000x16 .f32) (x2 : Vec F S32x32 .f32) (x3 : Vec F S1x32 .f32) (x4 : Vec F S32x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__edge_mlp_kernel i arg1 harg1 arg2 harg2 arg3 harg3 arg4 harg4 arg5 harg5 arg6 harg6 arg7 harg7) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of region 0 on core c: the arrays as the region finds them; after the body at point t each
    input's buffer at its block and the result's at the two-layer perceptron of the six input blocks; the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/-
  Region 1 of the word-level program (the third and fourth powers of a difference, 400 points of 8000 edges),
  at the contents V the region is entered from: what each input window's staging buffer holds at every point
  (its block, fetched there or not), what the body leaves (the inputs as found, each result's buffer at the
  one store's payload over the two operand blocks), the body's triple, the pipeline's proof data and the
  body obligation at every point.
-/
import proofs.«143132_j31748398252728_1_alg».proof.Proof.K.Blocks
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds -/

/-- The first operand's staging buffer holds its block at every point, for any proof data whose array is V's
    and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover their buffers -/

/-- The one store into a result's buffer is of the whole buffer. -/
theorem cover1_2 (p0 : Vec F S8000x32 .f32) (y : S8000x32.Idx) :
    ∃ pc ∈ ([⟨r1_blk, p0⟩] : List (View.Piece (Elt F) S8000x32 .f32)), y ∈ pc.1.set :=
  View.cover_of_tiled [⟨r1_blk, p0⟩] S8000x32.size (by rfl) y

/-! ## The body's triple -/

set_option maxHeartbeats 1000000 in
/-- The body on whole staging memrefs, the operands' at read contents x0, x1 and the results' at anything, runs to
    the continuation holding the operands' as they were and the results' at the cube and the fourth power of the
    difference. -/
theorem sound_kernel1 (c : Dev nD) (E : Set ℕ) (i : grid1.Coords)
    (arg1 : Memref sig .tc .vmem S8000x32 .f32) (harg1 : arg1.IsWhole) (arg2 : Memref sig .tc .vmem S8000x32 .f32) (harg2 : arg2.IsWhole)
    (arg3 : Memref sig .tc .vmem S8000x32 .f32) (harg3 : arg3.IsWhole) (arg4 : Memref sig .tc .vmem S8000x32 .f32) (harg4 : arg4.IsWhole)
    (x0 x1 : Vec F S8000x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__diff_pow_kernel i arg1 harg1 arg2 harg2 arg3 harg3 arg4 harg4) K := by
  simp only [cc1__diff_pow_kernel_eq_skeleton]; unfold cc1__diff_pow_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The pipeline's proof data -/

/-- The proof data of region 1 on core c: the arrays as the region finds them; after the body at point t each
    operand's buffer at its block, the first result's at the cube and the second's at the fourth power of the
    blocks' difference; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2.lean ====
/-
  Region 2 of the word-level program (the node perceptron, 10 points of 10000 nodes), at the contents V the
  region is entered from: what each input window's staging buffer holds at every point (its block: the features
  move with the point, the two weight matrices and the two bias rows are fetched once and stay), what the body
  leaves (the inputs as found, the result's buffer at the one store's payload over the five input blocks), the
  body's triple, the pipeline's proof data and the body obligation at every point.
-/
import proofs.«143132_j31748398252728_1_alg».proof.Proof.K.Blocks
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds -/

/-- Input window 0's staging buffer holds its block at every point, fetched there or not (unfetched, the block
    index has not moved), for any proof data whose array is V's and whose body leaves the block in place: the
    window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block
    index has not moved), for any proof data whose array is V's and whose body leaves the block in place: the
    window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block
    index has not moved), for any proof data whose array is V's and whose body leaves the block in place: the
    window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, the block
    index has not moved), for any proof data whose array is V's and whose body leaves the block in place: the
    window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (unfetched, the block
    index has not moved), for any proof data whose array is V's and whose body leaves the block in place: the
    window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The stores cover their buffers -/

/-- The one store into the result's buffer is of the whole buffer. -/
theorem cover2_5 (p0 : Vec F S10000x64 .f32) (y : S10000x64.Idx) :
    ∃ pc ∈ ([⟨r2_out, p0⟩] : List (View.Piece (Elt F) S10000x64 .f32)), y ∈ pc.1.set :=
  View.cover_of_tiled [⟨r2_out, p0⟩] S10000x64.size (by rfl) y

/-! ## The body's triple -/

set_option maxHeartbeats 1000000 in
/-- The body on whole staging memrefs, the inputs' at read contents and the results' at anything, runs to the
    continuation holding the inputs' as they were and each result's at its one store's payload over the inputs. -/
theorem sound_kernel2 (c : Dev nD) (E : Set ℕ) (i : grid2.Coords)
    (arg1 : Memref sig .tc .vmem S10000x201 .f32) (harg1 : arg1.IsWhole) (arg2 : Memref sig .tc .vmem S201x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x201 .f32) (x1 : Vec F S201x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__node_mlp_kernel i arg1 harg1 arg2 harg2 arg3 harg3 arg4 harg4 arg5 harg5 arg6 harg6) K := by
  simp only [cc2__node_mlp_kernel_eq_skeleton]; unfold cc2__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of region 2 on core c: the arrays as the region finds them; after the body at point t each
    input's buffer at its block and the result's at the two-layer perceptron of the five input blocks; the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Run.lean ====
/-
  The run of the word-level program from the launch to the return: @main is eight segments — a stretch of host
  operations, the edge perceptron's region, three stretches (a call of relu splits the middle one), the
  difference powers' region, a stretch, the node perceptron's region. The buffers' contents at each boundary are
  a fold from the launch memory (a stretch's contents after its operations; a region's arrays at what its
  write-backs leave, every other buffer as entered); every region's proof data are taken at its entry contents;
  the run terminates, faults nowhere, and every unscoped buffer ends at the last boundary's contents. Read back
  through the fold, every argument ends as launched, and each region's result array is its proof data's.
-/
import proofs.«143132_j31748398252728_1_alg».proof.Proof.K.R0
import proofs.«143132_j31748398252728_1_alg».proof.Proof.K.R1
import proofs.«143132_j31748398252728_1_alg».proof.Proof.K.R2
import proofs.«143132_j31748398252728_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 (m : (ℓ : Loc nD τ sig) → Buf (Elt F) ℓ) (ρ : Dev nD → PrngReg) : Dev nD → Valuation τ sig (Elt F) := fun c b => m (c, b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, each result's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered: the pipeline writes back results only. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- After the second host stretch. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- After the call of relu. -/
abbrev W4 : Dev nD → Valuation τ sig (Elt F) := fun c => StableHlo.after hostOps1_1 (W3 m ρ c)
/-- The same read at the TensorCore's references. -/
abbrev V4 : (c : Dev nD) → (b : Ref sig .tc) → Buf (Elt F) ((c : Thread nD τ).loc b) := fun c b => W4 m ρ c b

/-- After the stretch that follows it (region 1's entry). -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b

/-- At region 1's exit: its arrays at what the pipeline leaves (the inputs as entered, each result's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves, and every other buffer what it held at
    entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered: the pipeline writes back results only. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))

/-- After the last host stretch (region 2's entry). -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b

/-- At region 2's exit: its arrays at what the pipeline leaves (the inputs as entered, each result's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves, and every other buffer what it held at
    entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves region 2 as it entered: the pipeline writes back results only. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-! ## What each segment leaves unchanged -/

/-- A host stretch keeps every buffer it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- A region keeps every buffer that is not one of its result arrays: a buffer that is no array of its is untouched,
    and an input window's array is read only. -/
theorem W2_keep (c : Dev nD) (b : Ref sig .tc) (h : b ∉ ([main_v13] : List (Ref sig .tc))) :
    W2 m ρ c (Proc.devRef .tc b) = W1 m ρ c (Proc.devRef .tc b) := by
  by_cases hb : ∃ w, Pipeline.arrRef spec0 w = b
  · obtain ⟨w, rfl⟩ := hb
    exact W2_in m ρ c w ((by decide : ∀ w : Fin cfg0.W, Pipeline.arrRef spec0 w ∉ ([main_v13] : List (Ref sig .tc)) → (cfg0.win w).isOut = false) w h)
  · exact W2_of_ne m ρ c b fun w e => hb ⟨w, e⟩
theorem W6_keep (c : Dev nD) (b : Ref sig .tc) (h : b ∉ ([main_v44_0, main_v44_1] : List (Ref sig .tc))) :
    W6 m ρ c (Proc.devRef .tc b) = W5 m ρ c (Proc.devRef .tc b) := by
  by_cases hb : ∃ w, Pipeline.arrRef spec1 w = b
  · obtain ⟨w, rfl⟩ := hb
    exact W6_in m ρ c w ((by decide : ∀ w : Fin cfg1.W, Pipeline.arrRef spec1 w ∉ ([main_v44_0, main_v44_1] : List (Ref sig .tc)) → (cfg1.win w).isOut = false) w h)
  · exact W6_of_ne m ρ c b fun w e => hb ⟨w, e⟩
theorem W8_keep (c : Dev nD) (b : Ref sig .tc) (h : b ∉ ([main_v71] : List (Ref sig .tc))) :
    W8 m ρ c (Proc.devRef .tc b) = W7 m ρ c (Proc.devRef .tc b) := by
  by_cases hb : ∃ w, Pipeline.arrRef spec2 w = b
  · obtain ⟨w, rfl⟩ := hb
    exact W8_in m ρ c w ((by decide : ∀ w : Fin cfg2.W, Pipeline.arrRef spec2 w ∉ ([main_v71] : List (Ref sig .tc)) → (cfg2.win w).isOut = false) w h)
  · exact W8_of_ne m ρ c b fun w e => hb ⟨w, e⟩

/-- A buffer no host stretch writes and no region returns a result in ends as launched. -/
theorem W8_of_launch (c : Dev nD) (b : Ref sig .tc) (h8 : b ∉ ([main_v71] : List (Ref sig .tc))) (h7 : b ∉ hostOps2_W)
    (h6 : b ∉ ([main_v44_0, main_v44_1] : List (Ref sig .tc))) (h5 : b ∉ hostOps1_2_W) (h4 : b ∉ hostOps1_1_W) (h3 : b ∉ hostOps1_W)
    (h2 : b ∉ ([main_v13] : List (Ref sig .tc))) (h1 : b ∉ hostOps0_W) :
    W8 m ρ c (Proc.devRef .tc b) = m ((c : Thread nD τ).loc b) :=
  (W8_keep m ρ c b h8).trans <| (W7_of m ρ c b h7).trans <| (W6_keep m ρ c b h6).trans <| (W5_of m ρ c b h5).trans <|
    (W4_of m ρ c b h4).trans <| (W3_of m ρ c b h3).trans <| (W2_keep m ρ c b h2).trans <| (W1_of m ρ c b h1).trans rfl

/-! ## Every argument ends as launched -/

theorem W8_main_arg0 (c : Dev nD) : W8 m ρ c (Proc.devRef .tc main_arg0) = m ((c : Thread nD τ).loc main_arg0) :=
  W8_of_launch m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_launch m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_launch m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_launch m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_launch m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_launch m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_launch m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_launch m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_launch m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_launch m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_launch m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_launch m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_launch m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_launch m ρ c main_arg13 (by decide) (by decide) (by decide) (by decide) (by decide) (by decide) (by decide) (by decide)

/-! ## Each region's result array is its proof data's -/

theorem W8_main_v71 (c : Dev nD) : W8 m ρ c (Proc.devRef .tc main_v71) = (dat2 (V7 m ρ) c).arrAt 5 cfg2.N :=
  W8_arr m ρ c 5
theorem W6_main_v44_0 (c : Dev nD) : W6 m ρ c (Proc.devRef .tc main_v44_0) = (dat1 (V5 m ρ) c).arrAt 2 cfg1.N :=
  W6_arr m ρ c 2
theorem W6_main_v44_1 (c : Dev nD) : W6 m ρ c (Proc.devRef .tc main_v44_1) = (dat1 (V5 m ρ) c).arrAt 3 cfg1.N :=
  W6_arr m ρ c 3
theorem W2_main_v13 (c : Dev nD) : W2 m ρ c (Proc.devRef .tc main_v13) = (dat0 (V1 m ρ) c).arrAt 6 cfg0.N :=
  W2_arr m ρ c 6

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the
    generator register goes into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per
    pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]

/-- @main is the run of the segments: its chain of items, item by item the segments' programs. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      Prog.lift (.customCall (Pipeline.entry 2) ()) ] from rfl]
  rfl

set_option backward.isDefEq.respectTransparency.types false in
/-- THE RUN: at the compiled mesh, from any memory with zero counters, every weakly fair execution of @main on the
    TensorCores terminates, nothing faulting, and every final state has every unscoped buffer at the last boundary's
    contents. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every weakly fair execution of @main terminates, nothing faulting, and every final state has the
    argument arrays as launched: the run, each argument read back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c)⟩) (run m ρ)

end Cert.Kernel.Fr

end
-- ==== Proof.KI.Blocks.lean ====
/-
  The three kernel regions of the idealized program, each at the contents `V` its region is entered from: what a
  window's block at a grid point is (the window's array read through the block's rectangle), the rectangles the
  body loads and stores through (every one a whole staging buffer), and what the body leaves in each output
  window's staging buffer as a function of the input blocks — the one store's payload over the loads.

  Region 0 (edge MLP, 320 points of 10000 edges): windows 0, 1 the gathered node features and the edge
  attributes (10000×16 each), 2 and 4 the two 32×32 weight matrices, 3 and 5 the two biases as 1×32 rows, 6 the
  result (10000×32). Region 1 (third and fourth powers of a difference, 400 points of 8000 edges): windows 0, 1
  the two operands, 2, 3 the two results. Region 2 (node MLP, 10 points of 10000 nodes): window 0 the features
  (10000×201), 1 and 3 the weights (201×64, 64×64), 2 and 4 the biases (1×64), 5 the result (10000×64).
-/
import proofs.«143132_j31748398252728_1_alg».proof.Proof.Gen.KernelIdeal.Launch
import proofs.«143132_j31748398252728_1_alg».proof.Proof.Gen.KernelIdeal.Skeleton
import proofs.«143132_j31748398252728_1_alg».proof.Proof.Gen.KernelIdeal.Points
import Idealize.ShloMosaic.Lib.Pipeline.FrameBody

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Region 0 -/

/-- Window `w`'s block at point `t` of region 0: its array, as the region finds it, read through the block. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_feat : Rect S10000x16 := Rect.unit (s := S10000x16) ![0, 0] S10000x16.size inb_S10000x16_S10000x16_0_0
abbrev r0_wt : Rect S32x32 := Rect.unit (s := S32x32) ![0, 0] S32x32.size inb_S32x32_S32x32_0_0
abbrev r0_bias : Rect S1x32 := Rect.unit (s := S1x32) ![0, 0] S1x32.size inb_S1x32_S1x32_0_0
abbrev r0_out : Rect S10000x32 := Rect.unit (s := S10000x32) ![0, 0] S10000x32.size inb_S10000x32_S10000x32_0_0

/-- The result window's staging buffer after the body: the one store, of the two-layer perceptron of the six
    input blocks (`x0`, `x1` the two feature halves, `x2`, `x3` the first layer, `x4`, `x5` the second). -/
def out0_6 (x0 : Vec F S10000x16 .f32) (x1 : Vec F S10000x16 .f32) (x2 : Vec F S32x32 .f32) (x3 : Vec F S1x32 .f32)
    (x4 : Vec F S32x32 .f32) (x5 : Vec F S1x32 .f32) : Vec F S10000x32 .f32 :=
  View.canon [⟨r0_out, k0_pay1 (View.ld x0 r0_feat) (View.ld x1 r0_feat) (View.ld x2 r0_wt) (View.ld x4 r0_wt) (View.ld x3 r0_bias) (View.ld x5 r0_bias)⟩]

/-! ## Region 1 -/

/-- Window `w`'s block at point `t` of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_blk : Rect S8000x32 := Rect.unit (s := S8000x32) ![0, 0] S8000x32.size inb_S8000x32_S8000x32_0_0

/-- The first result's buffer after the body: the cube of the difference of the two operand blocks. -/
def out1_2 (x0 : Vec F S8000x32 .f32) (x1 : Vec F S8000x32 .f32) : Vec F S8000x32 .f32 :=
  View.canon [⟨r1_blk, k1_pay2 (View.ld x0 r1_blk) (View.ld x1 r1_blk)⟩]

/-- The second result's buffer after the body: the fourth power of that difference. -/
def out1_3 (x0 : Vec F S8000x32 .f32) (x1 : Vec F S8000x32 .f32) : Vec F S8000x32 .f32 :=
  View.canon [⟨r1_blk, k1_pay3 (View.ld x0 r1_blk) (View.ld x1 r1_blk)⟩]

/-! ## Region 2 -/

/-- Window `w`'s block at point `t` of region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_feat : Rect S10000x201 := Rect.unit (s := S10000x201) ![0, 0] S10000x201.size inb_S10000x201_S10000x201_0_0
abbrev r2_wa : Rect S201x64 := Rect.unit (s := S201x64) ![0, 0] S201x64.size inb_S201x64_S201x64_0_0
abbrev r2_wb : Rect S64x64 := Rect.unit (s := S64x64) ![0, 0] S64x64.size inb_S64x64_S64x64_0_0
abbrev r2_bias : Rect S1x64 := Rect.unit (s := S1x64) ![0, 0] S1x64.size inb_S1x64_S1x64_0_0
abbrev r2_out : Rect S10000x64 := Rect.unit (s := S10000x64) ![0, 0] S10000x64.size inb_S10000x64_S10000x64_0_0

/-- The result window's staging buffer after the body: the two-layer perceptron of the feature block (`x0`),
    the first layer (`x1`, `x2`) and the second (`x3`, `x4`). -/
def out2_5 (x0 : Vec F S10000x201 .f32) (x1 : Vec F S201x64 .f32) (x2 : Vec F S1x64 .f32) (x3 : Vec F S64x64 .f32)
    (x4 : Vec F S1x64 .f32) : Vec F S10000x64 .f32 :=
  View.canon [⟨r2_out, k2_pay1 (View.ld x0 r2_feat) (View.ld x1 r2_wa) (View.ld x3 r2_wb) (View.ld x2 r2_bias) (View.ld x4 r2_bias)⟩]

end Cert.KernelIdeal.Fr

end
-- ==== Proof.KI.R0.lean ====
/-
  Region 0 of the idealized program (the edge perceptron, 320 points of 10000 edges), at the contents V the
  region is entered from: what each input window's staging buffer holds at every point (its block: the two
  feature halves move with the point, the two weight matrices and the two bias rows are fetched once and stay),
  what the body leaves (the inputs as found, the result's buffer at the one store's payload over the six input
  blocks), the body's triple, the pipeline's proof data and the body obligation at every point.
-/
import proofs.«143132_j31748398252728_1_alg».proof.Proof.KI.Blocks
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds -/

/-- Input window 0's staging buffer holds its block at every point, fetched there or not (unfetched, the block
    index has not moved), for any proof data whose array is V's and whose body leaves the block in place: the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (unfetched, the block
    index has not moved), for any proof data whose array is V's and whose body leaves the block in place: the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (unfetched, the block
    index has not moved), for any proof data whose array is V's and whose body leaves the block in place: the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not (unfetched, the block
    index has not moved), for any proof data whose array is V's and whose body leaves the block in place: the
    window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, fetched there or not (unfetched, the block
    index has not moved), for any proof data whose array is V's and whose body leaves the block in place: the
    window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's staging buffer holds its block at every point, fetched there or not (unfetched, the block
    index has not moved), for any proof data whose array is V's and whose body leaves the block in place: the
    window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The stores cover their buffers -/

/-- The one store into the result's buffer is of the whole buffer. -/
theorem cover0_6 (p0 : Vec F S10000x32 .f32) (y : S10000x32.Idx) :
    ∃ pc ∈ ([⟨r0_out, p0⟩] : List (View.Piece (Elt F) S10000x32 .f32)), y ∈ pc.1.set :=
  View.cover_of_tiled [⟨r0_out, p0⟩] S10000x32.size (by rfl) y

/-! ## The body's triple -/

set_option maxHeartbeats 1000000 in
/-- The body on whole staging memrefs, the inputs' at read contents and the results' at anything, runs to the
    continuation holding the inputs' as they were and each result's at its one store's payload over the inputs. -/
theorem sound_kernel0 (c : Dev nD) (E : Set ℕ) (i : grid0.Coords)
    (arg1 : Memref sig .tc .vmem S10000x16 .f32) (harg1 : arg1.IsWhole) (arg2 : Memref sig .tc .vmem S10000x16 .f32) (harg2 : arg2.IsWhole) (arg3 : Memref sig .tc .vmem S32x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S10000x32 .f32) (harg7 : arg7.IsWhole)
    (x0 : Vec F S10000x16 .f32) (x1 : Vec F S10000x16 .f32) (x2 : Vec F S32x32 .f32) (x3 : Vec F S1x32 .f32) (x4 : Vec F S32x32 .f32) (x5 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__edge_mlp_kernel i arg1 harg1 arg2 harg2 arg3 harg3 arg4 harg4 arg5 harg5 arg6 harg6 arg7 harg7) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of region 0 on core c: the arrays as the region finds them; after the body at point t each
    input's buffer at its block and the result's at the two-layer perceptron of the six input blocks; the scoped
    rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/-
  Region 1 of the idealized program (the third and fourth powers of a difference, 400 points of 8000 edges),
  at the contents V the region is entered from: what each input window's staging buffer holds at every point
  (its block, fetched there or not), what the body leaves (the inputs as found, each result's buffer at the
  one store's payload over the two operand blocks), the body's triple, the pipeline's proof data and the
  body obligation at every point.
-/
import proofs.«143132_j31748398252728_1_alg».proof.Proof.KI.Blocks
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds -/

/-- The first operand's staging buffer holds its block at every point, for any proof data whose array is V's
    and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of the second operand. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover their buffers -/

/-- The one store into a result's buffer is of the whole buffer. -/
theorem cover1_2 (p0 : Vec F S8000x32 .f32) (y : S8000x32.Idx) :
    ∃ pc ∈ ([⟨r1_blk, p0⟩] : List (View.Piece (Elt F) S8000x32 .f32)), y ∈ pc.1.set :=
  View.cover_of_tiled [⟨r1_blk, p0⟩] S8000x32.size (by rfl) y

/-! ## The body's triple -/

set_option maxHeartbeats 1000000 in
/-- The body on whole staging memrefs, the operands' at read contents x0, x1 and the results' at anything, runs to
    the continuation holding the operands' as they were and the results' at the cube and the fourth power of the
    difference. -/
theorem sound_kernel1 (c : Dev nD) (E : Set ℕ) (i : grid1.Coords)
    (arg1 : Memref sig .tc .vmem S8000x32 .f32) (harg1 : arg1.IsWhole) (arg2 : Memref sig .tc .vmem S8000x32 .f32) (harg2 : arg2.IsWhole)
    (arg3 : Memref sig .tc .vmem S8000x32 .f32) (harg3 : arg3.IsWhole) (arg4 : Memref sig .tc .vmem S8000x32 .f32) (harg4 : arg4.IsWhole)
    (x0 x1 : Vec F S8000x32 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__diff_pow_kernel i arg1 harg1 arg2 harg2 arg3 harg3 arg4 harg4) K := by
  simp only [cc1__diff_pow_kernel_eq_skeleton]; unfold cc1__diff_pow_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_2 _)

/-! ## The pipeline's proof data -/

/-- The proof data of region 1 on core c: the arrays as the region finds them; after the body at point t each
    operand's buffer at its block, the first result's at the cube and the second's at the fourth power of the
    blocks' difference; the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each operand's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/-
  Region 2 of the idealized program (the node perceptron, 10 points of 10000 nodes), at the contents V the
  region is entered from: what each input window's staging buffer holds at every point (its block: the features
  move with the point, the two weight matrices and the two bias rows are fetched once and stay), what the body
  leaves (the inputs as found, the result's buffer at the one store's payload over the five input blocks), the
  body's triple, the pipeline's proof data and the body obligation at every point.
-/
import proofs.«143132_j31748398252728_1_alg».proof.Proof.KI.Blocks
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What an input window's buffer holds -/

/-- Input window 0's staging buffer holds its block at every point, fetched there or not (unfetched, the block
    index has not moved), for any proof data whose array is V's and whose body leaves the block in place: the
    window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (unfetched, the block
    index has not moved), for any proof data whose array is V's and whose body leaves the block in place: the
    window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (unfetched, the block
    index has not moved), for any proof data whose array is V's and whose body leaves the block in place: the
    window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (unfetched, the block
    index has not moved), for any proof data whose array is V's and whose body leaves the block in place: the
    window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (unfetched, the block
    index has not moved), for any proof data whose array is V's and whose body leaves the block in place: the
    window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The stores cover their buffers -/

/-- The one store into the result's buffer is of the whole buffer. -/
theorem cover2_5 (p0 : Vec F S10000x64 .f32) (y : S10000x64.Idx) :
    ∃ pc ∈ ([⟨r2_out, p0⟩] : List (View.Piece (Elt F) S10000x64 .f32)), y ∈ pc.1.set :=
  View.cover_of_tiled [⟨r2_out, p0⟩] S10000x64.size (by rfl) y

/-! ## The body's triple -/

set_option maxHeartbeats 1000000 in
/-- The body on whole staging memrefs, the inputs' at read contents and the results' at anything, runs to the
    continuation holding the inputs' as they were and each result's at its one store's payload over the inputs. -/
theorem sound_kernel2 (c : Dev nD) (E : Set ℕ) (i : grid2.Coords)
    (arg1 : Memref sig .tc .vmem S10000x201 .f32) (harg1 : arg1.IsWhole) (arg2 : Memref sig .tc .vmem S201x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x201 .f32) (x1 : Vec F S201x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__node_mlp_kernel i arg1 harg1 arg2 harg2 arg3 harg3 arg4 harg4 arg5 harg5 arg6 harg6) K := by
  simp only [cc2__node_mlp_kernel_eq_skeleton]; unfold cc2__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of region 2 on core c: the arrays as the region finds them; after the body at point t each
    input's buffer at its block and the result's at the two-layer perceptron of the five input blocks; the scoped
    rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Run.lean ====
/-
  The run of the idealized program from the launch to the return: @main is eight segments — a stretch of host
  operations, the edge perceptron's region, three stretches (a call of relu splits the middle one), the
  difference powers' region, a stretch, the node perceptron's region. The buffers' contents at each boundary are
  a fold from the launch memory (a stretch's contents after its operations; a region's arrays at what its
  write-backs leave, every other buffer as entered); every region's proof data are taken at its entry contents;
  the run terminates, faults nowhere, and every unscoped buffer ends at the last boundary's contents. Read back
  through the fold, every argument ends as launched, and each region's result array is its proof data's.
-/
import proofs.«143132_j31748398252728_1_alg».proof.Proof.KI.R0
import proofs.«143132_j31748398252728_1_alg».proof.Proof.KI.R1
import proofs.«143132_j31748398252728_1_alg».proof.Proof.KI.R2
import proofs.«143132_j31748398252728_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core c's buffers at launch. -/
abbrev W0 (m : (ℓ : Loc nD τ sig) → Buf (Elt F) ℓ) (ρ : Dev nD → PrngReg) : Dev nD → Valuation τ sig (Elt F) := fun c b => m (c, b)
/-- After the first host stretch (region 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At region 0's exit: its arrays at what the pipeline leaves (the inputs as entered, each result's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered: the pipeline writes back results only. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- After the second host stretch. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b

/-- After the call of relu. -/
abbrev W4 : Dev nD → Valuation τ sig (Elt F) := fun c => StableHlo.after hostOps1_1 (W3 m ρ c)
/-- The same read at the TensorCore's references. -/
abbrev V4 : (c : Dev nD) → (b : Ref sig .tc) → Buf (Elt F) ((c : Thread nD τ).loc b) := fun c b => W4 m ρ c b

/-- After the stretch that follows it (region 1's entry). -/
abbrev W5 : Dev nD → Valuation τ sig (Elt F) := fun c => StableHlo.after hostOps1_2 (W4 m ρ c)
/-- The same read at the TensorCore's references. -/
abbrev V5 : (c : Dev nD) → (b : Ref sig .tc) → Buf (Elt F) ((c : Thread nD τ).loc b) := fun c b => W5 m ρ c b

/-- At region 1's exit: its arrays at what the pipeline leaves (the inputs as entered, each result's write-backs
    folded), every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves, and every other buffer what it held at
    entry. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- An input window's array leaves region 1 as it entered: the pipeline writes back results only. -/
theorem W6_in (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))

/-- After the last host stretch (region 2's entry). -/
abbrev W7 : Dev nD → Valuation τ sig (Elt F) := fun c => StableHlo.after hostOps2 (W6 m ρ c)
/-- The same read at the TensorCore's references. -/
abbrev V7 : (c : Dev nD) → (b : Ref sig .tc) → Buf (Elt F) ((c : Thread nD τ).loc b) := fun c b => W7 m ρ c b

/-- At region 2's exit: its arrays at what the pipeline leaves (the inputs as entered, each result's write-backs
    folded), every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
/-- The same read at the TensorCore's references (region 2's exit contents). -/
abbrev V8 : (c : Dev nD) → (b : Ref sig .tc) → Buf (Elt F) ((c : Thread nD τ).loc b) := fun c b => W8 m ρ c b
/-- At region 2's exit each of its arrays holds what the pipeline leaves, and every other buffer what it held at
    entry. -/
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- An input window's array leaves region 2 as it entered: the pipeline writes back results only. -/
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-! ## What each segment leaves unchanged -/

/-- A host stretch keeps every buffer it does not write. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h

/-- A region keeps every buffer that is not one of its result arrays: a buffer that is no array of its is untouched,
    and an input window's array is read only. -/
theorem W2_keep (c : Dev nD) (b : Ref sig .tc) (h : b ∉ ([main_v13] : List (Ref sig .tc))) :
    W2 m ρ c (Proc.devRef .tc b) = W1 m ρ c (Proc.devRef .tc b) := by
  by_cases hb : ∃ w, Pipeline.arrRef spec0 w = b
  · obtain ⟨w, rfl⟩ := hb
    exact W2_in m ρ c w ((by decide : ∀ w : Fin cfg0.W, Pipeline.arrRef spec0 w ∉ ([main_v13] : List (Ref sig .tc)) → (cfg0.win w).isOut = false) w h)
  · exact W2_of_ne m ρ c b fun w e => hb ⟨w, e⟩
theorem W6_keep (c : Dev nD) (b : Ref sig .tc) (h : b ∉ ([main_v44_0, main_v44_1] : List (Ref sig .tc))) :
    W6 m ρ c (Proc.devRef .tc b) = W5 m ρ c (Proc.devRef .tc b) := by
  by_cases hb : ∃ w, Pipeline.arrRef spec1 w = b
  · obtain ⟨w, rfl⟩ := hb
    exact W6_in m ρ c w ((by decide : ∀ w : Fin cfg1.W, Pipeline.arrRef spec1 w ∉ ([main_v44_0, main_v44_1] : List (Ref sig .tc)) → (cfg1.win w).isOut = false) w h)
  · exact W6_of_ne m ρ c b fun w e => hb ⟨w, e⟩
theorem W8_keep (c : Dev nD) (b : Ref sig .tc) (h : b ∉ ([main_v71] : List (Ref sig .tc))) :
    W8 m ρ c (Proc.devRef .tc b) = W7 m ρ c (Proc.devRef .tc b) := by
  by_cases hb : ∃ w, Pipeline.arrRef spec2 w = b
  · obtain ⟨w, rfl⟩ := hb
    exact W8_in m ρ c w ((by decide : ∀ w : Fin cfg2.W, Pipeline.arrRef spec2 w ∉ ([main_v71] : List (Ref sig .tc)) → (cfg2.win w).isOut = false) w h)
  · exact W8_of_ne m ρ c b fun w e => hb ⟨w, e⟩

/-- A buffer no host stretch writes and no region returns a result in ends as launched. -/
theorem W8_of_launch (c : Dev nD) (b : Ref sig .tc) (h8 : b ∉ ([main_v71] : List (Ref sig .tc))) (h7 : b ∉ hostOps2_W)
    (h6 : b ∉ ([main_v44_0, main_v44_1] : List (Ref sig .tc))) (h5 : b ∉ hostOps1_2_W) (h4 : b ∉ hostOps1_1_W) (h3 : b ∉ hostOps1_W)
    (h2 : b ∉ ([main_v13] : List (Ref sig .tc))) (h1 : b ∉ hostOps0_W) :
    W8 m ρ c (Proc.devRef .tc b) = m ((c : Thread nD τ).loc b) :=
  (W8_keep m ρ c b h8).trans <| (W7_of m ρ c b h7).trans <| (W6_keep m ρ c b h6).trans <| (W5_of m ρ c b h5).trans <|
    (W4_of m ρ c b h4).trans <| (W3_of m ρ c b h3).trans <| (W2_keep m ρ c b h2).trans <| (W1_of m ρ c b h1).trans rfl

/-! ## Every argument ends as launched -/

theorem W8_main_arg0 (c : Dev nD) : W8 m ρ c (Proc.devRef .tc main_arg0) = m ((c : Thread nD τ).loc main_arg0) :=
  W8_of_launch m ρ c main_arg0 (by decide) (by decide) (by decide) (by decide) (by decide) (by decide) (by decide) (by decide)
theorem W8_main_arg1 (c : Dev nD) : W8 m ρ c (Proc.devRef .tc main_arg1) = m ((c : Thread nD τ).loc main_arg1) :=
  W8_of_launch m ρ c main_arg1 (by decide) (by decide) (by decide) (by decide) (by decide) (by decide) (by decide) (by decide)
theorem W8_main_arg2 (c : Dev nD) : W8 m ρ c (Proc.devRef .tc main_arg2) = m ((c : Thread nD τ).loc main_arg2) :=
  W8_of_launch m ρ c main_arg2 (by decide) (by decide) (by decide) (by decide) (by decide) (by decide) (by decide) (by decide)
theorem W8_main_arg3 (c : Dev nD) : W8 m ρ c (Proc.devRef .tc main_arg3) = m ((c : Thread nD τ).loc main_arg3) :=
  W8_of_launch m ρ c main_arg3 (by decide) (by decide) (by decide) (by decide) (by decide) (by decide) (by decide) (by decide)
theorem W8_main_arg4 (c : Dev nD) : W8 m ρ c (Proc.devRef .tc main_arg4) = m ((c : Thread nD τ).loc main_arg4) :=
  W8_of_launch m ρ c main_arg4 (by decide) (by decide) (by decide) (by decide) (by decide) (by decide) (by decide) (by decide)
theorem W8_main_arg5 (c : Dev nD) : W8 m ρ c (Proc.devRef .tc main_arg5) = m ((c : Thread nD τ).loc main_arg5) :=
  W8_of_launch m ρ c main_arg5 (by decide) (by decide) (by decide) (by decide) (by decide) (by decide) (by decide) (by decide)
theorem W8_main_arg6 (c : Dev nD) : W8 m ρ c (Proc.devRef .tc main_arg6) = m ((c : Thread nD τ).loc main_arg6) :=
  W8_of_launch m ρ c main_arg6 (by decide) (by decide) (by decide) (by decide) (by decide) (by decide) (by decide) (by decide)
theorem W8_main_arg7 (c : Dev nD) : W8 m ρ c (Proc.devRef .tc main_arg7) = m ((c : Thread nD τ).loc main_arg7) :=
  W8_of_launch m ρ c main_arg7 (by decide) (by decide) (by decide) (by decide) (by decide) (by decide) (by decide) (by decide)
theorem W8_main_arg8 (c : Dev nD) : W8 m ρ c (Proc.devRef .tc main_arg8) = m ((c : Thread nD τ).loc main_arg8) :=
  W8_of_launch m ρ c main_arg8 (by decide) (by decide) (by decide) (by decide) (by decide) (by decide) (by decide) (by decide)
theorem W8_main_arg9 (c : Dev nD) : W8 m ρ c (Proc.devRef .tc main_arg9) = m ((c : Thread nD τ).loc main_arg9) :=
  W8_of_launch m ρ c main_arg9 (by decide) (by decide) (by decide) (by decide) (by decide) (by decide) (by decide) (by decide)
theorem W8_main_arg10 (c : Dev nD) : W8 m ρ c (Proc.devRef .tc main_arg10) = m ((c : Thread nD τ).loc main_arg10) :=
  W8_of_launch m ρ c main_arg10 (by decide) (by decide) (by decide) (by decide) (by decide) (by decide) (by decide) (by decide)
theorem W8_main_arg11 (c : Dev nD) : W8 m ρ c (Proc.devRef .tc main_arg11) = m ((c : Thread nD τ).loc main_arg11) :=
  W8_of_launch m ρ c main_arg11 (by decide) (by decide) (by decide) (by decide) (by decide) (by decide) (by decide) (by decide)
theorem W8_main_arg12 (c : Dev nD) : W8 m ρ c (Proc.devRef .tc main_arg12) = m ((c : Thread nD τ).loc main_arg12) :=
  W8_of_launch m ρ c main_arg12 (by decide) (by decide) (by decide) (by decide) (by decide) (by decide) (by decide) (by decide)
theorem W8_main_arg13 (c : Dev nD) : W8 m ρ c (Proc.devRef .tc main_arg13) = m ((c : Thread nD τ).loc main_arg13) :=
  W8_of_launch m ρ c main_arg13 (by decide) (by decide) (by decide) (by decide) (by decide) (by decide) (by decide) (by decide)

/-! ## Each region's result array is its proof data's -/

theorem W8_main_v71 (c : Dev nD) : W8 m ρ c (Proc.devRef .tc main_v71) = (dat2 (V7 m ρ) c).arrAt 5 cfg2.N :=
  W8_arr m ρ c 5
theorem W6_main_v44_0 (c : Dev nD) : W6 m ρ c (Proc.devRef .tc main_v44_0) = (dat1 (V5 m ρ) c).arrAt 2 cfg1.N :=
  W6_arr m ρ c 2
theorem W6_main_v44_1 (c : Dev nD) : W6 m ρ c (Proc.devRef .tc main_v44_1) = (dat1 (V5 m ρ) c).arrAt 3 cfg1.N :=
  W6_arr m ρ c 3
theorem W2_main_v13 (c : Dev nD) : W2 m ρ c (Proc.devRef .tc main_v13) = (dat0 (V1 m ρ) c).arrAt 6 cfg0.N :=
  W2_arr m ρ c 6

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
  | ⟨2, _⟩ => fun c => dat2 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at the exit contents; the
    generator register goes into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight segments in order: a host segment per stretch from its boundary's contents, a region per
    pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)),
    .region (reg2 m ρ) ]

/-- @main is the run of the segments: its chain of items, item by item the segments' programs. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      Prog.lift (.customCall (Pipeline.entry 2) ()) ] from rfl]
  rfl

set_option backward.isDefEq.respectTransparency.types false in
/-- THE RUN: at the compiled mesh, from any memory with zero counters, every weakly fair execution of @main on the
    TensorCores terminates, nothing faulting, and every final state has every unscoped buffer at the last boundary's
    contents. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every weakly fair execution of @main terminates, nothing faulting, and every final state has the
    argument arrays as launched: the run, each argument read back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c)⟩) (run m ρ)

end Cert.KernelIdeal.Fr

end
-- ==== Proof.RefRunLib.lean ====
/-
  Folding a line of host operations stretch by stretch.

  The contents of the device's buffers after a line of host operations are a fold of the operations' results over
  the contents before it, and the fold over a concatenation of two lines is the fold over the second from the
  fold over the first. So a long line can be read one stretch at a time, from an ARBITRARY valuation before each
  stretch about which only this is known: some buffers hold named values. Three facts then say what a buffer
  holds after the stretch:

  * a buffer the stretch writes holds the stretch's operations applied to what the stretch found in the buffers
    it reads from outside; rewriting those by what is known of them gives a term which is, by definition, the
    named value claimed for it (the stage of the arguments the reference's reading names);
  * the same of a buffer computed through a many-operand concatenation, whose operand references are entries of a
    vector of references and meet the known buffers only up to that vector's evaluation;
  * a buffer the stretch does not write holds what it held.
-/
import Idealize.ShloMosaic.Lib.StableHlo.Run

namespace Cert.ReferenceIdeal.ValueC

open Idealize.ShloMosaic Idealize.ShloMosaic.StableHlo

/-- Two lines folded one after the other are their concatenation folded as one. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer the stretch computes from constants alone: the fold evaluated at it is its stage by definition. -/
macro "stage_const" : tactic =>
  `(tactic| (after_results_simp; (try simp only [cast_eq]); rfl))

/-- A buffer the stretch writes: the fold evaluated at it (the casts an outlined function's operations leave removed),
    the buffers read from outside rewritten by what the record before the stretch says of them; what is left is the
    buffer's stage by definition. -/
macro "stage_written" "[" hs:Lean.Parser.Tactic.rwRule,* "]" : tactic =>
  `(tactic| (after_results_simp; (try simp only [cast_eq]); rw [$hs,*]; rfl))

/-- The same through a many-operand concatenation: its operands are read at entries of a vector of references, which
    the rewriting meets up to evaluation. -/
macro "stage_joined" "[" hs:Lean.Parser.Tactic.rwRule,* "]" : tactic =>
  `(tactic| (after_results_simp; (try simp only [cast_eq]); erw [$hs,*]; rfl))

/-- A buffer the stretch does not write keeps what it held. -/
macro "stage_kept" h:term : tactic =>
  `(tactic| (refine Eq.trans ?_ $h; after_results_simp))

end Cert.ReferenceIdeal.ValueC
-- ==== Proof.RefRunChunks.lean ====
/- The reference program's line of 117 host operations, read stretch by stretch: the table.

  The line is cut into 12 consecutive stretches. For each boundary a record states, for every buffer an operation
  after the boundary still reads, that it holds its stage of the fourteen arguments (an argument's buffer: the
  argument). For each stretch a theorem takes the record before it to the record after it, buffer by buffer: a
  buffer the stretch writes is its operations applied to what the stretch found — stages, by the record before —,
  which is the buffer's stage by definition; a buffer it does not write keeps what it held. The last theorem chains
  the stretches from any contents: the result buffer after the whole line holds the last stage of what the
  arguments' buffers held before it.
-/
import proofs.«143132_j31748398252728_1_alg».proof.Proof.RefRunOps
import proofs.«143132_j31748398252728_1_alg».proof.Proof.RefRead
import proofs.«143132_j31748398252728_1_alg».proof.Proof.RefRunLib

set_option maxRecDepth 16384

noncomputable section

namespace Cert.ReferenceIdeal.ValueC

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-! ## What the buffers still to be read hold, boundary by boundary -/

/-- Before the line: each argument's buffer holds the argument. -/
structure At0 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_arg4 : W (Proc.devRef .tc main_arg4) = a4
  e_arg1 : W (Proc.devRef .tc main_arg1) = a1
  e_arg2 : W (Proc.devRef .tc main_arg2) = a2
  e_arg6 : W (Proc.devRef .tc main_arg6) = a6
  e_arg7 : W (Proc.devRef .tc main_arg7) = a7
  e_arg8 : W (Proc.devRef .tc main_arg8) = a8
  e_arg9 : W (Proc.devRef .tc main_arg9) = a9
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 12: every buffer a later operation reads holds its stage of the arguments. -/
structure At1 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v10 : W (Proc.devRef .tc main_v10) = val_main_v10 (F := F) a1 a4
  e_arg2 : W (Proc.devRef .tc main_arg2) = a2
  e_arg6 : W (Proc.devRef .tc main_arg6) = a6
  e_arg7 : W (Proc.devRef .tc main_arg7) = a7
  e_arg8 : W (Proc.devRef .tc main_arg8) = a8
  e_arg9 : W (Proc.devRef .tc main_arg9) = a9
  e_v1 : W (Proc.devRef .tc main_v1) = val_main_v1 (F := F) a4
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 24: every buffer a later operation reads holds its stage of the arguments. -/
structure At2 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v20 : W (Proc.devRef .tc main_v20) = val_main_v20 (F := F) a1 a2 a4 a6 a7
  e_arg8 : W (Proc.devRef .tc main_arg8) = a8
  e_arg9 : W (Proc.devRef .tc main_arg9) = a9
  e_v1 : W (Proc.devRef .tc main_v1) = val_main_v1 (F := F) a4
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 34: every buffer a later operation reads holds its stage of the arguments. -/
structure At3 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v1 : W (Proc.devRef .tc main_v1) = val_main_v1 (F := F) a4
  e_v28 : W (Proc.devRef .tc main_v28) = val_main_v28 (F := F) a4
  e_v24 : W (Proc.devRef .tc main_v24) = val_main_v24 (F := F) a1 a2 a4 a6 a7 a8 a9
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 43: every buffer a later operation reads holds its stage of the arguments. -/
structure At4 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v1 : W (Proc.devRef .tc main_v1) = val_main_v1 (F := F) a4
  e_v28 : W (Proc.devRef .tc main_v28) = val_main_v28 (F := F) a4
  e_v24 : W (Proc.devRef .tc main_v24) = val_main_v24 (F := F) a1 a2 a4 a6 a7 a8 a9
  e_v30 : W (Proc.devRef .tc main_v30) = val_main_v30 (F := F) a4
  e_v35 : W (Proc.devRef .tc main_v35) = val_main_v35 (F := F) a1 a2 a4 a6 a7 a8 a9
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 52: every buffer a later operation reads holds its stage of the arguments. -/
structure At5 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v1 : W (Proc.devRef .tc main_v1) = val_main_v1 (F := F) a4
  e_v28 : W (Proc.devRef .tc main_v28) = val_main_v28 (F := F) a4
  e_v24 : W (Proc.devRef .tc main_v24) = val_main_v24 (F := F) a1 a2 a4 a6 a7 a8 a9
  e_v30 : W (Proc.devRef .tc main_v30) = val_main_v30 (F := F) a4
  e_v35 : W (Proc.devRef .tc main_v35) = val_main_v35 (F := F) a1 a2 a4 a6 a7 a8 a9
  e_v43 : W (Proc.devRef .tc main_v43) = val_main_v43 (F := F) a1 a2 a4 a6 a7 a8 a9
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 59: every buffer a later operation reads holds its stage of the arguments. -/
structure At6 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v1 : W (Proc.devRef .tc main_v1) = val_main_v1 (F := F) a4
  e_v28 : W (Proc.devRef .tc main_v28) = val_main_v28 (F := F) a4
  e_v24 : W (Proc.devRef .tc main_v24) = val_main_v24 (F := F) a1 a2 a4 a6 a7 a8 a9
  e_v30 : W (Proc.devRef .tc main_v30) = val_main_v30 (F := F) a4
  e_v35 : W (Proc.devRef .tc main_v35) = val_main_v35 (F := F) a1 a2 a4 a6 a7 a8 a9
  e_v47 : W (Proc.devRef .tc main_v47) = val_main_v47 (F := F) a1 a2 a4 a6 a7 a8 a9
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 69: every buffer a later operation reads holds its stage of the arguments. -/
structure At7 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v1 : W (Proc.devRef .tc main_v1) = val_main_v1 (F := F) a4
  e_v28 : W (Proc.devRef .tc main_v28) = val_main_v28 (F := F) a4
  e_v30 : W (Proc.devRef .tc main_v30) = val_main_v30 (F := F) a4
  e_v35 : W (Proc.devRef .tc main_v35) = val_main_v35 (F := F) a1 a2 a4 a6 a7 a8 a9
  e_v55 : W (Proc.devRef .tc main_v55) = val_main_v55 (F := F) a1 a2 a4 a6 a7 a8 a9
  e_v47 : W (Proc.devRef .tc main_v47) = val_main_v47 (F := F) a1 a2 a4 a6 a7 a8 a9
  e_arg5 : W (Proc.devRef .tc main_arg5) = a5
  e_arg3 : W (Proc.devRef .tc main_arg3) = a3
  e_arg0 : W (Proc.devRef .tc main_arg0) = a0
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 80: every buffer a later operation reads holds its stage of the arguments. -/
structure At8 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v1 : W (Proc.devRef .tc main_v1) = val_main_v1 (F := F) a4
  e_v28 : W (Proc.devRef .tc main_v28) = val_main_v28 (F := F) a4
  e_v30 : W (Proc.devRef .tc main_v30) = val_main_v30 (F := F) a4
  e_v35 : W (Proc.devRef .tc main_v35) = val_main_v35 (F := F) a1 a2 a4 a6 a7 a8 a9
  e_v55 : W (Proc.devRef .tc main_v55) = val_main_v55 (F := F) a1 a2 a4 a6 a7 a8 a9
  e_v47 : W (Proc.devRef .tc main_v47) = val_main_v47 (F := F) a1 a2 a4 a6 a7 a8 a9
  e_arg5 : W (Proc.devRef .tc main_arg5) = a5
  e_arg3 : W (Proc.devRef .tc main_arg3) = a3
  e_arg0 : W (Proc.devRef .tc main_arg0) = a0
  e_v65 : W (Proc.devRef .tc main_v65) = val_main_v65 (F := F) a1 a2 a4 a6 a7 a8 a9
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 91: every buffer a later operation reads holds its stage of the arguments. -/
structure At9 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v28 : W (Proc.devRef .tc main_v28) = val_main_v28 (F := F) a4
  e_v35 : W (Proc.devRef .tc main_v35) = val_main_v35 (F := F) a1 a2 a4 a6 a7 a8 a9
  e_v47 : W (Proc.devRef .tc main_v47) = val_main_v47 (F := F) a1 a2 a4 a6 a7 a8 a9
  e_arg5 : W (Proc.devRef .tc main_arg5) = a5
  e_arg3 : W (Proc.devRef .tc main_arg3) = a3
  e_arg0 : W (Proc.devRef .tc main_arg0) = a0
  e_v65 : W (Proc.devRef .tc main_v65) = val_main_v65 (F := F) a1 a2 a4 a6 a7 a8 a9
  e_v75 : W (Proc.devRef .tc main_v75) = val_main_v75 (F := F) a1 a2 a4 a6 a7 a8 a9
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 100: every buffer a later operation reads holds its stage of the arguments. -/
structure At10 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v28 : W (Proc.devRef .tc main_v28) = val_main_v28 (F := F) a4
  e_v35 : W (Proc.devRef .tc main_v35) = val_main_v35 (F := F) a1 a2 a4 a6 a7 a8 a9
  e_v47 : W (Proc.devRef .tc main_v47) = val_main_v47 (F := F) a1 a2 a4 a6 a7 a8 a9
  e_arg0 : W (Proc.devRef .tc main_arg0) = a0
  e_v65 : W (Proc.devRef .tc main_v65) = val_main_v65 (F := F) a1 a2 a4 a6 a7 a8 a9
  e_v75 : W (Proc.devRef .tc main_v75) = val_main_v75 (F := F) a1 a2 a4 a6 a7 a8 a9
  e_v82 : W (Proc.devRef .tc main_v82) = val_main_v82 (F := F) a3 a5
  e_arg10 : W (Proc.devRef .tc main_arg10) = a10
  e_arg11 : W (Proc.devRef .tc main_arg11) = a11
  e_arg12 : W (Proc.devRef .tc main_arg12) = a12
  e_arg13 : W (Proc.devRef .tc main_arg13) = a13

/-- After operations 0 … 112: every buffer a later operation reads holds its stage of the arguments. -/
structure At11 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v92 : W (Proc.devRef .tc main_v92) = val_main_v92 (F := F) a0 a1 a2 a3 a4 a5 a6 a7 a8 a9 a10 a11
  e_arg12 : W (Proc.devRef .tc main_arg12) = a12
  e_arg13 : W (Proc.devRef .tc main_arg13) = a13

/-- After operations 0 … 116: every buffer a later operation reads holds its stage of the arguments. -/
structure At12 (W : Valuation τ sig (Elt F)) (a0 : (⟨S100000x64, .f32⟩ : BufTy).Contents (Elt F)) (a1 : (⟨S50000x16, .f32⟩ : BufTy).Contents (Elt F)) (a2 : (⟨S3200000x16, .f32⟩ : BufTy).Contents (Elt F)) (a3 : (⟨S16x8, .f32⟩ : BufTy).Contents (Elt F)) (a4 : (⟨S2x3200000, .i32⟩ : BufTy).Contents (Elt F)) (a5 : (⟨S100000, .i32⟩ : BufTy).Contents (Elt F)) (a6 : (⟨S32x32, .f32⟩ : BufTy).Contents (Elt F)) (a7 : (⟨S32, .f32⟩ : BufTy).Contents (Elt F)) (a8 : (⟨S32x32, .f32⟩ : BufTy).Contents (Elt F)) (a9 : (⟨S32, .f32⟩ : BufTy).Contents (Elt F)) (a10 : (⟨S201x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) : Prop where
  e_v96 : W (Proc.devRef .tc main_v96) = val_main_v96 (F := F) a0 a1 a2 a3 a4 a5 a6 a7 a8 a9 a10 a11 a12 a13

/-! ## One stretch at a time -/

/-- Operations 0 … 12: from the stages before them to the stages after them. -/
theorem stage1 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At0 W a0 a1 a2 a3 a4 a5 a6 a7 a8 a9 a10 a11 a12 a13) :
    At1 (after (opsC0 (F := F)) W) a0 a1 a2 a3 a4 a5 a6 a7 a8 a9 a10 a11 a12 a13 where
  e_v10 := by stage_written [h.e_arg1, h.e_arg4]
  e_arg2 := by stage_kept h.e_arg2
  e_arg6 := by stage_kept h.e_arg6
  e_arg7 := by stage_kept h.e_arg7
  e_arg8 := by stage_kept h.e_arg8
  e_arg9 := by stage_kept h.e_arg9
  e_v1 := by stage_written [h.e_arg4]
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 13 … 24: from the stages before them to the stages after them. -/
theorem stage2 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At1 W a0 a1 a2 a3 a4 a5 a6 a7 a8 a9 a10 a11 a12 a13) :
    At2 (after (opsC1 (F := F)) W) a0 a1 a2 a3 a4 a5 a6 a7 a8 a9 a10 a11 a12 a13 where
  e_v20 := by stage_written [h.e_v10, h.e_arg2, h.e_arg6, h.e_arg7]
  e_arg8 := by stage_kept h.e_arg8
  e_arg9 := by stage_kept h.e_arg9
  e_v1 := by stage_kept h.e_v1
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 25 … 34: from the stages before them to the stages after them. -/
theorem stage3 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At2 W a0 a1 a2 a3 a4 a5 a6 a7 a8 a9 a10 a11 a12 a13) :
    At3 (after (opsC2 (F := F)) W) a0 a1 a2 a3 a4 a5 a6 a7 a8 a9 a10 a11 a12 a13 where
  e_v1 := by stage_kept h.e_v1
  e_v28 := by stage_written [h.e_v1]
  e_v24 := by stage_written [h.e_v20, h.e_arg8, h.e_arg9]
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 35 … 43: from the stages before them to the stages after them. -/
theorem stage4 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At3 W a0 a1 a2 a3 a4 a5 a6 a7 a8 a9 a10 a11 a12 a13) :
    At4 (after (opsC3 (F := F)) W) a0 a1 a2 a3 a4 a5 a6 a7 a8 a9 a10 a11 a12 a13 where
  e_v1 := by stage_kept h.e_v1
  e_v28 := by stage_kept h.e_v28
  e_v24 := by stage_kept h.e_v24
  e_v30 := by stage_written [h.e_v28]
  e_v35 := by stage_written [h.e_v1, h.e_v24, h.e_v28]
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 44 … 52: from the stages before them to the stages after them. -/
theorem stage5 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At4 W a0 a1 a2 a3 a4 a5 a6 a7 a8 a9 a10 a11 a12 a13) :
    At5 (after (opsC4 (F := F)) W) a0 a1 a2 a3 a4 a5 a6 a7 a8 a9 a10 a11 a12 a13 where
  e_v1 := by stage_kept h.e_v1
  e_v28 := by stage_kept h.e_v28
  e_v24 := by stage_kept h.e_v24
  e_v30 := by stage_kept h.e_v30
  e_v35 := by stage_kept h.e_v35
  e_v43 := by stage_written [h.e_v1, h.e_v24, h.e_v30, h.e_v35]
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 53 … 59: from the stages before them to the stages after them. -/
theorem stage6 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At5 W a0 a1 a2 a3 a4 a5 a6 a7 a8 a9 a10 a11 a12 a13) :
    At6 (after (opsC5 (F := F)) W) a0 a1 a2 a3 a4 a5 a6 a7 a8 a9 a10 a11 a12 a13 where
  e_v1 := by stage_kept h.e_v1
  e_v28 := by stage_kept h.e_v28
  e_v24 := by stage_kept h.e_v24
  e_v30 := by stage_kept h.e_v30
  e_v35 := by stage_kept h.e_v35
  e_v47 := by stage_written [h.e_v43]
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 60 … 69: from the stages before them to the stages after them. -/
theorem stage7 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At6 W a0 a1 a2 a3 a4 a5 a6 a7 a8 a9 a10 a11 a12 a13) :
    At7 (after (opsC6 (F := F)) W) a0 a1 a2 a3 a4 a5 a6 a7 a8 a9 a10 a11 a12 a13 where
  e_v1 := by stage_kept h.e_v1
  e_v28 := by stage_kept h.e_v28
  e_v30 := by stage_kept h.e_v30
  e_v35 := by stage_kept h.e_v35
  e_v55 := by stage_written [h.e_v24, h.e_v35, h.e_v1]
  e_v47 := by stage_kept h.e_v47
  e_arg5 := by stage_kept h.e_arg5
  e_arg3 := by stage_kept h.e_arg3
  e_arg0 := by stage_kept h.e_arg0
  e_arg10 := by stage_kept h.e_arg10
  e_arg11 := by stage_kept h.e_arg11
  e_arg12 := by stage_kept h.e_arg12
  e_arg13 := by stage_kept h.e_arg13

/-- Operations 70 … 80: from the stages before them to the stages after them. -/
theorem stage8 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At7 W a0 a1 a2 a3 a4 a5 a6 a7 a8 a9 a10 a11 a12 a13) :
    At8 (after (opsC7 (F := F)) W) a0 a1 a2 a3 a4 a5 a6 a7 a8 a9 a10 a11 a12 a13 where
  e_v1 := by stage_kept h.e_v1
  e_v28 := by stage_kept h.e_v28
  e_v30 := by stage_kept h.e_v30
  e_v35 := by stage_kept h.e_v35
  e_v55 := by stage_kept h.e_v55
  e_v47 := by stage_kept h.e_v47
  e_arg5 := by stage_kept h.e_arg5
  e_arg3 := by stage_kept h.e_arg3
  e_arg0 := by stage_kept h.e_arg0
  e_v65 := by stage_written [h.e_v1, h.e_v55, h.e_v30, h.e_v47]
  e_arg10 := by stage_kept h.e_arg10
  e_arg11 := by stage_kept h.e_arg11
  e_arg12 := by stage_kept h.e_arg12
  e_arg13 := by stage_kept h.e_arg13

/-- Operations 81 … 91: from the stages before them to the stages after them. -/
theorem stage9 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At8 W a0 a1 a2 a3 a4 a5 a6 a7 a8 a9 a10 a11 a12 a13) :
    At9 (after (opsC8 (F := F)) W) a0 a1 a2 a3 a4 a5 a6 a7 a8 a9 a10 a11 a12 a13 where
  e_v28 := by stage_kept h.e_v28
  e_v35 := by stage_kept h.e_v35
  e_v47 := by stage_kept h.e_v47
  e_arg5 := by stage_kept h.e_arg5
  e_arg3 := by stage_kept h.e_arg3
  e_arg0 := by stage_kept h.e_arg0
  e_v65 := by stage_kept h.e_v65
  e_v75 := by stage_written [h.e_v1, h.e_v55, h.e_v30, h.e_v47]
  e_arg10 := by stage_kept h.e_arg10
  e_arg11 := by stage_kept h.e_arg11
  e_arg12 := by stage_kept h.e_arg12
  e_arg13 := by stage_kept h.e_arg13

/-- Operations 92 … 100: from the stages before them to the stages after them. -/
theorem stage10 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At9 W a0 a1 a2 a3 a4 a5 a6 a7 a8 a9 a10 a11 a12 a13) :
    At10 (after (opsC9 (F := F)) W) a0 a1 a2 a3 a4 a5 a6 a7 a8 a9 a10 a11 a12 a13 where
  e_v28 := by stage_kept h.e_v28
  e_v35 := by stage_kept h.e_v35
  e_v47 := by stage_kept h.e_v47
  e_arg0 := by stage_kept h.e_arg0
  e_v65 := by stage_kept h.e_v65
  e_v75 := by stage_kept h.e_v75
  e_v82 := by stage_written [h.e_arg3, h.e_arg5]
  e_arg10 := by stage_kept h.e_arg10
  e_arg11 := by stage_kept h.e_arg11
  e_arg12 := by stage_kept h.e_arg12
  e_arg13 := by stage_kept h.e_arg13

/-- Operations 101 … 112: from the stages before them to the stages after them. -/
theorem stage11 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At10 W a0 a1 a2 a3 a4 a5 a6 a7 a8 a9 a10 a11 a12 a13) :
    At11 (after (opsC10 (F := F)) W) a0 a1 a2 a3 a4 a5 a6 a7 a8 a9 a10 a11 a12 a13 where
  e_v92 := by stage_joined [h.e_arg0, h.e_v28, h.e_v35, h.e_v47, h.e_v65, h.e_v75, h.e_v82, h.e_arg10, h.e_arg11]
  e_arg12 := by stage_kept h.e_arg12
  e_arg13 := by stage_kept h.e_arg13

/-- Operations 113 … 116: from the stages before them to the stages after them. -/
theorem stage12 {W : Valuation τ sig (Elt F)} {a0 : (⟨S100000x64, .f32⟩ : BufTy).Contents (Elt F)} {a1 : (⟨S50000x16, .f32⟩ : BufTy).Contents (Elt F)} {a2 : (⟨S3200000x16, .f32⟩ : BufTy).Contents (Elt F)} {a3 : (⟨S16x8, .f32⟩ : BufTy).Contents (Elt F)} {a4 : (⟨S2x3200000, .i32⟩ : BufTy).Contents (Elt F)} {a5 : (⟨S100000, .i32⟩ : BufTy).Contents (Elt F)} {a6 : (⟨S32x32, .f32⟩ : BufTy).Contents (Elt F)} {a7 : (⟨S32, .f32⟩ : BufTy).Contents (Elt F)} {a8 : (⟨S32x32, .f32⟩ : BufTy).Contents (Elt F)} {a9 : (⟨S32, .f32⟩ : BufTy).Contents (Elt F)} {a10 : (⟨S201x64, .f32⟩ : BufTy).Contents (Elt F)} {a11 : (⟨S64, .f32⟩ : BufTy).Contents (Elt F)} {a12 : (⟨S64x64, .f32⟩ : BufTy).Contents (Elt F)} {a13 : (⟨S64, .f32⟩ : BufTy).Contents (Elt F)} (h : At11 W a0 a1 a2 a3 a4 a5 a6 a7 a8 a9 a10 a11 a12 a13) :
    At12 (after (opsC11 (F := F)) W) a0 a1 a2 a3 a4 a5 a6 a7 a8 a9 a10 a11 a12 a13 where
  e_v96 := by stage_written [h.e_v92, h.e_arg12, h.e_arg13]

/-! ## The whole line -/

/-- The result buffer after the whole line holds the last stage of what the arguments' buffers held before it. -/
theorem after_ops_main_v96 (V : Valuation τ sig (Elt F)) :
    after (ops (F := F)) V (Proc.devRef .tc main_v96) = val_main_v96 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_chunks]
  simp only [after_append]
  have h0 : At0 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := ⟨rfl, rfl, rfl, rfl, rfl, rfl, rfl, rfl, rfl, rfl, rfl, rfl, rfl, rfl⟩
  exact (stage12 (stage11 (stage10 (stage9 (stage8 (stage7 (stage6 (stage5 (stage4 (stage3 (stage2 (stage1 h0)))))))))))).e_v96

end Cert.ReferenceIdeal.ValueC

end
-- ==== Proof.RefRun.lean ====
/-
  The reference program's run: every weakly fair execution of its @main terminates, the result buffer at the
  reference's last stage read at the arguments' launch contents, the arguments unchanged.

  @main is a line of 117 host operations, so a final state has every buffer at the fold of the operations'
  results over the launch contents. At the result buffer that fold is the last stage of the launch arguments (the
  line read stretch by stretch); at an argument's buffer, which no operation writes, it is the launch contents.
-/
import proofs.«143132_j31748398252728_1_alg».proof.Proof.RefRunChunks

noncomputable section

namespace Cert.ReferenceIdeal.ValueC

open Cert.ReferenceIdeal Cert.ReferenceIdeal.Gen Idealize.ShloMosaic Idealize.ShloMosaic.TcCoe Idealize.SL.Sem Idealize.ShloMosaic.StableHlo
open Cert.ReferenceIdeal.Read

variable {F : FTy → Type} [FloatOps F]

/-- The result as a term of the arguments' launch contents: the reference's last stage, read at them. -/
def res_main_v96 (m : (ℓ : Loc nD τ sig) → Buf (Elt F) ℓ) (c : Dev nD) : Buf (Elt F) ((c.tc : Thread nD τ).loc main_v96) :=
  val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- The result by its position among the values @main returns. -/
abbrev res_out0 (m : (ℓ : Loc nD τ sig) → Buf (Elt F) ℓ) (c : Dev nD) : Buf (Elt F) ((c.tc : Thread nD τ).loc main_v96) := res_main_v96 m c

set_option maxRecDepth 8192 in
set_option maxHeartbeats 4000000 in
/-- On every device, for any float values, from any memory with zero counters: every weakly fair execution of
    @main terminates with the result at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = res_main_v96 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v96).trans (after_ops_main_v96 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.ValueC

end
-- ==== Proof.Val.Host.lean ====
/-
  The host operations of the kernel program between its three regions, read as the reference's own stages.

  Both programs apply the same StableHLO operations to the same operands between the points where the kernel
  program launches a region: the slicing of the edge list into source and target rows, the wrap of negative
  indices, the gathers, the four segment sums (count, sum, sum of squares, and later the third and fourth
  powers), the clamp of the count at one, the mean, the variance clipped at zero, the standard deviation, its
  cube and fourth power, the two quotients, and the concatenation of the seven feature groups. So whenever the
  buffers a stretch of host operations reads hold the reference's stages (as functions of the fourteen
  arguments), the buffers it writes hold the reference's next stages: each statement below is that, for one
  buffer a later region or a later stretch reads, from ANY contents `W` of the device's buffers with the
  stated readings. The proofs only evaluate the fold of the stretch's operations at one buffer and compare the
  two spellings of the same term.
-/
import proofs.«143132_j31748398252728_1_alg».proof.Proof.Gen.KernelIdeal.Regions
import proofs.«143132_j31748398252728_1_alg».proof.Proof.RefRead
import Idealize.ShloMosaic.Lib.StableHlo.Run

set_option maxRecDepth 16384

noncomputable section

namespace Cert.Val.Host

open Idealize.ShloMosaic Idealize.ShloMosaic.TcCoe Idealize.SL.Sem Idealize.ShloMosaic.StableHlo
open Cert.KernelIdeal Cert.KernelIdeal.Gen
open Cert.ReferenceIdeal.Read

/-- The contents of the kernel program's device buffers, as a valuation. -/
abbrev Val8 : Type := Valuation τ sig (Elt Ideal)

section
variable (W : Val8)
variable (a0 : (⟨Cert.ReferenceIdeal.S100000x64, .f32⟩ : BufTy).Contents (Elt Ideal))
variable (a1 : (⟨Cert.ReferenceIdeal.S50000x16, .f32⟩ : BufTy).Contents (Elt Ideal))
variable (a2 : (⟨Cert.ReferenceIdeal.S3200000x16, .f32⟩ : BufTy).Contents (Elt Ideal))
variable (a3 : (⟨Cert.ReferenceIdeal.S16x8, .f32⟩ : BufTy).Contents (Elt Ideal))
variable (a4 : (⟨Cert.ReferenceIdeal.S2x3200000, .i32⟩ : BufTy).Contents (Elt Ideal))
variable (a5 : (⟨Cert.ReferenceIdeal.S100000, .i32⟩ : BufTy).Contents (Elt Ideal))
variable (a6 : (⟨Cert.ReferenceIdeal.S32x32, .f32⟩ : BufTy).Contents (Elt Ideal))
variable (a7 : (⟨Cert.ReferenceIdeal.S32, .f32⟩ : BufTy).Contents (Elt Ideal))
variable (a8 : (⟨Cert.ReferenceIdeal.S32x32, .f32⟩ : BufTy).Contents (Elt Ideal))
variable (a9 : (⟨Cert.ReferenceIdeal.S32, .f32⟩ : BufTy).Contents (Elt Ideal))
variable (a11 : (⟨Cert.ReferenceIdeal.S64, .f32⟩ : BufTy).Contents (Elt Ideal))
variable (a13 : (⟨Cert.ReferenceIdeal.S64, .f32⟩ : BufTy).Contents (Elt Ideal))

/-! ## A buffer a stretch does not write keeps its contents -/

theorem carry0 (r : Ref sig .tc) (h : r ∉ hostOps0_W) : after (hostOps0 (F := Ideal)) W (Proc.devRef .tc r) = W (Proc.devRef .tc r) :=
  StableHlo.after_of_writes_sub hostOps0 _ hostOps0_writes h
theorem carry1 (r : Ref sig .tc) (h : r ∉ hostOps1_W) : after (hostOps1 (F := Ideal)) W (Proc.devRef .tc r) = W (Proc.devRef .tc r) :=
  StableHlo.after_of_writes_sub hostOps1 _ hostOps1_writes h
theorem carry11 (r : Ref sig .tc) (h : r ∉ hostOps1_1_W) : after (hostOps1_1 (F := Ideal)) W (Proc.devRef .tc r) = W (Proc.devRef .tc r) :=
  StableHlo.after_of_writes_sub hostOps1_1 _ hostOps1_1_writes h
theorem carry12 (r : Ref sig .tc) (h : r ∉ hostOps1_2_W) : after (hostOps1_2 (F := Ideal)) W (Proc.devRef .tc r) = W (Proc.devRef .tc r) :=
  StableHlo.after_of_writes_sub hostOps1_2 _ hostOps1_2_writes h
theorem carry2 (r : Ref sig .tc) (h : r ∉ hostOps2_W) : after (hostOps2 (F := Ideal)) W (Proc.devRef .tc r) = W (Proc.devRef .tc r) :=
  StableHlo.after_of_writes_sub hostOps2 _ hostOps2_writes h

/-! ## Before the first region: the edge list's rows, the gathered node features, the biases as rows -/

/-- The source row of the edge list. -/
theorem host0_v1 (h4 : W (Proc.devRef .tc main_arg4) = a4) :
    after (hostOps0 (F := Ideal)) W (Proc.devRef .tc main_v1) = val_main_v1 (F := Ideal) a4 := by
  after_results_simp; rw [h4]; rfl

/-- The node features gathered at the (wrapped) target row. -/
theorem host0_v10 (h1 : W (Proc.devRef .tc main_arg1) = a1) (h4 : W (Proc.devRef .tc main_arg4) = a4) :
    after (hostOps0 (F := Ideal)) W (Proc.devRef .tc main_v10) = val_main_v10 (F := Ideal) a1 a4 := by
  after_results_simp; rw [h1, h4]; rfl

/-- The first layer's bias as a one-row array. -/
theorem host0_v11 (h7 : W (Proc.devRef .tc main_arg7) = a7) :
    after (hostOps0 (F := Ideal)) W (Proc.devRef .tc main_v11) = shapeCast _ a7 shapeCasts_S32_S1x32 := by
  after_results_simp; rw [h7]; rfl

/-- The second layer's bias as a one-row array. -/
theorem host0_v12 (h9 : W (Proc.devRef .tc main_arg9) = a9) :
    after (hostOps0 (F := Ideal)) W (Proc.devRef .tc main_v12) = shapeCast _ a9 shapeCasts_S32_S1x32 := by
  after_results_simp; rw [h9]; rfl

/-! ## Between the first and the second region -/

/-- The number of edges per source node. -/
theorem host1_v17 (h1 : W (Proc.devRef .tc main_v1) = val_main_v1 (F := Ideal) a4) :
    after (hostOps1 (F := Ideal)) W (Proc.devRef .tc main_v17) = val_main_v28 (F := Ideal) a4 := by
  after_results_simp; rw [h1]; rfl

/-- That count clamped below at one. -/
theorem host1_v19 (h1 : W (Proc.devRef .tc main_v1) = val_main_v1 (F := Ideal) a4) :
    after (hostOps1 (F := Ideal)) W (Proc.devRef .tc main_v19) = val_main_v30 (F := Ideal) a4 := by
  after_results_simp; rw [h1]; rfl

/-- The per-node mean of the edge outputs. -/
theorem host1_v24 (h1 : W (Proc.devRef .tc main_v1) = val_main_v1 (F := Ideal) a4)
    (h13 : W (Proc.devRef .tc main_v13) = val_main_v24 (F := Ideal) a1 a2 a4 a6 a7 a8 a9) :
    after (hostOps1 (F := Ideal)) W (Proc.devRef .tc main_v24) = val_main_v35 (F := Ideal) a1 a2 a4 a6 a7 a8 a9 := by
  after_results_simp; rw [h1, h13]; rfl

/-- The per-node mean of squares minus the squared mean. -/
theorem host1_v32 (h1 : W (Proc.devRef .tc main_v1) = val_main_v1 (F := Ideal) a4)
    (h13 : W (Proc.devRef .tc main_v13) = val_main_v24 (F := Ideal) a1 a2 a4 a6 a7 a8 a9) :
    after (hostOps1 (F := Ideal)) W (Proc.devRef .tc main_v32) = val_main_v43 (F := Ideal) a1 a2 a4 a6 a7 a8 a9 := by
  after_results_simp; rw [h1, h13]; rfl

/-- That difference clipped below at zero. -/
theorem host11_v33 (h32 : W (Proc.devRef .tc main_v32) = val_main_v43 (F := Ideal) a1 a2 a4 a6 a7 a8 a9) :
    after (hostOps1_1 (F := Ideal)) W (Proc.devRef .tc main_v33) = val_main_v44 (F := Ideal) a1 a2 a4 a6 a7 a8 a9 := by
  after_results_simp; simp only [cast_eq]; rw [h32]; rfl

/-- The per-node standard deviation. -/
theorem host12_v36 (h33 : W (Proc.devRef .tc main_v33) = val_main_v44 (F := Ideal) a1 a2 a4 a6 a7 a8 a9) :
    after (hostOps1_2 (F := Ideal)) W (Proc.devRef .tc main_v36) = val_main_v47 (F := Ideal) a1 a2 a4 a6 a7 a8 a9 := by
  after_results_simp; rw [h33]; rfl

/-- The mean gathered back at each edge's source node. -/
theorem host12_v43 (h1 : W (Proc.devRef .tc main_v1) = val_main_v1 (F := Ideal) a4)
    (h24 : W (Proc.devRef .tc main_v24) = val_main_v35 (F := Ideal) a1 a2 a4 a6 a7 a8 a9) :
    after (hostOps1_2 (F := Ideal)) W (Proc.devRef .tc main_v43) = val_main_v54 (F := Ideal) a1 a2 a4 a6 a7 a8 a9 := by
  after_results_simp; rw [h1, h24]; rfl

/-! ## A join of seven operands, each operand's contents at its own buffer -/

/-- The result of an operation over a literal family of seven buffers, with each operand's contents spelt at its
    own buffer (rather than at the family applied to an index), so that the operands' own contents can be read on. -/
theorem nary7_result {x0 x1 x2 x3 x4 x5 x6 y : Ref sig .tc}
    (f : ((k : Fin 7) → ((![x0, x1, x2, x3, x4, x5, x6] : Fin 7 → Ref sig .tc) k).ty.Contents (Elt Ideal)) → y.ty.Contents (Elt Ideal))
    (hxs hy) (F : Val8) :
    (nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [nary_result]; congr 1; funext k; fin_cases k <;> rfl

/-! ## Between the second and the third region -/

/-- Running two lines one after the other is running their concatenation. -/
theorem after_append (l₁ l₂ : List (HloOp τ sig (Elt Ideal))) (V : Val8) : after (l₁ ++ l₂) V = after l₂ (after l₁ V) := by
  induction l₁ generalizing V with
  | nil => rfl
  | cons op l ih => simp only [List.cons_append, after_cons, ih]

/-- The last stretch up to the join of the node features (its first 27 operations), -/
abbrev pre2 : List (HloOp τ sig (Elt Ideal)) := (hostOps2 (F := Ideal)).take 27
/-- and the join with the two bias rows after it. -/
abbrev post2 : List (HloOp τ sig (Elt Ideal)) := (hostOps2 (F := Ideal)).drop 27

theorem split2 : after (hostOps2 (F := Ideal)) W = after post2 (after pre2 W) := by
  rw [← after_append, List.take_append_drop]

/-- A buffer the stretch does not write keeps its contents through its first part too. -/
theorem pre2_keep (r : Ref sig .tc) (h : r ∉ hostOps2_W) : after pre2 W (Proc.devRef .tc r) = W (Proc.devRef .tc r) :=
  StableHlo.after_of_writes_sub pre2 W
    (List.forall_iff_forall_mem.mpr fun op hop => (List.forall_iff_forall_mem.mp hostOps2_writes) op (List.mem_of_mem_take hop)) h

/-- The join reads its seven operands where the first part left them. -/
theorem post2_v68 (V' : Val8) :
    after post2 V' (Proc.devRef .tc main_v68)
      = concatenate S100000x201 1 [⟨S100000x64, V' (Proc.devRef .tc main_arg0)⟩, ⟨S100000x1, V' (Proc.devRef .tc main_v17)⟩,
          ⟨S100000x32, V' (Proc.devRef .tc main_v24)⟩, ⟨S100000x32, V' (Proc.devRef .tc main_v36)⟩,
          ⟨S100000x32, V' (Proc.devRef .tc main_v55)⟩, ⟨S100000x32, V' (Proc.devRef .tc main_v60)⟩,
          ⟨S100000x8, V' (Proc.devRef .tc main_v67)⟩] concatenates_S100000x64_S100000x1_S100000x32_S100000x32_S100000x32_S100000x32_S100000x8_S100000x201_d1 := by
  show after [_, _, _] V' _ = _
  simp (disch := decide) only [after_cons, after_nil, reshape_result_ne', nary7_result]
  rfl

/-- The third central moment over the cubed deviation. -/
theorem pre2_v55 (h1 : W (Proc.devRef .tc main_v1) = val_main_v1 (F := Ideal) a4)
    (h19 : W (Proc.devRef .tc main_v19) = val_main_v30 (F := Ideal) a4)
    (h36 : W (Proc.devRef .tc main_v36) = val_main_v47 (F := Ideal) a1 a2 a4 a6 a7 a8 a9)
    (h440 : W (Proc.devRef .tc main_v44_0) = val_main_v57 (F := Ideal) a1 a2 a4 a6 a7 a8 a9) :
    after pre2 W (Proc.devRef .tc main_v55) = val_main_v65 (F := Ideal) a1 a2 a4 a6 a7 a8 a9 := by
  show after [_, _, _, _, _, _, _, _, _, _, _, _, _, _, _, _, _, _, _, _, _, _, _, _, _, _, _] W _ = _
  after_results_simp; rw [h1, h19, h36, h440]; rfl

/-- The fourth central moment over the fourth power of the deviation. -/
theorem pre2_v60 (h1 : W (Proc.devRef .tc main_v1) = val_main_v1 (F := Ideal) a4)
    (h19 : W (Proc.devRef .tc main_v19) = val_main_v30 (F := Ideal) a4)
    (h36 : W (Proc.devRef .tc main_v36) = val_main_v47 (F := Ideal) a1 a2 a4 a6 a7 a8 a9)
    (h441 : W (Proc.devRef .tc main_v44_1) = val_main_v67 (F := Ideal) a1 a2 a4 a6 a7 a8 a9) :
    after pre2 W (Proc.devRef .tc main_v60) = val_main_v75 (F := Ideal) a1 a2 a4 a6 a7 a8 a9 := by
  show after [_, _, _, _, _, _, _, _, _, _, _, _, _, _, _, _, _, _, _, _, _, _, _, _, _, _, _] W _ = _
  after_results_simp; rw [h1, h19, h36, h441]; rfl

/-- The graph-level features gathered at each node's (wrapped) graph index. -/
theorem pre2_v67 (h3 : W (Proc.devRef .tc main_arg3) = a3) (h5 : W (Proc.devRef .tc main_arg5) = a5) :
    after pre2 W (Proc.devRef .tc main_v67) = val_main_v82 (F := Ideal) a3 a5 := by
  show after [_, _, _, _, _, _, _, _, _, _, _, _, _, _, _, _, _, _, _, _, _, _, _, _, _, _, _] W _ = _
  after_results_simp; rw [h3, h5]; rfl

/-- The node features: the node's own, the count, mean, deviation, the two standardised moments, the graph's. -/
theorem host2_v68 (h0 : W (Proc.devRef .tc main_arg0) = a0) (h3 : W (Proc.devRef .tc main_arg3) = a3)
    (h5 : W (Proc.devRef .tc main_arg5) = a5)
    (h1 : W (Proc.devRef .tc main_v1) = val_main_v1 (F := Ideal) a4)
    (h17 : W (Proc.devRef .tc main_v17) = val_main_v28 (F := Ideal) a4)
    (h19 : W (Proc.devRef .tc main_v19) = val_main_v30 (F := Ideal) a4)
    (h24 : W (Proc.devRef .tc main_v24) = val_main_v35 (F := Ideal) a1 a2 a4 a6 a7 a8 a9)
    (h36 : W (Proc.devRef .tc main_v36) = val_main_v47 (F := Ideal) a1 a2 a4 a6 a7 a8 a9)
    (h440 : W (Proc.devRef .tc main_v44_0) = val_main_v57 (F := Ideal) a1 a2 a4 a6 a7 a8 a9)
    (h441 : W (Proc.devRef .tc main_v44_1) = val_main_v67 (F := Ideal) a1 a2 a4 a6 a7 a8 a9) :
    after (hostOps2 (F := Ideal)) W (Proc.devRef .tc main_v68) = val_main_v83 (F := Ideal) a0 a1 a2 a3 a4 a5 a6 a7 a8 a9 := by
  rw [split2, post2_v68, pre2_keep W main_arg0 (by decide), pre2_keep W main_v17 (by decide), pre2_keep W main_v24 (by decide),
    pre2_keep W main_v36 (by decide), pre2_v55 W a1 a2 a4 a6 a7 a8 a9 h1 h19 h36 h440, pre2_v60 W a1 a2 a4 a6 a7 a8 a9 h1 h19 h36 h441,
    pre2_v67 W a3 a5 h3 h5, h0, h17, h24, h36]
  rfl

/-- The node MLP's first bias as a one-row array. -/
theorem host2_v69 (h11 : W (Proc.devRef .tc main_arg11) = a11) :
    after (hostOps2 (F := Ideal)) W (Proc.devRef .tc main_v69) = shapeCast _ a11 shapeCasts_S64_S1x64 := by
  after_results_simp; rw [h11]; rfl

/-- The node MLP's second bias as a one-row array. -/
theorem host2_v70 (h13 : W (Proc.devRef .tc main_arg13) = a13) :
    after (hostOps2 (F := Ideal)) W (Proc.devRef .tc main_v70) = shapeCast _ a13 shapeCasts_S64_S1x64 := by
  after_results_simp; rw [h13]; rfl

end

end Cert.Val.Host

end
-- ==== Proof.Val.EdgeSpec.lean ====
/-
  The edge perceptron as one function of its arrays, entry by entry.

  An edge's row of 32 features is its 16 gathered node features followed by its 16 edge attributes (a
  concatenation along the feature axis). The first layer multiplies the row by a 32×32 matrix and adds a bias
  row; a leaky rectifier follows (the identity where the value is at least zero, a fixed slope times the value
  below); the second layer multiplies by another 32×32 matrix and adds a second bias row. The two biases are
  1×32 arrays. Everything is sums and products of extended reals, the sums taken over the feature axis in its own
  order, so that two programs which spell these operations one by one agree with this function without any law of
  arithmetic. The two float literals (zero, and the slope) stay the words the programs print.
-/
import Idealize.ShloMosaic.PureOps.Ideal.Laws
import Idealize.ShloMosaic.Lib.ValueIdx

noncomputable section

open scoped BigOperators

namespace Cert.Val.Edge

open Idealize.ShloMosaic Idealize.ShloMosaic.ValueIdx

/-- The leaky rectifier: `z` where `z ≥ 0`, the slope (the word `0x3DCCCCCD`, about a tenth) times `z` elsewhere. -/
def leaky (z : EReal) : EReal :=
  Scalar.select (Ideal.cmp .oge z (Ideal.ofBits .f32 0x00000000#32)) z (Ideal.ofBits .f32 0x3DCCCCCD#32 * z)

/-- Row `p` of the concatenation of two `R × 16` arrays along the feature axis: feature `l` is the first array's below
    16 and the second's, 16 further down, from there on. -/
def cat {R : Nat} (g e : (⟨2, ![R, 16]⟩ : Shape).Idx → EReal) (p : Fin R) (l : Fin 32) : EReal :=
  if h : l.val < 16 then g (ix2 p ⟨l.val, h⟩) else e (ix2 p ⟨l.val - 16, by have := l.isLt; omega⟩)

/-- One layer at a row `x` of 32 features: column `k` of the row times the matrix, plus the bias. -/
def layer (x : Fin 32 → EReal) (W : (⟨2, ![32, 32]⟩ : Shape).Idx → EReal) (b : (⟨2, ![1, 32]⟩ : Shape).Idx → EReal)
    (k : Fin 32) : EReal :=
  (∑ l : Fin 32, x l * W (ix2 l k)) + b (ix2 (0 : Fin 1) k)

/-- The perceptron at a row `x` of 32 features: the second layer of the rectified first layer. -/
def rowK (x : Fin 32 → EReal) (W1a : (⟨2, ![32, 32]⟩ : Shape).Idx → EReal) (b1a : (⟨2, ![1, 32]⟩ : Shape).Idx → EReal)
    (W1b : (⟨2, ![32, 32]⟩ : Shape).Idx → EReal) (b1b : (⟨2, ![1, 32]⟩ : Shape).Idx → EReal) (q : Fin 32) : EReal :=
  layer (fun k => leaky (layer x W1a b1a k)) W1b b1b q

/-- THE EDGE PERCEPTRON on the whole arrays: entry `(r, q)` is the perceptron at row `r` of the gathered node features
    `g` beside the edge attributes `e`, column `q`. -/
def edgeK (g e : (⟨2, ![3200000, 16]⟩ : Shape).Idx → EReal) (W1a : (⟨2, ![32, 32]⟩ : Shape).Idx → EReal)
    (b1a : (⟨2, ![1, 32]⟩ : Shape).Idx → EReal) (W1b : (⟨2, ![32, 32]⟩ : Shape).Idx → EReal)
    (b1b : (⟨2, ![1, 32]⟩ : Shape).Idx → EReal) : (⟨2, ![3200000, 32]⟩ : Shape).Idx → EReal :=
  fun i => rowK (cat g e (i 0)) W1a b1a W1b b1b (i 1)

/-- At an index given by its coordinates. -/
theorem edgeK_ix2 (g e : (⟨2, ![3200000, 16]⟩ : Shape).Idx → EReal) (W1a : (⟨2, ![32, 32]⟩ : Shape).Idx → EReal)
    (b1a : (⟨2, ![1, 32]⟩ : Shape).Idx → EReal) (W1b : (⟨2, ![32, 32]⟩ : Shape).Idx → EReal)
    (b1b : (⟨2, ![1, 32]⟩ : Shape).Idx → EReal) (r : Fin 3200000) (q : Fin 32) :
    edgeK g e W1a b1a W1b b1b (ix2 r q) = rowK (cat g e r) W1a b1a W1b b1b q := rfl

end Cert.Val.Edge

end
-- ==== Proof.Val.EdgeKernel.lean ====
/-
  The edge kernel's one stored value, read entry by entry.

  The body concatenates its two 10000×16 feature blocks along the feature axis, multiplies by the first 32×32
  matrix into a zero accumulator, adds the first bias (a 1×32 block broadcast down the rows), applies the leaky
  rectifier, multiplies by the second matrix into a zero accumulator and adds the second bias. Rounding an operand
  to bf16 changes nothing on extended reals. So entry (p, q) of what the body stores is the perceptron at row p
  of the two feature blocks side by side, column q.
-/
import proofs.«143132_j31748398252728_1_alg».proof.Proof.Gen.KernelIdeal.Skeleton
import proofs.«143132_j31748398252728_1_alg».proof.Proof.Val.EdgeSpec
import Idealize.ShloMosaic.Lib.Pipeline.Value

noncomputable section

open scoped BigOperators

namespace Cert.Val.Edge

open Idealize.ShloMosaic Idealize.ShloMosaic.ValueIdx
open Cert.KernelIdeal Cert.KernelIdeal.Gen

/-- A two-piece concatenation of `R × 16` arrays along the feature axis, at row `p` and feature `l`. -/
theorem concatenate_apply {R : Nat} (a b : (⟨2, ![R, 16]⟩ : Shape).Idx → EReal)
    (h : Shape.Concatenates [(⟨2, ![R, 16]⟩ : Shape), ⟨2, ![R, 16]⟩] ⟨2, ![R, 32]⟩ 1) (p : Fin R) (l : Fin 32) :
    concatenate (⟨2, ![R, 32]⟩ : Shape) 1 [⟨⟨2, ![R, 16]⟩, a⟩, ⟨⟨2, ![R, 16]⟩, b⟩] h (ix2 p l) = cat a b p l := by
  unfold cat
  by_cases hl : l.val < 16
  · rw [dif_pos hl]
    exact concatenate_pair_apply_left 1 a b h (ix2 p l) rfl (ix2 p ⟨l.val, hl⟩)
      (fun c => match c with | ⟨0, _⟩ => rfl | ⟨1, _⟩ => rfl)
  · rw [dif_neg hl]
    have hl' := l.isLt
    exact concatenate_pair_apply_right 1 a b h (ix2 p l) rfl rfl (ix2 p ⟨l.val - 16, by omega⟩)
      (fun c => match c with | ⟨0, _⟩ => fun _ => rfl | ⟨1, _⟩ => fun hc => absurd rfl hc)
      (by show l.val - 16 + 16 = l.val; omega)

/-! The operand indices of the body's products (rows × the feature axis, times the feature axis × columns) at an
    output entry and a contraction index: the row and the contraction coordinate, the contraction coordinate and the
    column. -/

theorem lhs_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
theorem rhs_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
theorem rhs_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- A product into a zero accumulator at an entry: the row times the matrix's column, summed over the 32 features. -/
theorem matmul_zero_apply (X : FVec Ideal S10000x32 .bf16) (W : FVec Ideal S32x32 .bf16) (p : Fin 10000) (k : Fin 32) :
    matmul dot_S10000x32_S32x32_S10000x32_1_0_0_1_n_n none X W (constant S10000x32 .f32 0x00000000#32) (ix2 p k)
      = ∑ l : Fin 32, X (ix2 p l) * W (ix2 l k) := by
  show FloatOps.matmul dot_S10000x32_S32x32_S10000x32_1_0_0_1_n_n none X W (constant S10000x32 .f32 0x00000000#32) (ix2 p k) = _
  rw [Ideal.matmul_constant_zero_apply, ← Equiv.sum_comp (contrEquiv1 dot_S10000x32_S32x32_S10000x32_1_0_0_1_n_n 32 rfl rfl).symm]
  refine Finset.sum_congr rfl fun l _ => ?_
  have hl := contrEquiv1_symm_val dot_S10000x32_S32x32_S10000x32_1_0_0_1_n_n 32 rfl rfl l
  have el : dot_S10000x32_S32x32_S10000x32_1_0_0_1_n_n.lhsIdx (ix2 p k) ((contrEquiv1 dot_S10000x32_S32x32_S10000x32_1_0_0_1_n_n 32 rfl rfl).symm l) = ix2 p l :=
    funext fun a => Fin.ext (by
      match a with
      | ⟨0, _⟩ => exact lhs_0 _ _
      | ⟨1, _⟩ => exact (lhs_1 _ _).trans hl)
  have er : dot_S10000x32_S32x32_S10000x32_1_0_0_1_n_n.rhsIdx (ix2 p k) ((contrEquiv1 dot_S10000x32_S32x32_S10000x32_1_0_0_1_n_n 32 rfl rfl).symm l) = ix2 l k :=
    funext fun a => Fin.ext (by
      match a with
      | ⟨0, _⟩ => exact (rhs_0 _ _).trans hl
      | ⟨1, _⟩ => exact rhs_1 _ _)
  rw [el, er]

/-- One layer of the body at an entry: a product with a 32×32 matrix into a zero accumulator (both operands
    rounded to bf16, the identity here) plus a 1×32 bias broadcast down the rows is the row times the matrix's
    column plus the bias's entry. -/
theorem layer_apply (X : FVec Ideal S10000x32 .f32) (W : Vec Ideal S32x32 .f32) (b : Vec Ideal S1x32 .f32)
    (p : Fin 10000) (k : Fin 32) :
    addf (matmul dot_S10000x32_S32x32_S10000x32_1_0_0_1_n_n none (truncf .bf16 X bitsLt_bf16_f32) (truncf .bf16 W bitsLt_bf16_f32)
        (constant S10000x32 .f32 0x00000000#32))
      (broadcastTo S10000x32 (shapeCast S1x32 b shapeCasts_S1x32_S1x32) broadcasts_S1x32_S10000x32) (ix2 p k)
      = layer (fun l => X (ix2 p l)) W b k := by
  unfold layer
  rw [addf_apply, matmul_zero_apply, shapeCast_self]
  refine congrArg (_ + ·) ?_
  exact broadcastTo_apply b broadcasts_S1x32_S10000x32 (ix2 p k) (ix2 (0 : Fin 1) k)
    (fun a => match a with
      | ⟨0, _⟩ => by show (0 : Nat) = if (1 : Nat) = 1 then 0 else _; rw [if_pos rfl]
      | ⟨1, _⟩ => by show k.val = if (32 : Nat) = 1 then 0 else k.val; rw [if_neg (by decide)])

/-- The body's rectifier at an entry: a compare with the zero splat, the slope splat times the value, a select. -/
theorem leaky_apply (z : FVec Ideal S10000x32 .f32) (i : S10000x32.Idx) :
    select (cmpf .oge z (broadcast S10000x32 (Scalar.ofBits (F := Ideal) .f32 0x00000000#32))) z
      (mulf (broadcast S10000x32 (Scalar.ofBits (F := Ideal) .f32 0x3DCCCCCD#32)) z) i = leaky (z i) := rfl

/-- THE BODY'S STORED VALUE at row `p`, column `q`: the perceptron at row `p` of the two feature blocks side by side. -/
theorem pay_apply (v0 v2 : Vec Ideal S10000x16 .f32) (v4 v6 : Vec Ideal S32x32 .f32) (v10 v21 : Vec Ideal S1x32 .f32)
    (p : Fin 10000) (q : Fin 32) :
    k0_pay1 (F := Ideal) v0 v2 v4 v6 v10 v21 (ix2 p q) = rowK (cat v0 v2 p) v4 v10 v6 v21 q := by
  unfold k0_pay1 rowK
  refine (layer_apply _ v6 v21 p q).trans ?_
  refine congrArg (fun x => layer x v6 v21 q) (funext fun k => ?_)
  refine (leaky_apply _ (ix2 p k)).trans ?_
  refine congrArg leaky ((layer_apply _ v4 v10 p k).trans ?_)
  refine congrArg (fun x => layer x v4 v10 k) (funext fun l => ?_)
  rw [shapeCast_self]
  exact concatenate_apply v0 v2 concatenates_S10000x16_S10000x16_S10000x32_d1 p l

end Cert.Val.Edge

end
-- ==== Proof.Val.EdgeBlocks.lean ====
/-
  From the edge kernel's blocks to its result array.

  The grid has 320 points; point t works on rows 10000·t … 10000·t + 9999. Its two feature blocks are those rows
  of the gathered node features and of the edge attributes; the two matrices and the two bias rows are the same
  whole arrays at every point (block (0, 0) of an array of the block's own size); its result block is those rows
  of the result array. A block's entry sits at block index × block size + the coordinate inside the block. So what
  point t writes back is rows 10000·t … of the perceptron of the whole arrays, and since row r lies in the block
  of point r / 10000, the 320 blocks fill the array: it ends holding the perceptron of the whole arrays.
-/
import proofs.«143132_j31748398252728_1_alg».proof.Proof.KI.Blocks
import proofs.«143132_j31748398252728_1_alg».proof.Proof.Val.EdgeKernel
import Idealize.ShloMosaic.Lib.Pipeline.Value

noncomputable section

open scoped BigOperators

namespace Cert.Val.Edge

open Idealize.ShloMosaic Idealize.ShloMosaic.TcCoe Idealize.ShloMosaic.ValueIdx
open Idealize.SL Idealize.SL.Sem Idealize.SL.RA
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

theorem hz : (![0, 0] : Fin 2 → Nat) = fun _ => 0 := funext fun a => by fin_cases a <;> rfl

/-- The seven index maps over the grid: the feature windows and the result window move down the rows with the
    point, the matrices and biases stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The perceptron at a row depends only on the row and the four parameter arrays. -/
theorem rowK_congr {x x' : Fin 32 → EReal} {W1a W1a' W1b W1b' : (⟨2, ![32, 32]⟩ : Shape).Idx → EReal}
    {b1a b1a' b1b b1b' : (⟨2, ![1, 32]⟩ : Shape).Idx → EReal} (hx : x = x') (h1 : W1a = W1a') (h2 : b1a = b1a')
    (h3 : W1b = W1b') (h4 : b1b = b1b') (q : Fin 32) :
    rowK x W1a b1a W1b b1b q = rowK x' W1a' b1a' W1b' b1b' q := by
  subst hx h1 h2 h3 h4; rfl

/-- The first feature block at point `t`: rows `10000 t …` of the gathered node features. -/
theorem feat0_apply (c : Dev nD) (t : Fin cfg0.N) (p : Fin 10000) (l : Fin 16) (r : Fin 3200000)
    (hr : r.val = t.val * 10000 + p.val) :
    (iblk0 V c 0 t : Vec Ideal S10000x16 .f32) (ix2 p l) = (V c main_v10 : S3200000x16.Idx → EReal) (ix2 r l) := by
  unfold iblk0
  rw [View.read_apply]
  show V c main_v10 _ = V c main_v10 _
  congr 1
  funext a
  apply Fin.ext
  match a with
  | ⟨0, _⟩ => show win0_0.index t (0 : Fin 2) * 10000 + 1 * p.val = r.val; rw [(idx_facts t).1, hr]; omega
  | ⟨1, _⟩ => show win0_0.index t (1 : Fin 2) * 16 + 1 * l.val = l.val; rw [(idx_facts t).2.1]; omega

/-- The second feature block at point `t`: rows `10000 t …` of the edge attributes. -/
theorem feat1_apply (c : Dev nD) (t : Fin cfg0.N) (p : Fin 10000) (l : Fin 16) (r : Fin 3200000)
    (hr : r.val = t.val * 10000 + p.val) :
    (iblk0 V c 1 t : Vec Ideal S10000x16 .f32) (ix2 p l) = (V c main_arg2 : S3200000x16.Idx → EReal) (ix2 r l) := by
  unfold iblk0
  rw [View.read_apply]
  show V c main_arg2 _ = V c main_arg2 _
  congr 1
  funext a
  apply Fin.ext
  match a with
  | ⟨0, _⟩ => show win0_1.index t (0 : Fin 2) * 10000 + 1 * p.val = r.val; rw [(idx_facts t).2.2.1, hr]; omega
  | ⟨1, _⟩ => show win0_1.index t (1 : Fin 2) * 16 + 1 * l.val = l.val; rw [(idx_facts t).2.2.2.1]; omega

/-- The first matrix's block at every point is the whole matrix. -/
theorem whole2 (c : Dev nD) (t : Fin cfg0.N) :
    (iblk0 V c 2 t : Vec Ideal S32x32 .f32) = (V c main_arg6 : S32x32.Idx → EReal) := by
  funext i
  unfold iblk0
  rw [View.read_apply]
  show V c main_arg6 _ = V c main_arg6 i
  congr 1
  funext a
  apply Fin.ext
  match a with
  | ⟨0, _⟩ => show win0_2.index t (0 : Fin 2) * 32 + 1 * (i 0).val = (i 0).val; rw [(idx_facts t).2.2.2.2.1]; omega
  | ⟨1, _⟩ => show win0_2.index t (1 : Fin 2) * 32 + 1 * (i 1).val = (i 1).val; rw [(idx_facts t).2.2.2.2.2.1]; omega

/-- The first bias's block at every point is the whole bias row. -/
theorem whole3 (c : Dev nD) (t : Fin cfg0.N) :
    (iblk0 V c 3 t : Vec Ideal S1x32 .f32) = (V c main_v11 : S1x32.Idx → EReal) := by
  funext i
  unfold iblk0
  rw [View.read_apply]
  show V c main_v11 _ = V c main_v11 i
  congr 1
  funext a
  apply Fin.ext
  match a with
  | ⟨0, _⟩ => show win0_3.index t (0 : Fin 2) * 1 + 1 * (i 0).val = (i 0).val; rw [(idx_facts t).2.2.2.2.2.2.1]; omega
  | ⟨1, _⟩ => show win0_3.index t (1 : Fin 2) * 32 + 1 * (i 1).val = (i 1).val; rw [(idx_facts t).2.2.2.2.2.2.2.1]; omega

/-- The second matrix's block at every point is the whole matrix. -/
theorem whole4 (c : Dev nD) (t : Fin cfg0.N) :
    (iblk0 V c 4 t : Vec Ideal S32x32 .f32) = (V c main_arg8 : S32x32.Idx → EReal) := by
  funext i
  unfold iblk0
  rw [View.read_apply]
  show V c main_arg8 _ = V c main_arg8 i
  congr 1
  funext a
  apply Fin.ext
  match a with
  | ⟨0, _⟩ => show win0_4.index t (0 : Fin 2) * 32 + 1 * (i 0).val = (i 0).val; rw [(idx_facts t).2.2.2.2.2.2.2.2.1]; omega
  | ⟨1, _⟩ => show win0_4.index t (1 : Fin 2) * 32 + 1 * (i 1).val = (i 1).val; rw [(idx_facts t).2.2.2.2.2.2.2.2.2.1]; omega

/-- The second bias's block at every point is the whole bias row. -/
theorem whole5 (c : Dev nD) (t : Fin cfg0.N) :
    (iblk0 V c 5 t : Vec Ideal S1x32 .f32) = (V c main_v12 : S1x32.Idx → EReal) := by
  funext i
  unfold iblk0
  rw [View.read_apply]
  show V c main_v12 _ = V c main_v12 i
  congr 1
  funext a
  apply Fin.ext
  match a with
  | ⟨0, _⟩ => show win0_5.index t (0 : Fin 2) * 1 + 1 * (i 0).val = (i 0).val; rw [(idx_facts t).2.2.2.2.2.2.2.2.2.2.1]; omega
  | ⟨1, _⟩ => show win0_5.index t (1 : Fin 2) * 32 + 1 * (i 1).val = (i 1).val; rw [(idx_facts t).2.2.2.2.2.2.2.2.2.2.2.1]; omega

/-- The body's stored value at point `t`, entry `(p, q)`, is the whole arrays' perceptron at row `10000 t + p`. -/
theorem block_eq (c : Dev nD) (t : Fin cfg0.N) (p : Fin 10000) (q : Fin 32) (r : Fin 3200000)
    (hr : r.val = t.val * 10000 + p.val) :
    k0_pay1 (F := Ideal) (iblk0 V c 0 t) (iblk0 V c 1 t) (iblk0 V c 2 t) (iblk0 V c 4 t) (iblk0 V c 3 t) (iblk0 V c 5 t) (ix2 p q)
      = edgeK (V c main_v10) (V c main_arg2) (V c main_arg6) (V c main_v11) (V c main_arg8) (V c main_v12) (ix2 r q) := by
  rw [edgeK_ix2]
  refine (pay_apply (iblk0 V c 0 t) (iblk0 V c 1 t) (iblk0 V c 2 t) (iblk0 V c 4 t) (iblk0 V c 3 t) (iblk0 V c 5 t) p q).trans ?_
  refine rowK_congr (funext fun l => ?_) (whole2 V c t) (whole3 V c t) (whole4 V c t) (whole5 V c t) q
  unfold cat
  by_cases hl : l.val < 16
  · rw [dif_pos hl, dif_pos hl]
    exact feat0_apply V c t p ⟨l.val, hl⟩ r hr
  · rw [dif_neg hl, dif_neg hl]
    exact feat1_apply V c t p ⟨l.val - 16, by have := l.isLt; omega⟩ r hr

section
variable {Ix : Type} [DecidableEq Ix] {Name : Type} [DecidableEq Name] {U : Type} [URA U] {Lvl : Type}

/-- WHAT POINT `t` WRITES BACK is block `t` of the perceptron of the whole arrays. -/
theorem flushed_eq {c : Dev nD} (dat : Dat τ (Elt Ideal) Ix Name U Lvl cfg0 c)
    (hafter : ∀ t, dat.after 6 t = out0_6 (iblk0 V c 0 t) (iblk0 V c 1 t) (iblk0 V c 2 t) (iblk0 V c 3 t) (iblk0 V c 4 t) (iblk0 V c 5 t))
    (t : Fin cfg0.N) :
    dat.flushed 6 t = ((cfg0.win 6).blk t).view.read (Elt Ideal)
      (edgeK (V c main_v10) (V c main_arg2) (V c main_arg6) (V c main_v11) (V c main_arg8) (V c main_v12)) := by
  show (cfg0.win 6).cut (grid0.coords t) (dat.after 6 t) = _
  rw [hafter]
  unfold out0_6
  rw [View.canon_unit_zero hz]
  simp only [View.ld_unit_zero (S := S10000x16) hz, View.ld_unit_zero (S := S32x32) hz, View.ld_unit_zero (S := S1x32) hz]
  funext j
  have ht : t.val < 320 := lt_of_lt_of_eq t.isLt N_0
  have hj0 : (j 0).val < 10000 := (j 0).isLt
  have hj1 : (j 1).val < 32 := (j 1).isLt
  have e0 : win0_6.index t (0 : Fin 2) = t.val := (idx_facts t).2.2.2.2.2.2.2.2.2.2.2.2.1
  have e1 : win0_6.index t (1 : Fin 2) = 0 := (idx_facts t).2.2.2.2.2.2.2.2.2.2.2.2.2
  have hemb : ((cfg0.win 6).blk t).view.emb j
      = ix2 (⟨t.val * 10000 + (j 0).val, by omega⟩ : Fin 3200000) (⟨(j 1).val, hj1⟩ : Fin 32) := by
    funext a
    apply Fin.ext
    match a with
    | ⟨0, _⟩ => show win0_6.index t (0 : Fin 2) * 10000 + 1 * (j 0).val = t.val * 10000 + (j 0).val; rw [e0]; omega
    | ⟨1, _⟩ => show win0_6.index t (1 : Fin 2) * 32 + 1 * (j 1).val = (j 1).val; rw [e1]; omega
  -- the staging buffer's entry, by its coordinates
  have hx : (cfg0.win 6).xinj (grid0.coords t) j = ix2 (⟨(j 0).val, hj0⟩ : Fin 10000) (⟨(j 1).val, hj1⟩ : Fin 32) :=
    funext fun a => by match a with | ⟨0, _⟩ => rfl | ⟨1, _⟩ => rfl
  refine (congrArg (k0_pay1 (F := Ideal) (iblk0 V c 0 t) (iblk0 V c 1 t) (iblk0 V c 2 t) (iblk0 V c 4 t) (iblk0 V c 3 t) (iblk0 V c 5 t)) hx).trans ?_
  rw [View.read_apply, hemb]
  exact block_eq V c t ⟨(j 0).val, hj0⟩ ⟨(j 1).val, hj1⟩ ⟨t.val * 10000 + (j 0).val, by omega⟩ rfl

/-- An index of the result array is in point `t`'s block iff each coordinate is in the block's range on its axis. -/
theorem mem_blk (t : Fin cfg0.N) (i : S3200000x32.Idx) :
    i ∈ ((cfg0.win 6).blk t).view.set ↔ ∀ a : Fin 2, win0_6.index t a * S10000x32.size a ≤ (i a).val
      ∧ (i a).val < win0_6.index t a * S10000x32.size a + S10000x32.size a := by
  show i ∈ ((View.whole main_v13).slice (win0_6.rect t)).set ↔ _
  rw [View.set_slice_whole, Rect.mem_set_unit]
  exact Iff.rfl

/-- Every entry of the result array is in some point's block: row `r` in that of point `r / 10000`. -/
theorem cover (i : S3200000x32.Idx) :
    ∃ t : Fin cfg0.N, (cfg0.win 6).flush t = true ∧ i ∈ ((cfg0.win 6).blk t).view.set := by
  have hi0 : (i 0).val < 3200000 := (i 0).isLt
  have hi1 : (i 1).val < 32 := (i 1).isLt
  obtain ⟨t, ht⟩ : ∃ t : Fin cfg0.N, t.val = (i 0).val / 10000 :=
    ⟨⟨(i 0).val / 10000, by show (i 0).val / 10000 < grid0.N; rw [N_0]; omega⟩, rfl⟩
  have e0 : win0_6.index t (0 : Fin 2) = t.val := (idx_facts t).2.2.2.2.2.2.2.2.2.2.2.2.1
  have e1 : win0_6.index t (1 : Fin 2) = 0 := (idx_facts t).2.2.2.2.2.2.2.2.2.2.2.2.2
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 32 ≤ (i 1).val ∧ (i 1).val < win0_6.index t (1 : Fin 2) * 32 + 32
    rw [e1]; omega

/-- THE RESULT ARRAY after the region: the edge perceptron of the arrays the region is entered with. -/
theorem final0 {c : Dev nD} (dat : Dat τ (Elt Ideal) Ix Name U Lvl cfg0 c)
    (hA : ∀ w, dat.A w = V c (Pipeline.arrRef spec0 w))
    (hafter : ∀ t, dat.after 6 t = out0_6 (iblk0 V c 0 t) (iblk0 V c 1 t) (iblk0 V c 2 t) (iblk0 V c 3 t) (iblk0 V c 4 t) (iblk0 V c 5 t)) :
    dat.arrAt 6 cfg0.N = edgeK (V c main_v10) (V c main_arg2) (V c main_arg6) (V c main_v11) (V c main_arg8) (V c main_v12) :=
  dat.arrAt_eq_of_cover 6 (edgeK (V c main_v10) (V c main_arg2) (V c main_arg6) (V c main_v11) (V c main_arg8) (V c main_v12))
    (fun t _ => flushed_eq V dat hafter t) cover

end

end Cert.Val.Edge

end
-- ==== Proof.Val.EdgeRef.lean ====
/-
  The reference's edge perceptron, read entry by entry.

  The reference concatenates the gathered node features and the edge attributes along the feature axis on the whole
  3200000-row arrays, takes the product with the first 32×32 matrix, adds the first bias (a 32-vector broadcast to
  a 1×32 row and then down the rows), applies the leaky rectifier (a compare with a zero splat, the slope splat times
  the value, a select), takes the product with the second matrix and adds the second bias. Entry (r, q) is
  therefore the perceptron at row r of the two arrays side by side, column q, with each bias read through its
  reshape to a 1×32 row: entry (0, q) of that row is entry q of the vector.
-/
import proofs.«143132_j31748398252728_1_alg».proof.Proof.RefRead
import proofs.«143132_j31748398252728_1_alg».proof.Proof.Val.EdgeKernel

noncomputable section

open scoped BigOperators

namespace Cert.Val.Edge

open Idealize.ShloMosaic Idealize.ShloMosaic.ValueIdx
open Cert.ReferenceIdeal Cert.ReferenceIdeal.Read

/-- The left operand's index of either product at entry `(r, q)` and feature `k`: row `r`, feature `k`. -/
theorem lidx_eq (r : Fin 3200000) (q k : Fin 32) : lidx_main_v21 (ix2 r q) k = ix2 r k :=
  funext fun a => Fin.ext (by match a with | ⟨0, _⟩ => rfl | ⟨1, _⟩ => rfl)

/-- The right operand's: feature `k`, column `q`. -/
theorem ridx_eq (r : Fin 3200000) (q k : Fin 32) : ridx_main_v21 (ix2 r q) k = ix2 k q :=
  funext fun a => Fin.ext (by match a with | ⟨0, _⟩ => rfl | ⟨1, _⟩ => rfl)

/-- A 32-vector broadcast to a 1×32 row and down the rows, at entry `(r, q)`, is the vector's reshape to a 1×32 row at
    `(0, q)`: both are entry `q` of the vector. -/
theorem bias_eq (b : S32.Idx → EReal) (h : S32.ShapeCasts S1x32) (r : Fin 3200000) (q : Fin 32) :
    b (idx_main_v22 (idx_main_v23 (ix2 r q))) = shapeCast S1x32 b h (ix2 (0 : Fin 1) q) :=
  (shapeCast_apply b h (ix2 (0 : Fin 1) q) (idx_main_v22 (idx_main_v23 (ix2 r q)))
    (by rw [Shape.rowMajor_val_one, Shape.rowMajor_val_two]; show q.val = 0 * 32 + q.val; omega)).symm

/-- THE REFERENCE'S EDGE STAGE is the edge perceptron of the gathered node features, the edge attributes, the two
    matrices and the two biases reshaped to rows (`h7`, `h9`: that a 32-vector reshapes to a 1×32 row, whichever proof of
    it the reshape carries). -/
theorem ref_eq (x1 : (⟨S50000x16, .f32⟩ : BufTy).Contents (Elt Ideal)) (x2 : (⟨S3200000x16, .f32⟩ : BufTy).Contents (Elt Ideal))
    (x4 : (⟨S2x3200000, .i32⟩ : BufTy).Contents (Elt Ideal)) (x6 : (⟨S32x32, .f32⟩ : BufTy).Contents (Elt Ideal))
    (x7 : (⟨S32, .f32⟩ : BufTy).Contents (Elt Ideal)) (x8 : (⟨S32x32, .f32⟩ : BufTy).Contents (Elt Ideal))
    (x9 : (⟨S32, .f32⟩ : BufTy).Contents (Elt Ideal)) (h7 h9 : S32.ShapeCasts S1x32) :
    val_main_v24 (F := Ideal) x1 x2 x4 x6 x7 x8 x9
      = edgeK (val_main_v10 (F := Ideal) x1 x4) x2 x6 (shapeCast S1x32 x7 h7) x8 (shapeCast S1x32 x9 h9) := by
  funext i
  obtain ⟨r, q, rfl⟩ : ∃ (r : Fin 3200000) (q : Fin 32), i = ix2 r q := ⟨i 0, i 1, eq_ix2 i⟩
  rw [edgeK_ix2, val_main_v24_apply, val_main_v21_apply, val_main_v23_apply, val_main_v22_apply, Ideal.addf_def]
  unfold rowK
  refine congr (congrArg HAdd.hAdd (Finset.sum_congr rfl fun k _ => ?_)) (bias_eq x9 h9 r q)
  rw [lidx_eq, ridx_eq]
  refine congrArg (· * _) ?_
  rw [val_main_v20_apply, val_main_v17_apply, val_main_v19_apply, val_main_v16_apply, val_main_v18_apply,
    val_main_cst_apply, val_main_cst_1_apply]
  refine (show _ = leaky (val_main_v15 (F := Ideal) x1 x2 x4 x6 x7 (ix2 r k)) from rfl).trans (congrArg leaky ?_)
  rw [val_main_v15_apply, val_main_v12_apply, val_main_v14_apply, val_main_v13_apply, Ideal.addf_def]
  refine congr (congrArg HAdd.hAdd (Finset.sum_congr rfl fun l _ => ?_)) (bias_eq x7 h7 r k)
  refine congr (congrArg HMul.hMul ?_) (congrArg x6 (ridx_eq r k l))
  rw [show lidx_main_v12 (ix2 r k) l = ix2 r l from lidx_eq r k l]
  unfold val_main_v11
  exact concatenate_apply (val_main_v10 (F := Ideal) x1 x4) x2 _ r l

end Cert.Val.Edge

end
-- ==== Proof.Val.Diff.lean ====
/-
  Region 1 of the idealized kernel program, read as values.

  The region walks 400 grid points. Point `t` stages rows `8000·t … 8000·t + 7999` of two 3200000×32 arrays
  `X` and `Y` and writes back, to the same rows of two result arrays, the third and the fourth power of the
  difference, element by element:  `((X − Y)·(X − Y))·(X − Y)`  and  `((X − Y)·(X − Y))·((X − Y)·(X − Y))`.

  Every operation of the body is pointwise, so what point `t` writes is the rows of point `t` of ONE
  whole-array function of `X` and `Y`; the four windows share one index map (row block `t`, column block 0), so
  an element of an input block sits in its array exactly where the same element of the output block sits in
  its own; and row `r` of the result lies in the block of point `r / 8000`, so the blocks cover the arrays.
  Hence each result array ends holding that whole-array function.
-/
import proofs.«143132_j31748398252728_1_alg».proof.Proof.KI.Blocks
import Idealize.ShloMosaic.Lib.Pipeline.Value
import Idealize.ShloMosaic.Lib.Pipeline.Kit
import Idealize.ShloMosaic.Lib.ValueIdx

noncomputable section

namespace Cert.Val.Diff

open Cert.KernelIdeal Cert.KernelIdeal.Gen Cert.KernelIdeal.Fr
open Idealize.ShloMosaic Idealize.ShloMosaic.TcCoe Idealize.SL.Sem
open Idealize.ShloMosaic.Pipeline (Dat)

/-- The zero offsets of a whole staging buffer, as the constant function. -/
theorem hz : (![0, 0] : Fin 2 → Nat) = fun _ => 0 := funext fun a => by fin_cases a <;> rfl

/-- The third power of a difference, element by element, grouped as the body multiplies. -/
abbrev cube {s : Shape} (X Y : FVec Ideal s .f32) : FVec Ideal s .f32 :=
  mulf (mulf (subf X Y) (subf X Y)) (subf X Y)

/-- The fourth power of a difference, element by element: the square times the square. -/
abbrev fourth {s : Shape} (X Y : FVec Ideal s .f32) : FVec Ideal s .f32 :=
  mulf (mulf (subf X Y) (subf X Y)) (mulf (subf X Y) (subf X Y))

/-- The first store's payload is the cube of the difference of the two loaded blocks. -/
theorem pay2_eq (x0 x1 : Vec Ideal S8000x32 .f32) : k1_pay2 x0 x1 = cube x0 x1 := by
  unfold k1_pay2 k1_pay1
  simp only [shapeCast_self]

/-- The second store's payload is the fourth power of that difference. -/
theorem pay3_eq (x0 x1 : Vec Ideal S8000x32 .f32) : k1_pay3 x0 x1 = fourth x0 x1 := by
  unfold k1_pay3 k1_pay1
  simp only [shapeCast_self]

/-- The cube of two arrays read through index maps, at a point where the maps agree with a third, is the cube of
    the arrays read there. -/
theorem cube_reindex {s S : Shape} (X Y : FVec Ideal S .f32) (e0 e1 e2 : s.Idx → S.Idx) (j : s.Idx)
    (h0 : e0 j = e2 j) (h1 : e1 j = e2 j) :
    cube (fun y => X (e0 y)) (fun y => Y (e1 y)) j = cube X Y (e2 j) := by
  show (X (e0 j) - Y (e1 j)) * (X (e0 j) - Y (e1 j)) * (X (e0 j) - Y (e1 j)) = _
  rw [h0, h1]; rfl

/-- The same for the fourth power. -/
theorem fourth_reindex {s S : Shape} (X Y : FVec Ideal S .f32) (e0 e1 e2 : s.Idx → S.Idx) (j : s.Idx)
    (h0 : e0 j = e2 j) (h1 : e1 j = e2 j) :
    fourth (fun y => X (e0 y)) (fun y => Y (e1 y)) j = fourth X Y (e2 j) := by
  show (X (e0 j) - Y (e1 j)) * (X (e0 j) - Y (e1 j)) * ((X (e0 j) - Y (e1 j)) * (X (e0 j) - Y (e1 j))) = _
  rw [h0, h1]; rfl

/-- The four windows' index maps, decided over the 400 points: every window's block at point `t` is row block
    `t`, column block 0. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable {c : Dev nD}
variable (V : (c : Dev nD) → (b : Ref sig .tc) → Buf (Elt Ideal) ((c : Thread nD τ).loc b))
variable (dat : Pipeline.Dat τ (Elt Ideal) Unit ℕ (UR sig nD τ) ℕ cfg1 c)

/-! ## The cube (window 2) -/

/-- What point `t` writes back to the first result is the rows of point `t` of the cube of `X − Y`. -/
theorem flushed2_eq
    (hafter : ∀ t, dat.after 2 t = out1_2 (iblk1 V c 0 t) (iblk1 V c 1 t)) (t : Fin cfg1.N) :
    dat.flushed 2 t = ((cfg1.win 2).blk t).view.read (Elt Ideal)
      (cube (V c main_v13 : FVec Ideal S3200000x32 .f32) (V c main_v43 : FVec Ideal S3200000x32 .f32)) := by
  show (cfg1.win 2).cut (grid1.coords t) (dat.after 2 t) = _
  rw [hafter]
  unfold out1_2
  rw [View.canon_unit_zero hz]
  simp only [View.ld_unit_zero (S := S8000x32) hz]
  rw [pay2_eq]
  obtain ⟨e00, e01, e10, e11, e20, e21, -, -⟩ := idx_facts t
  funext j
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; rw [e00, e20]
    | ⟨1, _⟩ => show win1_0.index t (1 : Fin 2) * 32 + 1 * (j 1).val = win1_2.index t (1 : Fin 2) * 32 + 1 * (j 1).val; rw [e01, e21]
  have h1 : ((cfg1.win 1).blk t).view.emb j = ((cfg1.win 2).blk t).view.emb j := by
    funext a; apply Fin.ext
    match a with
    | ⟨0, _⟩ => show win1_1.index t (0 : Fin 2) * 8000 + 1 * (j 0).val = win1_2.index t (0 : Fin 2) * 8000 + 1 * (j 0).val; rw [e10, e20]
    | ⟨1, _⟩ => show win1_1.index t (1 : Fin 2) * 32 + 1 * (j 1).val = win1_2.index t (1 : Fin 2) * 32 + 1 * (j 1).val; rw [e11, e21]
  show cube (fun y => V c main_v13 (((cfg1.win 0).blk t).view.emb y)) (fun y => V c main_v43 (((cfg1.win 1).blk t).view.emb y)) j
     = cube (V c main_v13 : FVec Ideal S3200000x32 .f32) (V c main_v43 : FVec Ideal S3200000x32 .f32) (((cfg1.win 2).blk t).view.emb j)
  exact cube_reindex (V c main_v13 : FVec Ideal S3200000x32 .f32) (V c main_v43 : FVec Ideal S3200000x32 .f32) _ _ _ j h0 h1

/-- An index of the first result is in point `t`'s block iff each coordinate is in the block's range on its axis. -/
theorem mem_blk2 (t : Fin cfg1.N) (i : S3200000x32.Idx) :
    i ∈ ((cfg1.win 2).blk t).view.set ↔ ∀ a : Fin 2, win1_2.index t a * S8000x32.size a ≤ (i a).val ∧ (i a).val < win1_2.index t a * S8000x32.size a + S8000x32.size a := by
  show i ∈ ((View.whole main_v44_0).slice (win1_2.rect t)).set ↔ _
  rw [View.set_slice_whole, Rect.mem_set_unit]
  exact Iff.rfl

/-- Row `r` of the first result is in the block of point `r / 8000`: the blocks cover the array. -/
theorem cover2 (i : S3200000x32.Idx) :
    ∃ t : Fin cfg1.N, (cfg1.win 2).flush t = true ∧ i ∈ ((cfg1.win 2).blk t).view.set := by
  have hi0 : (i 0).val < 3200000 := (i 0).isLt
  have hi1 : (i 1).val < 32 := (i 1).isLt
  have hN : cfg1.N = 400 := N_1
  have hlt : (i 0).val / 8000 < cfg1.N := by rw [hN]; omega
  obtain ⟨-, -, -, -, e20, e21, -, -⟩ := idx_facts ⟨(i 0).val / 8000, hlt⟩
  refine ⟨⟨(i 0).val / 8000, hlt⟩, flush1_2 _, ?_⟩
  rw [mem_blk2]
  intro a
  match a with
  | ⟨0, _⟩ =>
    show win1_2.index ⟨(i 0).val / 8000, hlt⟩ (0 : Fin 2) * 8000 ≤ (i 0).val ∧ (i 0).val < win1_2.index ⟨(i 0).val / 8000, hlt⟩ (0 : Fin 2) * 8000 + 8000
    rw [e20]; show (i 0).val / 8000 * 8000 ≤ (i 0).val ∧ (i 0).val < (i 0).val / 8000 * 8000 + 8000; omega
  | ⟨1, _⟩ =>
    show win1_2.index ⟨(i 0).val / 8000, hlt⟩ (1 : Fin 2) * 32 ≤ (i 1).val ∧ (i 1).val < win1_2.index ⟨(i 0).val / 8000, hlt⟩ (1 : Fin 2) * 32 + 32
    rw [e21]; omega

/-- The first result array after the region: the cube of `X − Y`, the reference's own term. -/
theorem final1_2
    (hA : ∀ w, dat.A w = V c (Pipeline.arrRef spec1 w))
    (hafter : ∀ t, dat.after 2 t = out1_2 (iblk1 V c 0 t) (iblk1 V c 1 t)) :
    dat.arrAt 2 cfg1.N
      = (mulf (mulf (subf (V c main_v13 : FVec Ideal S3200000x32 .f32) (V c main_v43 : FVec Ideal S3200000x32 .f32))
                    (subf (V c main_v13 : FVec Ideal S3200000x32 .f32) (V c main_v43 : FVec Ideal S3200000x32 .f32)))
              (subf (V c main_v13 : FVec Ideal S3200000x32 .f32) (V c main_v43 : FVec Ideal S3200000x32 .f32))
          : FVec Ideal S3200000x32 .f32) :=
  dat.arrAt_eq_of_cover 2 (cube (V c main_v13 : FVec Ideal S3200000x32 .f32) (V c main_v43 : FVec Ideal S3200000x32 .f32))
    (fun t _ => flushed2_eq V dat hafter t) cover2

/-! ## The fourth power (window 3) -/

/-- What point `t` writes back to the second result is the rows of point `t` of the fourth power of `X − Y`. -/
theorem flushed3_eq
    (hafter : ∀ t, dat.after 3 t = out1_3 (iblk1 V c 0 t) (iblk1 V c 1 t)) (t : Fin cfg1.N) :
    dat.flushed 3 t = ((cfg1.win 3).blk t).view.read (Elt Ideal)
      (fourth (V c main_v13 : FVec Ideal S3200000x32 .f32) (V c main_v43 : FVec Ideal S3200000x32 .f32)) := by
  show (cfg1.win 3).cut (grid1.coords t) (dat.after 3 t) = _
  rw [hafter]
  unfold out1_3
  rw [View.canon_unit_zero hz]
  simp only [View.ld_unit_zero (S := S8000x32) hz]
  rw [pay3_eq]
  obtain ⟨e00, e01, e10, e11, -, -, e30, e31⟩ := idx_facts t
  funext j
  have h0 : ((cfg1.win 0).blk t).view.emb j = ((cfg1.win 3).blk t).view.emb j := by
    funext a; apply Fin.ext
    match a with
    | ⟨0, _⟩ => show win1_0.index t (0 : Fin 2) * 8000 + 1 * (j 0).val = win1_3.index t (0 : Fin 2) * 8000 + 1 * (j 0).val; rw [e00, e30]
    | ⟨1, _⟩ => show win1_0.index t (1 : Fin 2) * 32 + 1 * (j 1).val = win1_3.index t (1 : Fin 2) * 32 + 1 * (j 1).val; rw [e01, e31]
  have h1 : ((cfg1.win 1).blk t).view.emb j = ((cfg1.win 3).blk t).view.emb j := by
    funext a; apply Fin.ext
    match a with
    | ⟨0, _⟩ => show win1_1.index t (0 : Fin 2) * 8000 + 1 * (j 0).val = win1_3.index t (0 : Fin 2) * 8000 + 1 * (j 0).val; rw [e10, e30]
    | ⟨1, _⟩ => show win1_1.index t (1 : Fin 2) * 32 + 1 * (j 1).val = win1_3.index t (1 : Fin 2) * 32 + 1 * (j 1).val; rw [e11, e31]
  show fourth (fun y => V c main_v13 (((cfg1.win 0).blk t).view.emb y)) (fun y => V c main_v43 (((cfg1.win 1).blk t).view.emb y)) j
     = fourth (V c main_v13 : FVec Ideal S3200000x32 .f32) (V c main_v43 : FVec Ideal S3200000x32 .f32) (((cfg1.win 3).blk t).view.emb j)
  exact fourth_reindex (V c main_v13 : FVec Ideal S3200000x32 .f32) (V c main_v43 : FVec Ideal S3200000x32 .f32) _ _ _ j h0 h1

/-- An index of the second result is in point `t`'s block iff each coordinate is in the block's range on its axis. -/
theorem mem_blk3 (t : Fin cfg1.N) (i : S3200000x32.Idx) :
    i ∈ ((cfg1.win 3).blk t).view.set ↔ ∀ a : Fin 2, win1_3.index t a * S8000x32.size a ≤ (i a).val ∧ (i a).val < win1_3.index t a * S8000x32.size a + S8000x32.size a := by
  show i ∈ ((View.whole main_v44_1).slice (win1_3.rect t)).set ↔ _
  rw [View.set_slice_whole, Rect.mem_set_unit]
  exact Iff.rfl

/-- Row `r` of the second result is in the block of point `r / 8000`. -/
theorem cover3 (i : S3200000x32.Idx) :
    ∃ t : Fin cfg1.N, (cfg1.win 3).flush t = true ∧ i ∈ ((cfg1.win 3).blk t).view.set := by
  have hi0 : (i 0).val < 3200000 := (i 0).isLt
  have hi1 : (i 1).val < 32 := (i 1).isLt
  have hN : cfg1.N = 400 := N_1
  have hlt : (i 0).val / 8000 < cfg1.N := by rw [hN]; omega
  obtain ⟨-, -, -, -, -, -, e30, e31⟩ := idx_facts ⟨(i 0).val / 8000, hlt⟩
  refine ⟨⟨(i 0).val / 8000, hlt⟩, flush1_3 _, ?_⟩
  rw [mem_blk3]
  intro a
  match a with
  | ⟨0, _⟩ =>
    show win1_3.index ⟨(i 0).val / 8000, hlt⟩ (0 : Fin 2) * 8000 ≤ (i 0).val ∧ (i 0).val < win1_3.index ⟨(i 0).val / 8000, hlt⟩ (0 : Fin 2) * 8000 + 8000
    rw [e30]; show (i 0).val / 8000 * 8000 ≤ (i 0).val ∧ (i 0).val < (i 0).val / 8000 * 8000 + 8000; omega
  | ⟨1, _⟩ =>
    show win1_3.index ⟨(i 0).val / 8000, hlt⟩ (1 : Fin 2) * 32 ≤ (i 1).val ∧ (i 1).val < win1_3.index ⟨(i 0).val / 8000, hlt⟩ (1 : Fin 2) * 32 + 32
    rw [e31]; omega

/-- The second result array after the region: the fourth power of `X − Y`, the reference's own term. -/
theorem final1_3
    (hA : ∀ w, dat.A w = V c (Pipeline.arrRef spec1 w))
    (hafter : ∀ t, dat.after 3 t = out1_3 (iblk1 V c 0 t) (iblk1 V c 1 t)) :
    dat.arrAt 3 cfg1.N
      = (mulf (mulf (subf (V c main_v13 : FVec Ideal S3200000x32 .f32) (V c main_v43 : FVec Ideal S3200000x32 .f32))
                    (subf (V c main_v13 : FVec Ideal S3200000x32 .f32) (V c main_v43 : FVec Ideal S3200000x32 .f32)))
              (mulf (subf (V c main_v13 : FVec Ideal S3200000x32 .f32) (V c main_v43 : FVec Ideal S3200000x32 .f32))
                    (subf (V c main_v13 : FVec Ideal S3200000x32 .f32) (V c main_v43 : FVec Ideal S3200000x32 .f32)))
          : FVec Ideal S3200000x32 .f32) :=
  dat.arrAt_eq_of_cover 3 (fourth (V c main_v13 : FVec Ideal S3200000x32 .f32) (V c main_v43 : FVec Ideal S3200000x32 .f32))
    (fun t _ => flushed3_eq V dat hafter t) cover3

end Cert.Val.Diff

end
-- ==== Proof.Val.NodeSpec.lean ====
/-
  The node update of the third kernel region, as ONE function of its arrays, index by index.

  A row `p` of the feature array (201 features) goes through a two-layer perceptron with 64 hidden and 64 output
  units: the hidden unit `k` is  `leaky (Σ_l feat[p,l]·W2a[l,k] + b2a[k])`  and the output unit `q` is
  `Σ_k hidden[p,k]·W2b[k,q] + b2b[q]`.  `leaky z` keeps `z` when `z ≥ 0` and scales it by the single-precision
  word `0x3DCCCCCD` otherwise; that word is the same on both sides of the comparison and is never evaluated.
  The biases are 1×64 arrays read at row 0.  Both sums run over the contracted axis in one go: over the extended
  reals a sum has no order, no chunks and no rounding, so the kernel's matrix products into a zero accumulator
  and the reference's `dot_general` are this one sum.

  An output row depends on the features only through the same row (`nodeAt_congr`): this is what lets a block of
  rows be computed from the block of rows alone.
-/
import Idealize.ShloMosaic.Lib.ValueIdx

noncomputable section

open scoped BigOperators

namespace Cert.Val.Node

open Idealize.ShloMosaic Idealize.ShloMosaic.ValueIdx

/-- The leaky rectifier: `z` where `z ≥ 0`, the slope word times `z` elsewhere. -/
def leaky (z : Ideal .f32) : Ideal .f32 :=
  Scalar.select (FloatOps.cmpf .oge z (Ideal.ofBits .f32 0x00000000#32)) z (Ideal.ofBits .f32 0x3DCCCCCD#32 * z)

/-- Hidden unit `k` of row `p`: the rectified first layer. -/
def hidden {n : Nat} (feat : (⟨2, ![n, 201]⟩ : Shape).Idx → Ideal .f32) (W2a : (⟨2, ![201, 64]⟩ : Shape).Idx → Ideal .f32)
    (b2a : (⟨2, ![1, 64]⟩ : Shape).Idx → Ideal .f32) (p : Fin n) (k : Fin 64) : Ideal .f32 :=
  leaky ((∑ l : Fin 201, feat (ix2 p l) * W2a (ix2 l k)) + b2a (ix2 (0 : Fin 1) k))

/-- Output unit `q` of row `p`: the second layer over the hidden units. -/
def nodeAt {n : Nat} (feat : (⟨2, ![n, 201]⟩ : Shape).Idx → Ideal .f32) (W2a : (⟨2, ![201, 64]⟩ : Shape).Idx → Ideal .f32)
    (b2a : (⟨2, ![1, 64]⟩ : Shape).Idx → Ideal .f32) (W2b : (⟨2, ![64, 64]⟩ : Shape).Idx → Ideal .f32)
    (b2b : (⟨2, ![1, 64]⟩ : Shape).Idx → Ideal .f32) (p : Fin n) (q : Fin 64) : Ideal .f32 :=
  (∑ k : Fin 64, hidden feat W2a b2a p k * W2b (ix2 k q)) + b2b (ix2 (0 : Fin 1) q)

/-- The whole 100000×64 result: output unit `i 1` of row `i 0`. -/
def nodeK (feat : (⟨2, ![100000, 201]⟩ : Shape).Idx → Ideal .f32) (W2a : (⟨2, ![201, 64]⟩ : Shape).Idx → Ideal .f32)
    (b2a : (⟨2, ![1, 64]⟩ : Shape).Idx → Ideal .f32) (W2b : (⟨2, ![64, 64]⟩ : Shape).Idx → Ideal .f32)
    (b2b : (⟨2, ![1, 64]⟩ : Shape).Idx → Ideal .f32) : (⟨2, ![100000, 64]⟩ : Shape).Idx → Ideal .f32 :=
  fun i => nodeAt feat W2a b2a W2b b2b (i 0) (i 1)

/-- An output row depends on the features only through the same row. -/
theorem nodeAt_congr {n n' : Nat} (feat : (⟨2, ![n, 201]⟩ : Shape).Idx → Ideal .f32) (feat' : (⟨2, ![n', 201]⟩ : Shape).Idx → Ideal .f32)
    (W2a : (⟨2, ![201, 64]⟩ : Shape).Idx → Ideal .f32) (b2a : (⟨2, ![1, 64]⟩ : Shape).Idx → Ideal .f32)
    (W2b : (⟨2, ![64, 64]⟩ : Shape).Idx → Ideal .f32) (b2b : (⟨2, ![1, 64]⟩ : Shape).Idx → Ideal .f32)
    (p : Fin n) (p' : Fin n') (q : Fin 64) (h : ∀ l : Fin 201, feat (ix2 p l) = feat' (ix2 p' l)) :
    nodeAt feat W2a b2a W2b b2b p q = nodeAt feat' W2a b2a W2b b2b p' q := by
  unfold nodeAt hidden
  simp only [h]

end Cert.Val.Node

end
-- ==== Proof.Val.NodePay.lean ====
/-
  The body of the third kernel region at one element of its result block.

  The body loads a block of 10000 feature rows and the whole weights and biases, and stores
  `(leaky (x·W2a + b2a))·W2b + b2b`: two matrix products into a zero accumulator, the biases broadcast along the
  rows, the rectifier element by element, the narrowing to half precision the identity on extended reals.
  Read at row `p`, column `q` of the block this is `nodeAt` of the loaded arrays: a matrix product into a zero
  accumulator is the plain sum over its one contracted axis, and everything else is pointwise.
-/
import proofs.«143132_j31748398252728_1_alg».proof.Proof.Gen.KernelIdeal.Skeleton
import proofs.«143132_j31748398252728_1_alg».proof.Proof.Val.NodeSpec
import Idealize.ShloMosaic.Lib.Pipeline.Value
import Idealize.ShloMosaic.Lib.ValueIdx
import Idealize.ShloMosaic.PureOps.Ideal.Laws

noncomputable section

open scoped BigOperators

namespace Cert.Val.Node

open Cert.KernelIdeal Cert.KernelIdeal.Gen
open Idealize.ShloMosaic Idealize.ShloMosaic.ValueIdx

/-! ## The first product: 10000×201 by 201×64 -/

theorem lhs1_0 (i : S10000x64.Idx) (q : dot_S10000x201_S201x64_S10000x64_1_0_0_1_n_n.contr.Idx) :
    (dot_S10000x201_S201x64_S10000x64_1_0_0_1_n_n.lhsIdx i q 0).val = (i 0).val := by
  unfold DotDims.lhsIdx
  rw [dif_neg (show ¬(0 : Fin S10000x201.rank) ∈ dot_S10000x201_S201x64_S10000x64_1_0_0_1_n_n.lhsBatch by decide), dif_pos (show (0 : Fin S10000x201.rank) ∈ dot_S10000x201_S201x64_S10000x64_1_0_0_1_n_n.lhsNonContracting by decide)]
  rfl
theorem lhs1_1 (i : S10000x64.Idx) (q : dot_S10000x201_S201x64_S10000x64_1_0_0_1_n_n.contr.Idx) :
    (dot_S10000x201_S201x64_S10000x64_1_0_0_1_n_n.lhsIdx i q 1).val = (q ⟨0, by decide⟩).val :=
  dot_S10000x201_S201x64_S10000x64_1_0_0_1_n_n.lhsIdx_val_of_single rfl i q
theorem rhs1_0 (i : S10000x64.Idx) (q : dot_S10000x201_S201x64_S10000x64_1_0_0_1_n_n.contr.Idx) :
    (dot_S10000x201_S201x64_S10000x64_1_0_0_1_n_n.rhsIdx i q 0).val = (q ⟨0, by decide⟩).val :=
  dot_S10000x201_S201x64_S10000x64_1_0_0_1_n_n.rhsIdx_val_of_single rfl i q
theorem rhs1_1 (i : S10000x64.Idx) (q : dot_S10000x201_S201x64_S10000x64_1_0_0_1_n_n.contr.Idx) :
    (dot_S10000x201_S201x64_S10000x64_1_0_0_1_n_n.rhsIdx i q 1).val = (i 1).val := by
  unfold DotDims.rhsIdx
  rw [dif_neg (show ¬(1 : Fin S201x64.rank) ∈ dot_S10000x201_S201x64_S10000x64_1_0_0_1_n_n.rhsBatch by decide), dif_pos (show (1 : Fin S201x64.rank) ∈ dot_S10000x201_S201x64_S10000x64_1_0_0_1_n_n.rhsNonContracting by decide)]
  rfl

/-- The first product into the zero accumulator, at row `p`, column `k`: the sum over the 201 features. -/
theorem mm1_apply (lhs : FVec Ideal S10000x201 .bf16) (rhs : FVec Ideal S201x64 .bf16) (p : Fin 10000) (k : Fin 64) :
    matmul dot_S10000x201_S201x64_S10000x64_1_0_0_1_n_n none lhs rhs (constant (F := Ideal) S10000x64 .f32 0x00000000#32) (ix2 p k)
      = ∑ l : Fin 201, lhs (ix2 p l) * rhs (ix2 l k) := by
  simp only [matmul]
  rw [Ideal.matmul_constant_zero_apply, ← Equiv.sum_comp (ValueIdx.contrEquiv1 dot_S10000x201_S201x64_S10000x64_1_0_0_1_n_n 201 rfl rfl).symm]
  refine Finset.sum_congr rfl fun l _ => ?_
  have hl := ValueIdx.contrEquiv1_symm_val dot_S10000x201_S201x64_S10000x64_1_0_0_1_n_n 201 rfl rfl l
  have el : dot_S10000x201_S201x64_S10000x64_1_0_0_1_n_n.lhsIdx (ix2 p k) ((ValueIdx.contrEquiv1 dot_S10000x201_S201x64_S10000x64_1_0_0_1_n_n 201 rfl rfl).symm l) = ix2 p l := funext fun a => Fin.ext (by
    match a with
    | ⟨0, _⟩ => exact lhs1_0 _ _
    | ⟨1, _⟩ => exact (lhs1_1 _ _).trans hl)
  have er : dot_S10000x201_S201x64_S10000x64_1_0_0_1_n_n.rhsIdx (ix2 p k) ((ValueIdx.contrEquiv1 dot_S10000x201_S201x64_S10000x64_1_0_0_1_n_n 201 rfl rfl).symm l) = ix2 l k := funext fun a => Fin.ext (by
    match a with
    | ⟨0, _⟩ => exact (rhs1_0 _ _).trans hl
    | ⟨1, _⟩ => exact rhs1_1 _ _)
  rw [el, er]

/-! ## The second product: 10000×64 by 64×64 -/

theorem lhs2_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs2_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs2_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs2_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The second product into the zero accumulator, at row `p`, column `q`: the sum over the 64 hidden units. -/
theorem mm2_apply (lhs : FVec Ideal S10000x64 .bf16) (rhs : FVec Ideal S64x64 .bf16) (p : Fin 10000) (q : Fin 64) :
    matmul dot_S10000x64_S64x64_S10000x64_1_0_0_1_n_n none lhs rhs (constant (F := Ideal) S10000x64 .f32 0x00000000#32) (ix2 p q)
      = ∑ k : Fin 64, lhs (ix2 p k) * rhs (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs2_0 _ _).trans hk
    | ⟨1, _⟩ => exact rhs2_1 _ _)
  rw [el, er]

/-! ## The bias row broadcast along the block's rows -/

/-- A 1×64 row broadcast to 10000×64, at row `p`, column `q`, is the row's entry `q`. -/
theorem bias_apply (b : FVec Ideal S1x64 .f32) (p : Fin 10000) (q : Fin 64) :
    broadcastTo S10000x64 b broadcasts_S1x64_S10000x64 (ix2 p q) = b (ix2 (0 : Fin 1) q) :=
  broadcastTo_apply b broadcasts_S1x64_S10000x64 (ix2 p q) (ix2 (0 : Fin 1) q) (fun a => match a with
    | ⟨0, _⟩ => by show 0 = if (1 : Nat) = 1 then 0 else _; rw [if_pos rfl]
    | ⟨1, _⟩ => by show q.val = if (64 : Nat) = 1 then 0 else q.val; rw [if_neg (by decide)])

/-- The rectifier as the body spells it (compare with the zero splat, scale by the slope splat, select; then the
    narrowing, the identity here), at an element. -/
theorem leaky_vec (A : FVec Ideal S10000x64 .f32) (j : S10000x64.Idx) :
    (truncf .bf16 (select (cmpf .oge A (broadcast S10000x64 (Scalar.ofBits (F := Ideal) .f32 0x00000000#32))) A
        (mulf (broadcast S10000x64 (Scalar.ofBits (F := Ideal) .f32 0x3DCCCCCD#32)) A)) bitsLt_bf16_f32 : FVec Ideal S10000x64 .bf16) j
      = leaky (A j) := rfl

/-! ## The payload at an element -/

/-- The stored block at row `p`, column `q` is `nodeAt` of the loaded feature block, weights and biases. -/
theorem pay_at (x0 : Vec Ideal S10000x201 .f32) (x1 : Vec Ideal S201x64 .f32) (x2 : Vec Ideal S1x64 .f32)
    (x3 : Vec Ideal S64x64 .f32) (x4 : Vec Ideal S1x64 .f32) (p : Fin 10000) (q : Fin 64) :
    k2_pay1 x0 x1 x3 x2 x4 (ix2 p q) = nodeAt x0 x1 x2 x3 x4 p q := by
  unfold k2_pay1
  simp only [shapeCast_self]
  unfold nodeAt hidden
  refine (addf_apply _ _ _).trans (congrArg₂ (· + ·) ?_ (bias_apply x4 p q))
  refine (mm2_apply _ _ p q).trans (Finset.sum_congr rfl fun k _ => ?_)
  refine congrArg₂ (· * ·) ?_ rfl
  refine (leaky_vec _ _).trans (congrArg leaky ?_)
  refine (addf_apply _ _ _).trans (congrArg₂ (· + ·) ?_ (bias_apply x2 p k))
  exact mm1_apply _ _ p k

end Cert.Val.Node

end
-- ==== Proof.Val.NodeFinal.lean ====
/-
  Region 2 of the idealized kernel program, read as values.

  The region walks 10 grid points. Point `t` stages rows `10000·t … 10000·t + 9999` of the 100000×201 feature
  array, and — once, the same at every point — the whole weights (201×64, 64×64) and the two biases (1×64);
  it writes back rows `10000·t …` of the 100000×64 result. The body is the two-layer perceptron `nodeAt` of
  the staged arrays, and a result row depends on the features only through the same row, so what point `t`
  writes is the rows of point `t` of the ONE whole-array function `nodeK` of the five arrays: an element of the
  feature block sits in the feature array at the row where the same row of the result block sits in the result,
  and each whole-array window's block is its array. Row `r` of the result lies in the block of point
  `r / 10000`, so the blocks cover the array, which therefore ends holding `nodeK`.
-/
import proofs.«143132_j31748398252728_1_alg».proof.Proof.KI.Blocks
import proofs.«143132_j31748398252728_1_alg».proof.Proof.Val.NodePay
import Idealize.ShloMosaic.Lib.Pipeline.Value
import Idealize.ShloMosaic.Lib.Pipeline.Kit
import Idealize.ShloMosaic.Lib.ValueIdx

noncomputable section

open scoped BigOperators

namespace Cert.Val.Node

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

/-- The zero offsets of a whole staging buffer, as the constant function. -/
theorem hz : (![0, 0] : Fin 2 → Nat) = fun _ => 0 := funext fun a => by fin_cases a <;> rfl

/-- The six windows' index maps, decided over the 10 points: the feature and result windows' block at point `t`
    is row block `t`, column block 0; the weights' and biases' is block (0, 0). -/
theorem idx_facts : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's payload at an element, with each loaded block named by what it is: the feature block's row `p` is
    row `P` of the feature array, the other four blocks are their arrays. -/
theorem point_eq (X : Vec Ideal S100000x201 .f32) (W2a : Vec Ideal S201x64 .f32) (b2a : Vec Ideal S1x64 .f32)
    (W2b : Vec Ideal S64x64 .f32) (b2b : Vec Ideal S1x64 .f32)
    (x0 : Vec Ideal S10000x201 .f32) (x1 : Vec Ideal S201x64 .f32) (x2 : Vec Ideal S1x64 .f32)
    (x3 : Vec Ideal S64x64 .f32) (x4 : Vec Ideal S1x64 .f32)
    (p : Fin 10000) (q : Fin 64) (P : Fin 100000) (Q : Fin 64)
    (h0 : ∀ l : Fin 201, x0 (ix2 p l) = X (ix2 P l)) (h1 : x1 = W2a) (h2 : x2 = b2a) (h3 : x3 = W2b) (h4 : x4 = b2b)
    (hQ : q = Q) :
    k2_pay1 x0 x1 x3 x2 x4 (ix2 p q) = nodeAt X W2a b2a W2b b2b P Q := by
  subst h1 h2 h3 h4 hQ
  rw [pay_at]
  exact nodeAt_congr x0 X x1 x2 x3 x4 p P q h0

variable {c : Dev nD}
variable (V : (c : Dev nD) → (b : Ref sig .tc) → Buf (Elt Ideal) ((c : Thread nD τ).loc b))
variable (dat : Pipeline.Dat τ (Elt Ideal) Unit ℕ (UR sig nD τ) ℕ cfg2 c)

/-- The first weights' block at any point is the whole 201×64 array. -/
theorem blk_W2a (t : Fin cfg2.N) : (iblk2 V c 1 t : Vec Ideal S201x64 .f32) = V c main_arg10 := by
  obtain ⟨-, -, e0, e1, -⟩ := idx_facts t
  funext y
  show V c main_arg10 (((cfg2.win 1).blk t).view.emb y) = V c main_arg10 y
  refine congrArg (V c main_arg10) (funext fun a => Fin.ext ?_)
  match a with
  | ⟨0, _⟩ => show win2_1.index t (0 : Fin 2) * 201 + 1 * (y 0).val = (y 0).val; rw [e0]; omega
  | ⟨1, _⟩ => show win2_1.index t (1 : Fin 2) * 64 + 1 * (y 1).val = (y 1).val; rw [e1]; omega

/-- The first bias's block at any point is the whole 1×64 array. -/
theorem blk_b2a (t : Fin cfg2.N) : (iblk2 V c 2 t : Vec Ideal S1x64 .f32) = V c main_v69 := by
  obtain ⟨-, -, -, -, e0, e1, -⟩ := idx_facts t
  funext y
  show V c main_v69 (((cfg2.win 2).blk t).view.emb y) = V c main_v69 y
  refine congrArg (V c main_v69) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The second weights' block at any point is the whole 64×64 array. -/
theorem blk_W2b (t : Fin cfg2.N) : (iblk2 V c 3 t : Vec Ideal S64x64 .f32) = V c main_arg12 := by
  obtain ⟨-, -, -, -, -, -, e0, e1, -⟩ := idx_facts t
  funext y
  show V c main_arg12 (((cfg2.win 3).blk t).view.emb y) = V c main_arg12 y
  refine congrArg (V c main_arg12) (funext fun a => Fin.ext ?_)
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- The second bias's block at any point is the whole 1×64 array. -/
theorem blk_b2b (t : Fin cfg2.N) : (iblk2 V c 4 t : Vec Ideal S1x64 .f32) = V c main_v70 := by
  obtain ⟨-, -, -, -, -, -, -, -, e0, e1, -⟩ := idx_facts t
  funext y
  show V c main_v70 (((cfg2.win 4).blk t).view.emb y) = V c main_v70 y
  refine congrArg (V c main_v70) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- What point `t` writes back is the rows of point `t` of `nodeK` of the five arrays as the region finds them. -/
theorem flushed5_eq
    (hafter : ∀ t, dat.after 5 t = out2_5 (iblk2 V c 0 t) (iblk2 V c 1 t) (iblk2 V c 2 t) (iblk2 V c 3 t) (iblk2 V c 4 t))
    (t : Fin cfg2.N) :
    dat.flushed 5 t = ((cfg2.win 5).blk t).view.read (Elt Ideal)
      (nodeK (V c main_v68) (V c main_arg10) (V c main_v69) (V c main_arg12) (V c main_v70)) := by
  show (cfg2.win 5).cut (grid2.coords t) (dat.after 5 t) = _
  rw [hafter]
  unfold out2_5
  rw [View.canon_unit_zero hz]
  simp only [View.ld_unit_zero (S := S10000x201) hz, View.ld_unit_zero (S := S201x64) hz, View.ld_unit_zero (S := S64x64) hz,
    View.ld_unit_zero (S := S1x64) hz]
  obtain ⟨e00, e01, -, -, -, -, -, -, -, -, e50, e51⟩ := idx_facts t
  funext j
  have hj0 : (j 0).val < 10000 := (j 0).isLt
  have hj1 : (j 1).val < 64 := (j 1).isLt
  -- the staging buffer's entry, by its coordinates
  have hx : (cfg2.win 5).xinj (grid2.coords t) j = ix2 (⟨(j 0).val, hj0⟩ : Fin 10000) (⟨(j 1).val, hj1⟩ : Fin 64) :=
    funext fun a => by match a with | ⟨0, _⟩ => rfl | ⟨1, _⟩ => rfl
  refine (congrArg (k2_pay1 (F := Ideal) (iblk2 V c 0 t) (iblk2 V c 1 t) (iblk2 V c 3 t) (iblk2 V c 2 t) (iblk2 V c 4 t)) hx).trans ?_
  show _ = nodeAt (V c main_v68) (V c main_arg10) (V c main_v69) (V c main_arg12) (V c main_v70)
         ((((cfg2.win 5).blk t).view.emb j) 0) ((((cfg2.win 5).blk t).view.emb j) 1)
  refine point_eq (V c main_v68) (V c main_arg10) (V c main_v69) (V c main_arg12) (V c main_v70)
    (iblk2 V c 0 t) (iblk2 V c 1 t) (iblk2 V c 2 t) (iblk2 V c 3 t) (iblk2 V c 4 t) ⟨(j 0).val, hj0⟩ ⟨(j 1).val, hj1⟩ _ _
    (fun l => ?_) (blk_W2a V t) (blk_b2a V t) (blk_W2b V t) (blk_b2b V t) (Fin.ext ?_)
  · show V c main_v68 (((cfg2.win 0).blk t).view.emb (ix2 (⟨(j 0).val, hj0⟩ : Fin 10000) l)) = V c main_v68 (ix2 ((((cfg2.win 5).blk t).view.emb j) 0) l)
    refine congrArg (V c main_v68) (funext fun a => Fin.ext ?_)
    match a with
    | ⟨0, _⟩ => show win2_0.index t (0 : Fin 2) * 10000 + 1 * (j 0).val = win2_5.index t (0 : Fin 2) * 10000 + 1 * (j 0).val; rw [e00, e50]
    | ⟨1, _⟩ => show win2_0.index t (1 : Fin 2) * 201 + 1 * l.val = l.val; rw [e01]; omega
  · show (j 1).val = win2_5.index t (1 : Fin 2) * 64 + 1 * (j 1).val
    rw [e51]; omega

/-- An index of the result is in point `t`'s block iff each coordinate is in the block's range on its axis. -/
theorem mem_blk5 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v71).slice (win2_5.rect t)).set ↔ _
  rw [View.set_slice_whole, Rect.mem_set_unit]
  exact Iff.rfl

/-- Row `r` of the result is in the block of point `r / 10000`: the blocks cover the array. -/
theorem cover5 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 10 := N_2
  have hlt : (i 0).val / 10000 < cfg2.N := by rw [hN]; omega
  obtain ⟨-, -, -, -, -, -, -, -, -, -, e50, e51⟩ := idx_facts ⟨(i 0).val / 10000, hlt⟩
  refine ⟨⟨(i 0).val / 10000, hlt⟩, flush2_5 _, ?_⟩
  rw [mem_blk5]
  intro a
  match a with
  | ⟨0, _⟩ =>
    show win2_5.index ⟨(i 0).val / 10000, hlt⟩ (0 : Fin 2) * 10000 ≤ (i 0).val ∧ (i 0).val < win2_5.index ⟨(i 0).val / 10000, hlt⟩ (0 : Fin 2) * 10000 + 10000
    rw [e50]; show (i 0).val / 10000 * 10000 ≤ (i 0).val ∧ (i 0).val < (i 0).val / 10000 * 10000 + 10000; omega
  | ⟨1, _⟩ =>
    show win2_5.index ⟨(i 0).val / 10000, hlt⟩ (1 : Fin 2) * 64 ≤ (i 1).val ∧ (i 1).val < win2_5.index ⟨(i 0).val / 10000, hlt⟩ (1 : Fin 2) * 64 + 64
    rw [e51]; omega

/-- The result array after the region: `nodeK` of the feature array, the weights and the biases. -/
theorem final2
    (hA : ∀ w, dat.A w = V c (Pipeline.arrRef spec2 w))
    (hafter : ∀ t, dat.after 5 t = out2_5 (iblk2 V c 0 t) (iblk2 V c 1 t) (iblk2 V c 2 t) (iblk2 V c 3 t) (iblk2 V c 4 t)) :
    dat.arrAt 5 cfg2.N = nodeK (V c main_v68) (V c main_arg10) (V c main_v69) (V c main_arg12) (V c main_v70) :=
  dat.arrAt_eq_of_cover 5 (nodeK (V c main_v68) (V c main_arg10) (V c main_v69) (V c main_arg12) (V c main_v70))
    (fun t _ => flushed5_eq V dat hafter t) cover5

end Cert.Val.Node

end
-- ==== Proof.Val.NodeRef.lean ====
/-
  The reference's node update, read entry by entry.

  The reference takes the product of the 100000×201 feature array (a concatenation of seven arrays along the
  feature axis, kept here as one array) with the first 201×64 matrix, adds the first bias (a 64-vector broadcast
  to a 1×64 row and then down the rows), applies the leaky rectifier (a compare with a zero splat, the slope splat
  times the value, a select), takes the product with the second 64×64 matrix and adds the second bias. Entry
  (r, q) is therefore output unit q of row r of the node perceptron, with each bias read through its reshape to a
  1×64 row: entry (0, q) of that row is entry q of the vector.
-/
import proofs.«143132_j31748398252728_1_alg».proof.Proof.RefRead
import proofs.«143132_j31748398252728_1_alg».proof.Proof.Val.NodeSpec

noncomputable section

open scoped BigOperators

namespace Cert.Val.Node

open Idealize.ShloMosaic Idealize.ShloMosaic.ValueIdx
open Cert.ReferenceIdeal Cert.ReferenceIdeal.Read

/-- The first product's left operand index at entry `(r, k)` and feature `l`: row `r`, feature `l`. -/
theorem lidx84_eq (r : Fin 100000) (k : Fin 64) (l : Fin 201) : lidx_main_v84 (ix2 r k) l = ix2 r l :=
  funext fun a => Fin.ext (by match a with | ⟨0, _⟩ => rfl | ⟨1, _⟩ => rfl)

/-- Its right operand index: feature `l`, hidden unit `k`. -/
theorem ridx84_eq (r : Fin 100000) (k : Fin 64) (l : Fin 201) : ridx_main_v84 (ix2 r k) l = ix2 l k :=
  funext fun a => Fin.ext (by match a with | ⟨0, _⟩ => rfl | ⟨1, _⟩ => rfl)

/-- The second product's left operand index at entry `(r, q)` and hidden unit `k`: row `r`, unit `k`. -/
theorem lidx93_eq (r : Fin 100000) (q k : Fin 64) : lidx_main_v93 (ix2 r q) k = ix2 r k :=
  funext fun a => Fin.ext (by match a with | ⟨0, _⟩ => rfl | ⟨1, _⟩ => rfl)

/-- Its right operand index: hidden unit `k`, output unit `q`. -/
theorem ridx93_eq (r : Fin 100000) (q k : Fin 64) : ridx_main_v93 (ix2 r q) k = ix2 k q :=
  funext fun a => Fin.ext (by match a with | ⟨0, _⟩ => rfl | ⟨1, _⟩ => rfl)

/-- A 64-vector broadcast to a 1×64 row and down the rows, at entry `(r, q)`, is the vector's reshape to a 1×64 row at
    `(0, q)`: both are entry `q` of the vector. -/
theorem bias_eq (b : S64.Idx → EReal) (h : S64.ShapeCasts S1x64) (r : Fin 100000) (q : Fin 64) :
    b (idx_main_v94 (idx_main_v95 (ix2 r q))) = shapeCast S1x64 b h (ix2 (0 : Fin 1) q) :=
  (shapeCast_apply b h (ix2 (0 : Fin 1) q) (idx_main_v94 (idx_main_v95 (ix2 r q)))
    (by rw [Shape.rowMajor_val_one, Shape.rowMajor_val_two]; show q.val = 0 * 64 + q.val; omega)).symm

/-- THE REFERENCE'S NODE STAGE is the node perceptron of the concatenated feature array, the two matrices and the
    two biases reshaped to rows (`h11`, `h13`: that a 64-vector reshapes to a 1×64 row, whichever proof of it the
    reshape carries). -/
theorem ref_eq (x0 : (⟨S100000x64, .f32⟩ : BufTy).Contents (Elt Ideal)) (x1 : (⟨S50000x16, .f32⟩ : BufTy).Contents (Elt Ideal))
    (x2 : (⟨S3200000x16, .f32⟩ : BufTy).Contents (Elt Ideal)) (x3 : (⟨S16x8, .f32⟩ : BufTy).Contents (Elt Ideal))
    (x4 : (⟨S2x3200000, .i32⟩ : BufTy).Contents (Elt Ideal)) (x5 : (⟨S100000, .i32⟩ : BufTy).Contents (Elt Ideal))
    (x6 : (⟨S32x32, .f32⟩ : BufTy).Contents (Elt Ideal)) (x7 : (⟨S32, .f32⟩ : BufTy).Contents (Elt Ideal))
    (x8 : (⟨S32x32, .f32⟩ : BufTy).Contents (Elt Ideal)) (x9 : (⟨S32, .f32⟩ : BufTy).Contents (Elt Ideal))
    (x10 : (⟨S201x64, .f32⟩ : BufTy).Contents (Elt Ideal)) (x11 : (⟨S64, .f32⟩ : BufTy).Contents (Elt Ideal))
    (x12 : (⟨S64x64, .f32⟩ : BufTy).Contents (Elt Ideal)) (x13 : (⟨S64, .f32⟩ : BufTy).Contents (Elt Ideal))
    (h11 h13 : S64.ShapeCasts S1x64) :
    val_main_v96 (F := Ideal) x0 x1 x2 x3 x4 x5 x6 x7 x8 x9 x10 x11 x12 x13
      = nodeK (val_main_v83 (F := Ideal) x0 x1 x2 x3 x4 x5 x6 x7 x8 x9) x10 (shapeCast S1x64 x11 h11) x12 (shapeCast S1x64 x13 h13) := by
  funext i
  obtain ⟨r, q, rfl⟩ : ∃ (r : Fin 100000) (q : Fin 64), i = ix2 r q := ⟨i 0, i 1, eq_ix2 i⟩
  show _ = nodeAt (val_main_v83 (F := Ideal) x0 x1 x2 x3 x4 x5 x6 x7 x8 x9) x10 (shapeCast S1x64 x11 h11) x12 (shapeCast S1x64 x13 h13) r q
  rw [val_main_v96_apply, val_main_v93_apply, val_main_v95_apply, val_main_v94_apply, Ideal.addf_def]
  unfold nodeAt
  refine congr (congrArg HAdd.hAdd (Finset.sum_congr rfl fun k _ => ?_)) (bias_eq x13 h13 r q)
  refine congr (congrArg HMul.hMul ?_) (congrArg x12 (ridx93_eq r q k))
  rw [lidx93_eq r q k, val_main_v92_apply, val_main_v89_apply, val_main_v91_apply, val_main_v88_apply, val_main_v90_apply,
    val_main_cst_14_apply, val_main_cst_15_apply]
  unfold hidden
  refine (show _ = leaky (val_main_v87 (F := Ideal) x0 x1 x2 x3 x4 x5 x6 x7 x8 x9 x10 x11 (ix2 r k)) from rfl).trans (congrArg leaky ?_)
  rw [val_main_v87_apply, val_main_v84_apply, val_main_v86_apply, val_main_v85_apply, Ideal.addf_def]
  refine congr (congrArg HAdd.hAdd (Finset.sum_congr rfl fun l _ => ?_)) (bias_eq x11 h11 r k)
  exact congr (congrArg HMul.hMul (congrArg (val_main_v83 (F := Ideal) x0 x1 x2 x3 x4 x5 x6 x7 x8 x9) (lidx84_eq r k l)))
    (congrArg x10 (ridx84_eq r k l))

end Cert.Val.Node

end
-- ==== Proof.Alg.lean ====
/-
  The kernel program's result is the reference's, at the ideal instance.

  The kernel program's run (three regions among host operations) ends with every buffer at a known fold of the
  launch contents: a host stretch applies its operations, a region leaves in its result arrays what its grid
  points wrote back. Reading that fold one boundary at a time, each buffer a later step reads holds the
  reference's own stage (a function of the fourteen arguments):
  the first region's result is the two-layer edge perceptron of the gathered node features and the edge
  attributes, block by block what the reference computes on the whole arrays; the host operations between the
  regions are the reference's own (count, mean, deviation per source node, the mean gathered back); the second
  region's results are the cube and the fourth power of the same difference; the third region's result is the
  two-layer node perceptron of the same 201 features. No law of the extended reals is used beyond reading both
  sides at an index: the two programs spell the same sums in the same order.
-/
import proofs.«143132_j31748398252728_1_alg».proof.Proof.KI.Run
import proofs.«143132_j31748398252728_1_alg».proof.Proof.Val.Host
import proofs.«143132_j31748398252728_1_alg».proof.Proof.Val.EdgeBlocks
import proofs.«143132_j31748398252728_1_alg».proof.Proof.Val.EdgeRef
import proofs.«143132_j31748398252728_1_alg».proof.Proof.Val.Diff
import proofs.«143132_j31748398252728_1_alg».proof.Proof.Val.NodeFinal
import proofs.«143132_j31748398252728_1_alg».proof.Proof.Val.NodeRef

set_option maxRecDepth 16384

noncomputable section

namespace Cert.Val.Alg

open Idealize.ShloMosaic Idealize.ShloMosaic.TcCoe Idealize.SL.Sem
open Cert.KernelIdeal Cert.KernelIdeal.Gen Cert.KernelIdeal.Fr
open Cert.ReferenceIdeal.Read
open Cert.Val.Host

variable (m : (ℓ : Loc nD τ sig) → Buf (Elt Ideal) ℓ) (ρ : Dev nD → PrngReg) (c : Dev nD)

/-! ## Buffers nobody has written yet hold the launch contents -/

theorem W1_launch (b : Ref sig .tc) (h1 : b ∉ hostOps0_W) : W1 m ρ c (Proc.devRef .tc b) = m ((c : Thread nD τ).loc b) :=
  (W1_of m ρ c b h1).trans rfl

theorem W6_launch (b : Ref sig .tc) (h6 : b ∉ ([main_v44_0, main_v44_1] : List (Ref sig .tc))) (h5 : b ∉ hostOps1_2_W)
    (h4 : b ∉ hostOps1_1_W) (h3 : b ∉ hostOps1_W) (h2 : b ∉ ([main_v13] : List (Ref sig .tc))) (h1 : b ∉ hostOps0_W) :
    W6 m ρ c (Proc.devRef .tc b) = m ((c : Thread nD τ).loc b) :=
  (W6_keep m ρ c b h6).trans <| (W5_of m ρ c b h5).trans <| (W4_of m ρ c b h4).trans <| (W3_of m ρ c b h3).trans <|
    (W2_keep m ρ c b h2).trans <| W1_launch m ρ c b h1

theorem W7_launch (b : Ref sig .tc) (h7 : b ∉ hostOps2_W) (h6 : b ∉ ([main_v44_0, main_v44_1] : List (Ref sig .tc))) (h5 : b ∉ hostOps1_2_W)
    (h4 : b ∉ hostOps1_1_W) (h3 : b ∉ hostOps1_W) (h2 : b ∉ ([main_v13] : List (Ref sig .tc))) (h1 : b ∉ hostOps0_W) :
    W7 m ρ c (Proc.devRef .tc b) = m ((c : Thread nD τ).loc b) :=
  (W7_of m ρ c b h7).trans <| W6_launch m ρ c b h6 h5 h4 h3 h2 h1

/-! ## Before the first region -/

theorem W1_v1 : W1 m ρ c (Proc.devRef .tc main_v1) = val_main_v1 (F := Ideal) (m ((c : Thread nD τ).loc main_arg4)) :=
  host0_v1 (W0 m ρ c) _ rfl
theorem W1_v10 : W1 m ρ c (Proc.devRef .tc main_v10) = val_main_v10 (F := Ideal) (m ((c : Thread nD τ).loc main_arg1)) (m ((c : Thread nD τ).loc main_arg4)) :=
  host0_v10 (W0 m ρ c) _ _ rfl rfl
theorem W1_v11 : W1 m ρ c (Proc.devRef .tc main_v11) = shapeCast _ (m ((c : Thread nD τ).loc main_arg7)) shapeCasts_S32_S1x32 :=
  host0_v11 (W0 m ρ c) _ rfl
theorem W1_v12 : W1 m ρ c (Proc.devRef .tc main_v12) = shapeCast _ (m ((c : Thread nD τ).loc main_arg9)) shapeCasts_S32_S1x32 :=
  host0_v12 (W0 m ρ c) _ rfl

/-! ## The first region's result: the edge perceptron -/

theorem W2_v13 : W2 m ρ c (Proc.devRef .tc main_v13) = val_main_v24 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) := by
  rw [W2_main_v13, Cert.Val.Edge.final0 (V1 m ρ) (dat0 (V1 m ρ) c) (A_eq0 (V1 m ρ) c) (after0_6 (V1 m ρ) c)]
  have e10 : V1 m ρ c main_v10 = _ := W1_v10 m ρ c
  have e11 : V1 m ρ c main_v11 = _ := W1_v11 m ρ c
  have e12 : V1 m ρ c main_v12 = _ := W1_v12 m ρ c
  have e2 : V1 m ρ c main_arg2 = _ := W1_launch m ρ c main_arg2 (by decide)
  have e6 : V1 m ρ c main_arg6 = _ := W1_launch m ρ c main_arg6 (by decide)
  have e8 : V1 m ρ c main_arg8 = _ := W1_launch m ρ c main_arg8 (by decide)
  rw [e10, e11, e12, e2, e6, e8]
  exact (Cert.Val.Edge.ref_eq _ _ _ _ _ _ _ _ _).symm

theorem W2_v1 : W2 m ρ c (Proc.devRef .tc main_v1) = val_main_v1 (F := Ideal) (m ((c : Thread nD τ).loc main_arg4)) :=
  (W2_keep m ρ c main_v1 (by decide)).trans (W1_v1 m ρ c)

/-! ## Between the first and the second region -/

theorem W3_v1 : W3 m ρ c (Proc.devRef .tc main_v1) = val_main_v1 (F := Ideal) (m ((c : Thread nD τ).loc main_arg4)) :=
  (W3_of m ρ c main_v1 (by decide)).trans (W2_v1 m ρ c)
theorem W3_v13 : W3 m ρ c (Proc.devRef .tc main_v13) = val_main_v24 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W3_of m ρ c main_v13 (by decide)).trans (W2_v13 m ρ c)
theorem W3_v17 : W3 m ρ c (Proc.devRef .tc main_v17) = val_main_v28 (F := Ideal) (m ((c : Thread nD τ).loc main_arg4)) :=
  host1_v17 (W2 m ρ c) _ (W2_v1 m ρ c)
theorem W3_v19 : W3 m ρ c (Proc.devRef .tc main_v19) = val_main_v30 (F := Ideal) (m ((c : Thread nD τ).loc main_arg4)) :=
  host1_v19 (W2 m ρ c) _ (W2_v1 m ρ c)
theorem W3_v24 : W3 m ρ c (Proc.devRef .tc main_v24) = val_main_v35 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  host1_v24 (W2 m ρ c) _ _ _ _ _ _ _ (W2_v1 m ρ c) (W2_v13 m ρ c)
theorem W3_v32 : W3 m ρ c (Proc.devRef .tc main_v32) = val_main_v43 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  host1_v32 (W2 m ρ c) _ _ _ _ _ _ _ (W2_v1 m ρ c) (W2_v13 m ρ c)

theorem W4_v1 : W4 m ρ c (Proc.devRef .tc main_v1) = val_main_v1 (F := Ideal) (m ((c : Thread nD τ).loc main_arg4)) :=
  (W4_of m ρ c main_v1 (by decide)).trans (W3_v1 m ρ c)
theorem W4_v13 : W4 m ρ c (Proc.devRef .tc main_v13) = val_main_v24 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W4_of m ρ c main_v13 (by decide)).trans (W3_v13 m ρ c)
theorem W4_v17 : W4 m ρ c (Proc.devRef .tc main_v17) = val_main_v28 (F := Ideal) (m ((c : Thread nD τ).loc main_arg4)) :=
  (W4_of m ρ c main_v17 (by decide)).trans (W3_v17 m ρ c)
theorem W4_v19 : W4 m ρ c (Proc.devRef .tc main_v19) = val_main_v30 (F := Ideal) (m ((c : Thread nD τ).loc main_arg4)) :=
  (W4_of m ρ c main_v19 (by decide)).trans (W3_v19 m ρ c)
theorem W4_v24 : W4 m ρ c (Proc.devRef .tc main_v24) = val_main_v35 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W4_of m ρ c main_v24 (by decide)).trans (W3_v24 m ρ c)
theorem W4_v33 : W4 m ρ c (Proc.devRef .tc main_v33) = val_main_v44 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  host11_v33 (W3 m ρ c) _ _ _ _ _ _ _ (W3_v32 m ρ c)

theorem W5_v1 : W5 m ρ c (Proc.devRef .tc main_v1) = val_main_v1 (F := Ideal) (m ((c : Thread nD τ).loc main_arg4)) :=
  (W5_of m ρ c main_v1 (by decide)).trans (W4_v1 m ρ c)
theorem W5_v13 : W5 m ρ c (Proc.devRef .tc main_v13) = val_main_v24 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W5_of m ρ c main_v13 (by decide)).trans (W4_v13 m ρ c)
theorem W5_v17 : W5 m ρ c (Proc.devRef .tc main_v17) = val_main_v28 (F := Ideal) (m ((c : Thread nD τ).loc main_arg4)) :=
  (W5_of m ρ c main_v17 (by decide)).trans (W4_v17 m ρ c)
theorem W5_v19 : W5 m ρ c (Proc.devRef .tc main_v19) = val_main_v30 (F := Ideal) (m ((c : Thread nD τ).loc main_arg4)) :=
  (W5_of m ρ c main_v19 (by decide)).trans (W4_v19 m ρ c)
theorem W5_v24 : W5 m ρ c (Proc.devRef .tc main_v24) = val_main_v35 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W5_of m ρ c main_v24 (by decide)).trans (W4_v24 m ρ c)
theorem W5_v36 : W5 m ρ c (Proc.devRef .tc main_v36) = val_main_v47 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  host12_v36 (W4 m ρ c) _ _ _ _ _ _ _ (W4_v33 m ρ c)
theorem W5_v43 : W5 m ρ c (Proc.devRef .tc main_v43) = val_main_v54 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  host12_v43 (W4 m ρ c) _ _ _ _ _ _ _ (W4_v1 m ρ c) (W4_v24 m ρ c)

/-! ## The second region's results: the cube and the fourth power of the difference -/

theorem W6_v44_0 : W6 m ρ c (Proc.devRef .tc main_v44_0) = val_main_v57 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) := by
  rw [W6_main_v44_0, Cert.Val.Diff.final1_2 (V5 m ρ) (dat1 (V5 m ρ) c) (A_eq1 (V5 m ρ) c) (after1_2 (V5 m ρ) c)]
  have e13 : V5 m ρ c main_v13 = _ := W5_v13 m ρ c
  have e43 : V5 m ρ c main_v43 = _ := W5_v43 m ρ c
  rw [e13, e43]; rfl
theorem W6_v44_1 : W6 m ρ c (Proc.devRef .tc main_v44_1) = val_main_v67 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) := by
  rw [W6_main_v44_1, Cert.Val.Diff.final1_3 (V5 m ρ) (dat1 (V5 m ρ) c) (A_eq1 (V5 m ρ) c) (after1_3 (V5 m ρ) c)]
  have e13 : V5 m ρ c main_v13 = _ := W5_v13 m ρ c
  have e43 : V5 m ρ c main_v43 = _ := W5_v43 m ρ c
  rw [e13, e43]; rfl

theorem W6_v1 : W6 m ρ c (Proc.devRef .tc main_v1) = val_main_v1 (F := Ideal) (m ((c : Thread nD τ).loc main_arg4)) :=
  (W6_keep m ρ c main_v1 (by decide)).trans (W5_v1 m ρ c)
theorem W6_v17 : W6 m ρ c (Proc.devRef .tc main_v17) = val_main_v28 (F := Ideal) (m ((c : Thread nD τ).loc main_arg4)) :=
  (W6_keep m ρ c main_v17 (by decide)).trans (W5_v17 m ρ c)
theorem W6_v19 : W6 m ρ c (Proc.devRef .tc main_v19) = val_main_v30 (F := Ideal) (m ((c : Thread nD τ).loc main_arg4)) :=
  (W6_keep m ρ c main_v19 (by decide)).trans (W5_v19 m ρ c)
theorem W6_v24 : W6 m ρ c (Proc.devRef .tc main_v24) = val_main_v35 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W6_keep m ρ c main_v24 (by decide)).trans (W5_v24 m ρ c)
theorem W6_v36 : W6 m ρ c (Proc.devRef .tc main_v36) = val_main_v47 (F := Ideal) (m ((c : Thread nD τ).loc main_arg1)) (m ((c : Thread nD τ).loc main_arg2)) (m ((c : Thread nD τ).loc main_arg4)) (m ((c : Thread nD τ).loc main_arg6)) (m ((c : Thread nD τ).loc main_arg7)) (m ((c : Thread nD τ).loc main_arg8)) (m ((c : Thread nD τ).loc main_arg9)) :=
  (W6_keep m ρ c main_v36 (by decide)).trans (W5_v36 m ρ c)

/-! ## Before the third region: the 201 node features and the biases as rows -/

theorem W7_v68 : W7 m ρ c (Proc.devRef .tc main_v68) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  host2_v68 (W6 m ρ c) _ _ _ _ _ _ _ _ _ _
    (W6_launch m ρ c main_arg0 (by decide) (by decide) (by decide) (by decide) (by decide) (by decide))
    (W6_launch m ρ c main_arg3 (by decide) (by decide) (by decide) (by decide) (by decide) (by decide))
    (W6_launch m ρ c main_arg5 (by decide) (by decide) (by decide) (by decide) (by decide) (by decide))
    (W6_v1 m ρ c) (W6_v17 m ρ c) (W6_v19 m ρ c) (W6_v24 m ρ c) (W6_v36 m ρ c) (W6_v44_0 m ρ c) (W6_v44_1 m ρ c)
theorem W7_v69 : W7 m ρ c (Proc.devRef .tc main_v69) = shapeCast _ (m ((c : Thread nD τ).loc main_arg11)) shapeCasts_S64_S1x64 :=
  host2_v69 (W6 m ρ c) _ (W6_launch m ρ c main_arg11 (by decide) (by decide) (by decide) (by decide) (by decide) (by decide))
theorem W7_v70 : W7 m ρ c (Proc.devRef .tc main_v70) = shapeCast _ (m ((c : Thread nD τ).loc main_arg13)) shapeCasts_S64_S1x64 :=
  host2_v70 (W6 m ρ c) _ (W6_launch m ρ c main_arg13 (by decide) (by decide) (by decide) (by decide) (by decide) (by decide))

/-! ## The third region's result: the node perceptron, which is the reference's result -/

theorem W8_v71 : W8 m ρ c (Proc.devRef .tc main_v71) = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [W8_main_v71, Cert.Val.Node.final2 (V7 m ρ) (dat2 (V7 m ρ) c) (A_eq2 (V7 m ρ) c) (after2_5 (V7 m ρ) c)]
  have e68 : V7 m ρ c main_v68 = _ := W7_v68 m ρ c
  have e69 : V7 m ρ c main_v69 = _ := W7_v69 m ρ c
  have e70 : V7 m ρ c main_v70 = _ := W7_v70 m ρ c
  have e10 : V7 m ρ c main_arg10 = _ := W7_launch m ρ c main_arg10 (by decide) (by decide) (by decide) (by decide) (by decide) (by decide) (by decide)
  have e12 : V7 m ρ c main_arg12 = _ := W7_launch m ρ c main_arg12 (by decide) (by decide) (by decide) (by decide) (by decide) (by decide) (by decide)
  rw [e68, e69, e70, e10, e12]
  exact (Cert.Val.Node.ref_eq _ _ _ _ _ _ _ _ _ _ _ _ _ _ _ _).symm

end Cert.Val.Alg

end
-- ==== Proof.lean ====
/-
  The certificate of the edge-statistics graph layer: an edge perceptron over 3,200,000 edges, per-node count,
  mean, deviation, skewness and kurtosis of its outputs by segment sums over the source node, and a node
  perceptron over the 201 resulting features, as three tiled kernels among host operations, against the same
  computation written on whole arrays.

  Frames. The two kernel programs (the printed one at the word-level instance, its idealization at the extended
  reals) run to the end without a fault and leave their arguments as launched: each of their three regions is a
  grid of points whose body loads whole blocks, computes, and stores whole blocks, so every point's effect on
  its staging buffers is a function of the blocks it was handed, and the host operations between the regions
  write only their own result buffers (Proof/K, Proof/KI). The reference has no kernel: its frame is its run
  with the result forgotten.

  Preservation. The idealization rewrote no operation of the kernel program, so there is nothing to preserve.

  Value. At the extended reals, where a change of float format is the identity, the two programs compute the
  same sums in the same order; the only differences are that the kernel program computes the two perceptrons
  and the powers of the difference block of rows by block of rows, multiplies matrices into a zero accumulator,
  and joins and broadcasts inside its kernels what the reference joins and broadcasts on the host. Reading each
  block at an index gives the whole-array function (Proof/Val), and the host operations between the regions
  are the reference's own (Proof/Val/Host, Proof/Alg). No precondition is used: no step needs the inputs finite.
-/
import proofs.«143132_j31748398252728_1_alg».proof.Defs
import proofs.«143132_j31748398252728_1_alg».proof.Proof.Gen.Kernel
import proofs.«143132_j31748398252728_1_alg».proof.Proof.Gen.KernelIdeal
import proofs.«143132_j31748398252728_1_alg».proof.Proof.Gen.ReferenceIdeal
import proofs.«143132_j31748398252728_1_alg».proof.Proof.Gen.Pre_finite_inputs
import proofs.«143132_j31748398252728_1_alg».proof.Proof.K.Run
import proofs.«143132_j31748398252728_1_alg».proof.Proof.KI.Run
import proofs.«143132_j31748398252728_1_alg».proof.Proof.RefRun
import proofs.«143132_j31748398252728_1_alg».proof.Proof.Alg
import Idealize.ShloMosaic.Adequacy
import Idealize.ShloMosaic.Init

set_option maxRecDepth 16384

noncomputable section

namespace Cert.Proof

open Idealize.ShloMosaic Idealize.ShloMosaic.TcCoe Idealize.SL.Sem

/-- The printed kernel program runs and leaves its arguments as launched. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.ValueC.run (F := Ideal) m ρ)

/-- The idealization rewrote nothing. -/
theorem preserves : Cert.preserves_Kernel_KernelIdeal := trivial

/-- Both idealized programs end with the reference's last stage of the arguments in their result. -/
theorem algebraic : Cert.algebraic_KernelIdeal_ReferenceIdeal := by
  intro m ρ m' ρ' _ hagree
  refine ⟨fun c => Cert.ReferenceIdeal.Read.val_main_v96 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Fr.run m ρ)
    exact ⟨(h c _ (Cert.KernelIdeal.Fr.mem_uc Cert.KernelIdeal.main_v71 (by decide))).trans (Cert.Val.Alg.W8_v71 m ρ c),
      (h c _ (Cert.KernelIdeal.Fr.mem_uc Cert.KernelIdeal.main_arg0 (by decide))).trans (Cert.KernelIdeal.Fr.W8_main_arg0 m ρ c),
      (h c _ (Cert.KernelIdeal.Fr.mem_uc Cert.KernelIdeal.main_arg1 (by decide))).trans (Cert.KernelIdeal.Fr.W8_main_arg1 m ρ c),
      (h c _ (Cert.KernelIdeal.Fr.mem_uc Cert.KernelIdeal.main_arg2 (by decide))).trans (Cert.KernelIdeal.Fr.W8_main_arg2 m ρ c),
      (h c _ (Cert.KernelIdeal.Fr.mem_uc Cert.KernelIdeal.main_arg3 (by decide))).trans (Cert.KernelIdeal.Fr.W8_main_arg3 m ρ c),
      (h c _ (Cert.KernelIdeal.Fr.mem_uc Cert.KernelIdeal.main_arg4 (by decide))).trans (Cert.KernelIdeal.Fr.W8_main_arg4 m ρ c),
      (h c _ (Cert.KernelIdeal.Fr.mem_uc Cert.KernelIdeal.main_arg5 (by decide))).trans (Cert.KernelIdeal.Fr.W8_main_arg5 m ρ c),
      (h c _ (Cert.KernelIdeal.Fr.mem_uc Cert.KernelIdeal.main_arg6 (by decide))).trans (Cert.KernelIdeal.Fr.W8_main_arg6 m ρ c),
      (h c _ (Cert.KernelIdeal.Fr.mem_uc Cert.KernelIdeal.main_arg7 (by decide))).trans (Cert.KernelIdeal.Fr.W8_main_arg7 m ρ c),
      (h c _ (Cert.KernelIdeal.Fr.mem_uc Cert.KernelIdeal.main_arg8 (by decide))).trans (Cert.KernelIdeal.Fr.W8_main_arg8 m ρ c),
      (h c _ (Cert.KernelIdeal.Fr.mem_uc Cert.KernelIdeal.main_arg9 (by decide))).trans (Cert.KernelIdeal.Fr.W8_main_arg9 m ρ c),
      (h c _ (Cert.KernelIdeal.Fr.mem_uc Cert.KernelIdeal.main_arg10 (by decide))).trans (Cert.KernelIdeal.Fr.W8_main_arg10 m ρ c),
      (h c _ (Cert.KernelIdeal.Fr.mem_uc Cert.KernelIdeal.main_arg11 (by decide))).trans (Cert.KernelIdeal.Fr.W8_main_arg11 m ρ c),
      (h c _ (Cert.KernelIdeal.Fr.mem_uc Cert.KernelIdeal.main_arg12 (by decide))).trans (Cert.KernelIdeal.Fr.W8_main_arg12 m ρ c),
      (h c _ (Cert.KernelIdeal.Fr.mem_uc Cert.KernelIdeal.main_arg13 (by decide))).trans (Cert.KernelIdeal.Fr.W8_main_arg13 m ρ c)⟩
  · refine (θ_run Cert.ReferenceIdeal.defs _ _).mono (fun r h c => ⟨?_, (h c).2⟩) (Cert.ReferenceIdeal.ValueC.run (F := Ideal) m' ρ')
    rw [(h c).1]
    unfold Cert.ReferenceIdeal.ValueC.res_main_v96
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
